-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x101 : Shape := ⟨2, ![65536, 101]⟩
abbrev S101x512 : Shape := ⟨2, ![101, 512]⟩
abbrev S1x512 : Shape := ⟨2, ![1, 512]⟩
abbrev S3x101x512 : Shape := ⟨3, ![3, 101, 512]⟩
abbrev S3x512x512 : Shape := ⟨3, ![3, 512, 512]⟩
abbrev S3x1x512 : Shape := ⟨3, ![3, 1, 512]⟩
abbrev S512x1 : Shape := ⟨2, ![512, 1]⟩
abbrev S1x1 : Shape := ⟨2, ![1, 1]⟩
abbrev S_ : Shape := ⟨0, ![]⟩

class Facts : Prop where
  bcast_S_S65536x101 : S_.BroadcastsInDim S65536x101 (![] : Fin 0 → Fin S65536x101.rank)
  reducesTo_S65536x101_S_d0_1 : S65536x101.ReducesTo [0, 1] S_
  h_S_ : 0 < S_.numel
  bcast_S_S101x512 : S_.BroadcastsInDim S101x512 (![] : Fin 0 → Fin S101x512.rank)
  reducesTo_S101x512_S_d0_1 : S101x512.ReducesTo [0, 1] S_
  bcast_S_S1x512 : S_.BroadcastsInDim S1x512 (![] : Fin 0 → Fin S1x512.rank)
  reducesTo_S1x512_S_d0_1 : S1x512.ReducesTo [0, 1] S_
  bcast_S_S3x101x512 : S_.BroadcastsInDim S3x101x512 (![] : Fin 0 → Fin S3x101x512.rank)
  reducesTo_S3x101x512_S_d0_1_2 : S3x101x512.ReducesTo [0, 1, 2] S_
  bcast_S_S3x512x512 : S_.BroadcastsInDim S3x512x512 (![] : Fin 0 → Fin S3x512x512.rank)
  reducesTo_S3x512x512_S_d0_1_2 : S3x512x512.ReducesTo [0, 1, 2] S_
  bcast_S_S3x1x512 : S_.BroadcastsInDim S3x1x512 (![] : Fin 0 → Fin S3x1x512.rank)
  reducesTo_S3x1x512_S_d0_1_2 : S3x1x512.ReducesTo [0, 1, 2] S_
  bcast_S_S512x1 : S_.BroadcastsInDim S512x1 (![] : Fin 0 → Fin S512x1.rank)
  reducesTo_S512x1_S_d0_1 : S512x1.ReducesTo [0, 1] S_
  bcast_S_S1x1 : S_.BroadcastsInDim S1x1 (![] : Fin 0 → Fin S1x1.rank)
  reducesTo_S1x1_S_d0_1 : S1x1.ReducesTo [0, 1] S_

variable [Facts]

def fn_part4 {F : FTy → Type} [FloatOps F] (main_arg14 : FVec F S3x1x512 .f32) (main_arg15 : FVec F S512x1 .f32) (main_arg16 : FVec F S1x1 .f32) (main_v63 : IVec S_ 1) (main_v67 : IVec S_ 1) : IVec S_ 1 :=
  let main_v68 : IVec S_ 1 := andi main_v63 main_v67
  let main_v69 : FVec F S3x1x512 .f32 := Host.absf main_arg14
  let main_cst_26 : FVec F S_ .f32 := constant S_ .f32 0x7F800000#32
  let main_v70 : FVec F S3x1x512 .f32 := broadcastInDim S3x1x512 ![] bcast_S_S3x1x512 main_cst_26
  let main_v71 : IVec S3x1x512 1 := cmpf .olt main_v69 main_v70
  let main_c_27 : IVec S_ 1 := constantI S_ 1 1#1
  let main_v72 : IVec S_ 1 := (fun x v => Host.reduce IntOp.andi x v reducesTo_S3x1x512_S_d0_1_2 h_S_) main_v71 main_c_27
  let main_v73 : IVec S_ 1 := andi main_v68 main_v72
  let main_v74 : FVec F S512x1 .f32 := Host.absf main_arg15
  let main_cst_28 : FVec F S_ .f32 := constant S_ .f32 0x7F800000#32
  let main_v75 : FVec F S512x1 .f32 := broadcastInDim S512x1 ![] bcast_S_S512x1 main_cst_28
  let main_v76 : IVec S512x1 1 := cmpf .olt main_v74 main_v75
  let main_c_29 : IVec S_ 1 := constantI S_ 1 1#1
  let main_v77 : IVec S_ 1 := (fun x v => Host.reduce IntOp.andi x v reducesTo_S512x1_S_d0_1 h_S_) main_v76 main_c_29
  let main_v78 : IVec S_ 1 := andi main_v73 main_v77
  let main_v79 : FVec F S1x1 .f32 := Host.absf main_arg16
  let main_cst_30 : FVec F S_ .f32 := constant S_ .f32 0x7F800000#32
  let main_v80 : FVec F S1x1 .f32 := broadcastInDim S1x1 ![] bcast_S_S1x1 main_cst_30
  let main_v81 : IVec S1x1 1 := cmpf .olt main_v79 main_v80
  let main_c_31 : IVec S_ 1 := constantI S_ 1 1#1
  let main_v82 : IVec S_ 1 := (fun x v => Host.reduce IntOp.andi x v reducesTo_S1x1_S_d0_1 h_S_) main_v81 main_c_31
  let main_v83 : IVec S_ 1 := andi main_v78 main_v82
  main_v83

def fn_part3 {F : FTy → Type} [FloatOps F] (main_arg11 : FVec F S3x1x512 .f32) (main_arg12 : FVec F S3x1x512 .f32) (main_arg13 : FVec F S3x1x512 .f32) (main_arg14 : FVec F S3x1x512 .f32) (main_arg15 : FVec F S512x1 .f32) (main_arg16 : FVec F S1x1 .f32) (main_v48 : IVec S_ 1) (main_v49 : FVec F S3x512x512 .f32) (main_v50 : FVec F S3x512x512 .f32) : IVec S_ 1 :=
  let main_v51 : IVec S3x512x512 1 := cmpf .olt main_v49 main_v50
  let main_c_19 : IVec S_ 1 := constantI S_ 1 1#1
  let main_v52 : IVec S_ 1 := (fun x v => Host.reduce IntOp.andi x v reducesTo_S3x512x512_S_d0_1_2 h_S_) main_v51 main_c_19
  let main_v53 : IVec S_ 1 := andi main_v48 main_v52
  let main_v54 : FVec F S3x1x512 .f32 := Host.absf main_arg11
  let main_cst_20 : FVec F S_ .f32 := constant S_ .f32 0x7F800000#32
  let main_v55 : FVec F S3x1x512 .f32 := broadcastInDim S3x1x512 ![] bcast_S_S3x1x512 main_cst_20
  let main_v56 : IVec S3x1x512 1 := cmpf .olt main_v54 main_v55
  let main_c_21 : IVec S_ 1 := constantI S_ 1 1#1
  let main_v57 : IVec S_ 1 := (fun x v => Host.reduce IntOp.andi x v reducesTo_S3x1x512_S_d0_1_2 h_S_) main_v56 main_c_21
  let main_v58 : IVec S_ 1 := andi main_v53 main_v57
  let main_v59 : FVec F S3x1x512 .f32 := Host.absf main_arg12
  let main_cst_22 : FVec F S_ .f32 := constant S_ .f32 0x7F800000#32
  let main_v60 : FVec F S3x1x512 .f32 := broadcastInDim S3x1x512 ![] bcast_S_S3x1x512 main_cst_22
  let main_v61 : IVec S3x1x512 1 := cmpf .olt main_v59 main_v60
  let main_c_23 : IVec S_ 1 := constantI S_ 1 1#1
  let main_v62 : IVec S_ 1 := (fun x v => Host.reduce IntOp.andi x v reducesTo_S3x1x512_S_d0_1_2 h_S_) main_v61 main_c_23
  let main_v63 : IVec S_ 1 := andi main_v58 main_v62
  let main_v64 : FVec F S3x1x512 .f32 := Host.absf main_arg13
  let main_cst_24 : FVec F S_ .f32 := constant S_ .f32 0x7F800000#32
  let main_v65 : FVec F S3x1x512 .f32 := broadcastInDim S3x1x512 ![] bcast_S_S3x1x512 main_cst_24
  let main_v66 : IVec S3x1x512 1 := cmpf .olt main_v64 main_v65
  let main_c_25 : IVec S_ 1 := constantI S_ 1 1#1
  let main_v67 : IVec S_ 1 := (fun x v => Host.reduce IntOp.andi x v reducesTo_S3x1x512_S_d0_1_2 h_S_) main_v66 main_c_25
  fn_part4 (F := F) main_arg14 main_arg15 main_arg16 main_v63 main_v67

def fn_part2 {F : FTy → Type} [FloatOps F] (main_arg7 : FVec F S3x512x512 .f32) (main_arg8 : FVec F S3x512x512 .f32) (main_arg9 : FVec F S3x512x512 .f32) (main_arg10 : FVec F S3x512x512 .f32) (main_arg11 : FVec F S3x1x512 .f32) (main_arg12 : FVec F S3x1x512 .f32) (main_arg13 : FVec F S3x1x512 .f32) (main_arg14 : FVec F S3x1x512 .f32) (main_arg15 : FVec F S512x1 .f32) (main_arg16 : FVec F S1x1 .f32) (main_v33 : IVec S_ 1) : IVec S_ 1 :=
  let main_v34 : FVec F S3x512x512 .f32 := Host.absf main_arg7
  let main_cst_12 : FVec F S_ .f32 := constant S_ .f32 0x7F800000#32
  let main_v35 : FVec F S3x512x512 .f32 := broadcastInDim S3x512x512 ![] bcast_S_S3x512x512 main_cst_12
  let main_v36 : IVec S3x512x512 1 := cmpf .olt main_v34 main_v35
  let main_c_13 : IVec S_ 1 := constantI S_ 1 1#1
  let main_v37 : IVec S_ 1 := (fun x v => Host.reduce IntOp.andi x v reducesTo_S3x512x512_S_d0_1_2 h_S_) main_v36 main_c_13
  let main_v38 : IVec S_ 1 := andi main_v33 main_v37
  let main_v39 : FVec F S3x512x512 .f32 := Host.absf main_arg8
  let main_cst_14 : FVec F S_ .f32 := constant S_ .f32 0x7F800000#32
  let main_v40 : FVec F S3x512x512 .f32 := broadcastInDim S3x512x512 ![] bcast_S_S3x512x512 main_cst_14
  let main_v41 : IVec S3x512x512 1 := cmpf .olt main_v39 main_v40
  let main_c_15 : IVec S_ 1 := constantI S_ 1 1#1
  let main_v42 : IVec S_ 1 := (fun x v => Host.reduce IntOp.andi x v reducesTo_S3x512x512_S_d0_1_2 h_S_) main_v41 main_c_15
  let main_v43 : IVec S_ 1 := andi main_v38 main_v42
  let main_v44 : FVec F S3x512x512 .f32 := Host.absf main_arg9
  let main_cst_16 : FVec F S_ .f32 := constant S_ .f32 0x7F800000#32
  let main_v45 : FVec F S3x512x512 .f32 := broadcastInDim S3x512x512 ![] bcast_S_S3x512x512 main_cst_16
  let main_v46 : IVec S3x512x512 1 := cmpf .olt main_v44 main_v45
  let main_c_17 : IVec S_ 1 := constantI S_ 1 1#1
  let main_v47 : IVec S_ 1 := (fun x v => Host.reduce IntOp.andi x v reducesTo_S3x512x512_S_d0_1_2 h_S_) main_v46 main_c_17
  let main_v48 : IVec S_ 1 := andi main_v43 main_v47
  let main_v49 : FVec F S3x512x512 .f32 := Host.absf main_arg10
  let main_cst_18 : FVec F S_ .f32 := constant S_ .f32 0x7F800000#32
  let main_v50 : FVec F S3x512x512 .f32 := broadcastInDim S3x512x512 ![] bcast_S_S3x512x512 main_cst_18
  fn_part3 (F := F) main_arg11 main_arg12 main_arg13 main_arg14 main_arg15 main_arg16 main_v48 main_v49 main_v50

def fn_part1 {F : FTy → Type} [FloatOps F] (main_arg4 : FVec F S3x101x512 .f32) (main_arg5 : FVec F S3x101x512 .f32) (main_arg6 : FVec F S3x101x512 .f32) (main_arg7 : FVec F S3x512x512 .f32) (main_arg8 : FVec F S3x512x512 .f32) (main_arg9 : FVec F S3x512x512 .f32) (main_arg10 : FVec F S3x512x512 .f32) (main_arg11 : FVec F S3x1x512 .f32) (main_arg12 : FVec F S3x1x512 .f32) (main_arg13 : FVec F S3x1x512 .f32) (main_arg14 : FVec F S3x1x512 .f32) (main_arg15 : FVec F S512x1 .f32) (main_arg16 : FVec F S1x1 .f32) (main_v13 : IVec S_ 1) (main_v16 : IVec S3x101x512 1) : IVec S_ 1 :=
  let main_c_5 : IVec S_ 1 := constantI S_ 1 1#1
  let main_v17 : IVec S_ 1 := (fun x v => Host.reduce IntOp.andi x v reducesTo_S3x101x512_S_d0_1_2 h_S_) main_v16 main_c_5
  let main_v18 : IVec S_ 1 := andi main_v13 main_v17
  let main_v19 : FVec F S3x101x512 .f32 := Host.absf main_arg4
  let main_cst_6 : FVec F S_ .f32 := constant S_ .f32 0x7F800000#32
  let main_v20 : FVec F S3x101x512 .f32 := broadcastInDim S3x101x512 ![] bcast_S_S3x101x512 main_cst_6
  let main_v21 : IVec S3x101x512 1 := cmpf .olt main_v19 main_v20
  let main_c_7 : IVec S_ 1 := constantI S_ 1 1#1
  let main_v22 : IVec S_ 1 := (fun x v => Host.reduce IntOp.andi x v reducesTo_S3x101x512_S_d0_1_2 h_S_) main_v21 main_c_7
  let main_v23 : IVec S_ 1 := andi main_v18 main_v22
  let main_v24 : FVec F S3x101x512 .f32 := Host.absf main_arg5
  let main_cst_8 : FVec F S_ .f32 := constant S_ .f32 0x7F800000#32
  let main_v25 : FVec F S3x101x512 .f32 := broadcastInDim S3x101x512 ![] bcast_S_S3x101x512 main_cst_8
  let main_v26 : IVec S3x101x512 1 := cmpf .olt main_v24 main_v25
  let main_c_9 : IVec S_ 1 := constantI S_ 1 1#1
  let main_v27 : IVec S_ 1 := (fun x v => Host.reduce IntOp.andi x v reducesTo_S3x101x512_S_d0_1_2 h_S_) main_v26 main_c_9
  let main_v28 : IVec S_ 1 := andi main_v23 main_v27
  let main_v29 : FVec F S3x101x512 .f32 := Host.absf main_arg6
  let main_cst_10 : FVec F S_ .f32 := constant S_ .f32 0x7F800000#32
  let main_v30 : FVec F S3x101x512 .f32 := broadcastInDim S3x101x512 ![] bcast_S_S3x101x512 main_cst_10
  let main_v31 : IVec S3x101x512 1 := cmpf .olt main_v29 main_v30
  let main_c_11 : IVec S_ 1 := constantI S_ 1 1#1
  let main_v32 : IVec S_ 1 := (fun x v => Host.reduce IntOp.andi x v reducesTo_S3x101x512_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S65536x101 .f32) (main_arg1 : FVec F S101x512 .f32) (main_arg2 : FVec F S1x512 .f32) (main_arg3 : FVec F S3x101x512 .f32) (main_arg4 : FVec F S3x101x512 .f32) (main_arg5 : FVec F S3x101x512 .f32) (main_arg6 : FVec F S3x101x512 .f32) (main_arg7 : FVec F S3x512x512 .f32) (main_arg8 : FVec F S3x512x512 .f32) (main_arg9 : FVec F S3x512x512 .f32) (main_arg10 : FVec F S3x512x512 .f32) (main_arg11 : FVec F S3x1x512 .f32) (main_arg12 : FVec F S3x1x512 .f32) (main_arg13 : FVec F S3x1x512 .f32) (main_arg14 : FVec F S3x1x512 .f32) (main_arg15 : FVec F S512x1 .f32) (main_arg16 : FVec F S1x1 .f32) : IVec S_ 1 :=
  let main_v0 : FVec F S65536x101 .f32 := Host.absf main_arg0
  let main_cst : FVec F S_ .f32 := constant S_ .f32 0x7F800000#32
  let main_v1 : FVec F S65536x101 .f32 := broadcastInDim S65536x101 ![] bcast_S_S65536x101 main_cst
  let main_v2 : IVec S65536x101 1 := cmpf .olt main_v0 main_v1
  let main_c : IVec S_ 1 := constantI S_ 1 1#1
  let main_v3 : IVec S_ 1 := (fun x v => Host.reduce IntOp.andi x v reducesTo_S65536x101_S_d0_1 h_S_) main_v2 main_c
  let main_v4 : FVec F S101x512 .f32 := Host.absf main_arg1
  let main_cst_0 : FVec F S_ .f32 := constant S_ .f32 0x7F800000#32
  let main_v5 : FVec F S101x512 .f32 := broadcastInDim S101x512 ![] bcast_S_S101x512 main_cst_0
  let main_v6 : IVec S101x512 1 := cmpf .olt main_v4 main_v5
  let main_c_1 : IVec S_ 1 := constantI S_ 1 1#1
  let main_v7 : IVec S_ 1 := (fun x v => Host.reduce IntOp.andi x v reducesTo_S101x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S3x101x512 .f32 := Host.absf main_arg3
  let main_cst_4 : FVec F S_ .f32 := constant S_ .f32 0x7F800000#32
  let main_v15 : FVec F S3x101x512 .f32 := broadcastInDim S3x101x512 ![] bcast_S_S3x101x512 main_cst_4
  let main_v16 : IVec S3x101x512 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S65536x101 : Shape := ⟨2, ![65536, 101]⟩
abbrev S101x512 : Shape := ⟨2, ![101, 512]⟩
abbrev S1x512 : Shape := ⟨2, ![1, 512]⟩
abbrev S3x101x512 : Shape := ⟨3, ![3, 101, 512]⟩
abbrev S3x512x512 : Shape := ⟨3, ![3, 512, 512]⟩
abbrev S3x1x512 : Shape := ⟨3, ![3, 1, 512]⟩
abbrev S512x1 : Shape := ⟨2, ![512, 1]⟩
abbrev S1x1 : Shape := ⟨2, ![1, 1]⟩
abbrev S3x101x2048 : Shape := ⟨3, ![3, 101, 2048]⟩
abbrev S3x512x1536 : Shape := ⟨3, ![3, 512, 1536]⟩
abbrev S3x1x1536 : Shape := ⟨3, ![3, 1, 1536]⟩
abbrev S65536x1 : Shape := ⟨2, ![65536, 1]⟩
abbrev S1024x101 : Shape := ⟨2, ![1024, 101]⟩
abbrev S1024x1 : Shape := ⟨2, ![1024, 1]⟩
abbrev S1024x512 : Shape := ⟨2, ![1024, 512]⟩
abbrev S1x101x2048 : Shape := ⟨3, ![1, 101, 2048]⟩
abbrev S101x2048 : Shape := ⟨2, ![101, 2048]⟩
abbrev S1x512x1536 : Shape := ⟨3, ![1, 512, 1536]⟩
abbrev S512x1536 : Shape := ⟨2, ![512, 1536]⟩
abbrev S1x512x512 : Shape := ⟨3, ![1, 512, 512]⟩
abbrev S512x512 : Shape := ⟨2, ![512, 512]⟩
abbrev S1x1x1536 : Shape := ⟨3, ![1, 1, 1536]⟩
abbrev S1x1536 : Shape := ⟨2, ![1, 1536]⟩
abbrev S1x1x512 : Shape := ⟨3, ![1, 1, 512]⟩
abbrev S1024x2048 : Shape := ⟨2, ![1024, 2048]⟩
abbrev S1024x1536 : Shape := ⟨2, ![1024, 1536]⟩

abbrev nBuf : Space → Nat
  | .hbm => 26
  | .vmem => 13
  | .smem => 0
  | _ => 0

abbrev bufTy : (tb : Table) → Fin (tcTables nBuf tb) → BufTy
  | .hbm, ⟨0, _⟩ => ⟨S65536x101, .f32⟩
  | .hbm, ⟨1, _⟩ => ⟨S101x512, .f32⟩
  | .hbm, ⟨2, _⟩ => ⟨S1x512, .f32⟩
  | .hbm, ⟨3, _⟩ => ⟨S3x101x512, .f32⟩
  | .hbm, ⟨4, _⟩ => ⟨S3x101x512, .f32⟩
  | .hbm, ⟨5, _⟩ => ⟨S3x101x512, .f32⟩
  | .hbm, ⟨6, _⟩ => ⟨S3x101x512, .f32⟩
  | .hbm, ⟨7, _⟩ => ⟨S3x512x512, .f32⟩
  | .hbm, ⟨8, _⟩ => ⟨S3x512x512, .f32⟩
  | .hbm, ⟨9, _⟩ => ⟨S3x512x512, .f32⟩
  | .hbm, ⟨10, _⟩ => ⟨S3x512x512, .f32⟩
  | .hbm, ⟨11, _⟩ => ⟨S3x1x512, .f32⟩
  | .hbm, ⟨12, _⟩ => ⟨S3x1x512, .f32⟩
  | .hbm, ⟨13, _⟩ => ⟨S3x1x512, .f32⟩
  | .hbm, ⟨14, _⟩ => ⟨S3x1x512, .f32⟩
  | .hbm, ⟨15, _⟩ => ⟨S512x1, .f32⟩
  | .hbm, ⟨16, _⟩ => ⟨S1x1, .f32⟩
  | .hbm, ⟨17, _⟩ => ⟨S3x101x2048, .f32⟩
  | .hbm, ⟨18, _⟩ => ⟨S3x512x1536, .f32⟩
  | .hbm, ⟨19, _⟩ => ⟨S3x1x1536, .f32⟩
  | .hbm, ⟨20, _⟩ => ⟨S101x512, .bf16⟩
  | .hbm, ⟨21, _⟩ => ⟨S3x101x2048, .bf16⟩
  | .hbm, ⟨22, _⟩ => ⟨S3x512x1536, .bf16⟩
  | .hbm, ⟨23, _⟩ => ⟨S3x512x512, .bf16⟩
  | .hbm, ⟨24, _⟩ => ⟨S512x1, .bf16⟩
  | .hbm, ⟨25, _⟩ => ⟨S65536x1, .f32⟩
  | .local _ .vmem, ⟨0, _⟩ => ⟨S1024x101, .f32⟩
  | .local _ .vmem, ⟨1, _⟩ => ⟨S1024x101, .f32⟩
  | .local _ .vmem, ⟨2, _⟩ => ⟨S101x512, .bf16⟩
  | .local _ .vmem, ⟨3, _⟩ => ⟨S1x512, .f32⟩
  | .local _ .vmem, ⟨4, _⟩ => ⟨S3x101x2048, .bf16⟩
  | .local _ .vmem, ⟨5, _⟩ => ⟨S3x512x1536, .bf16⟩
  | .local _ .vmem, ⟨6, _⟩ => ⟨S3x512x512, .bf16⟩
  | .local _ .vmem, ⟨7, _⟩ => ⟨S3x1x1536, .f32⟩
  | .local _ .vmem, ⟨8, _⟩ => ⟨S3x1x512, .f32⟩
  | .local _ .vmem, ⟨9, _⟩ => ⟨S512x1, .bf16⟩
  | .local _ .vmem, ⟨10, _⟩ => ⟨S1x1, .f32⟩
  | .local _ .vmem, ⟨11, _⟩ => ⟨S1024x1, .f32⟩
  | .local _ .vmem, ⟨12, _⟩ => ⟨S1024x1, .f32⟩
  | _, _ => ⟨S65536x101, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x101 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S101x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x101x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S3x101x512_S3x101x512_S3x101x512_S3x101x512_S3x101x2048_d2 : Shape.Concatenates [S3x101x512, S3x101x512, S3x101x512, S3x101x512] S3x101x2048 2
  concatenates_S3x512x512_S3x512x512_S3x512x512_S3x512x1536_d2 : Shape.Concatenates [S3x512x512, S3x512x512, S3x512x512] S3x512x1536 2
  concatenates_S3x1x512_S3x1x512_S3x1x512_S3x1x1536_d2 : Shape.Concatenates [S3x1x512, S3x1x512, S3x1x512] S3x1x1536 2
  bitsLt_bf16_f32 : FTy.bits .bf16 < FTy.bits .f32
  inb_S1024x101_S1024x101_0_0 : ∀ a, (![0, 0] : Fin 2 → Nat) a + S1024x101.size a ≤ S1024x101.size a
  h_S1024x101 : 0 < S1024x101.numel
  inb_S101x512_S101x512_0_0 : ∀ a, (![0, 0] : Fin 2 → Nat) a + S101x512.size a ≤ S101x512.size a
  h_S101x512 : 0 < S101x512.numel
  shapeCasts_S101x512_S101x512 : S101x512.ShapeCasts S101x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S3x101x2048_S1x101x2048_0_0_0 : ∀ a, (![0, 0, 0] : Fin 3 → Nat) a + S1x101x2048.size a ≤ S3x101x2048.size a
  h_S1x101x2048 : 0 < S1x101x2048.numel
  shapeCasts_S1x101x2048_S101x2048 : S1x101x2048.ShapeCasts S101x2048
  inb_S3x512x1536_S1x512x1536_0_0_0 : ∀ a, (![0, 0, 0] : Fin 3 → Nat) a + S1x512x1536.size a ≤ S3x512x1536.size a
  h_S1x512x1536 : 0 < S1x512x1536.numel
  shapeCasts_S1x512x1536_S512x1536 : S1x512x1536.ShapeCasts S512x1536
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  inb_S3x1x1536_S1x1x1536_0_0_0 : ∀ a, (![0, 0, 0] : Fin 3 → Nat) a + S1x1x1536.size a ≤ S3x1x1536.size a
  h_S1x1x1536 : 0 < S1x1x1536.numel
  shapeCasts_S1x1x1536_S1x1536 : S1x1x1536.ShapeCasts S1x1536
  inb_S3x1x512_S1x1x512_0_0_0 : ∀ a, (![0, 0, 0] : Fin 3 → Nat) a + S1x1x512.size a ≤ S3x1x512.size a
  h_S1x1x512 : 0 < S1x1x512.numel
  shapeCasts_S1x1x512_S1x512 : S1x1x512.ShapeCasts S1x512
  slices_S1024x2048_o0_0_S1024x512 : S1024x2048.Slices ![0, 0] S1024x512
  slices_S1024x2048_o0_512_S1024x512 : S1024x2048.Slices ![0, 512] S1024x512
  slices_S1024x2048_o0_1024_S1024x512 : S1024x2048.Slices ![0, 1024] S1024x512
  slices_S1024x2048_o0_1536_S1024x512 : S1024x2048.Slices ![0, 1536] S1024x512
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  slices_S1x1536_o0_0_S1x512 : S1x1536.Slices ![0, 0] S1x512
  slices_S1x1536_o0_512_S1x512 : S1x1536.Slices ![0, 512] S1x512
  slices_S1x1536_o0_1024_S1x512 : S1x1536.Slices ![0, 1024] S1x512
  inb_S3x101x2048_S1x101x2048_1_0_0 : ∀ a, (![1, 0, 0] : Fin 3 → Nat) a + S1x101x2048.size a ≤ S3x101x2048.size a
  inb_S3x512x1536_S1x512x1536_1_0_0 : ∀ a, (![1, 0, 0] : Fin 3 → Nat) a + S1x512x1536.size a ≤ S3x512x1536.size a
  inb_S3x512x512_S1x512x512_1_0_0 : ∀ a, (![1, 0, 0] : Fin 3 → Nat) a + S1x512x512.size a ≤ S3x512x512.size a
  inb_S3x1x1536_S1x1x1536_1_0_0 : ∀ a, (![1, 0, 0] : Fin 3 → Nat) a + S1x1x1536.size a ≤ S3x1x1536.size a
  inb_S3x1x512_S1x1x512_1_0_0 : ∀ a, (![1, 0, 0] : Fin 3 → Nat) a + S1x1x512.size a ≤ S3x1x512.size a
  inb_S3x101x2048_S1x101x2048_2_0_0 : ∀ a, (![2, 0, 0] : Fin 3 → Nat) a + S1x101x2048.size a ≤ S3x101x2048.size a
  inb_S3x512x1536_S1x512x1536_2_0_0 : ∀ a, (![2, 0, 0] : Fin 3 → Nat) a + S1x512x1536.size a ≤ S3x512x1536.size a
  inb_S3x512x512_S1x512x512_2_0_0 : ∀ a, (![2, 0, 0] : Fin 3 → Nat) a + S1x512x512.size a ≤ S3x512x512.size a
  inb_S3x1x1536_S1x1x1536_2_0_0 : ∀ a, (![2, 0, 0] : Fin 3 → Nat) a + S1x1x1536.size a ≤ S3x1x1536.size a
  inb_S3x1x512_S1x1x512_2_0_0 : ∀ a, (![2, 0, 0] : Fin 3 → Nat) a + S1x1x512.size a ≤ S3x1x512.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x101_S101x512_S1024x512_1_0_0_1_n_n_wf : DotDims.WF S1024x101 S101x512 S1024x512 [1] [0] [0] [1] [] []
  dot_S1024x101_S101x2048_S1024x2048_1_0_0_1_n_n_wf : DotDims.WF S1024x101 S101x2048 S1024x2048 [1] [0] [0] [1] [] []
  dot_S1024x512_S512x1536_S1024x1536_1_0_0_1_n_n_wf : DotDims.WF S1024x512 S512x1536 S1024x1536 [1] [0] [0] [1] [] []
  dot_S1024x512_S512x512_S1024x512_1_0_0_1_n_n_wf : DotDims.WF S1024x512 S512x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x101.size a ≤ S65536x101.size a
  hwx0_0 : ∀ i : grid0.Coords, EltTy.bits .f32 = 32 ∨ (Rect.block (s := S65536x101) S1024x101.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S101x512.size a ≤ S101x512.size a
  hwx0_1 : ∀ i : grid0.Coords, EltTy.bits .bf16 = 32 ∨ (Rect.block (s := S101x512) S101x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x101x2048.size a ≤ S3x101x2048.size a
  hwx0_3 : ∀ i : grid0.Coords, EltTy.bits .bf16 = 32 ∨ (Rect.block (s := S3x101x2048) S3x101x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512x1536.size a ≤ S3x512x1536.size a
  hwx0_4 : ∀ i : grid0.Coords, EltTy.bits .bf16 = 32 ∨ (Rect.block (s := S3x512x1536) S3x512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x512x512.size a ≤ S3x512x512.size a
  hwx0_5 : ∀ i : grid0.Coords, EltTy.bits .bf16 = 32 ∨ (Rect.block (s := S3x512x512) S3x512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1x1536.size a ≤ S3x1x1536.size a
  hwx0_6 : ∀ i : grid0.Coords, EltTy.bits .f32 = 32 ∨ (Rect.block (s := S3x1x1536) S3x1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x1x512.size a ≤ S3x1x512.size a
  hwx0_7 : ∀ i : grid0.Coords, EltTy.bits .f32 = 32 ∨ (Rect.block (s := S3x1x512) S3x1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .bf16 = 32 ∨ (Rect.block (s := S512x1) S512x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S65536x1.size a
  hwx0_10 : ∀ i : grid0.Coords, EltTy.bits .f32 = 32 ∨ (Rect.block (s := S65536x1) S1024x1.size (cc0_transform_10 i) (hinb0_10 i)).WholeWords (EltTy.packing .f32)

variable [Facts₀]

def dot_S1024x101_S101x512_S1024x512_1_0_0_1_n_n : DotDims S1024x101 S101x512 S1024x512 where
  lhsContracting := [1]
  rhsContracting := [0]
  lhsNonContracting := [0]
  rhsNonContracting := [1]
  lhsBatch := []
  rhsBatch := []
  wf := dot_S1024x101_S101x512_S1024x512_1_0_0_1_n_n_wf
def dot_S1024x101_S101x2048_S1024x2048_1_0_0_1_n_n : DotDims S1024x101 S101x2048 S1024x2048 where
  lhsContracting := [1]
  rhsContracting := [0]
  lhsNonContracting := [0]
  rhsNonContracting := [1]
  lhsBatch := []
  rhsBatch := []
  wf := dot_S1024x101_S101x2048_S1024x2048_1_0_0_1_n_n_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg0) S1024x101.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S101x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S3x101x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S3x512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S3x512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S3x1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S3x1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg16) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x101 : Shape := ⟨2, ![65536, 101]⟩
abbrev S101x512 : Shape := ⟨2, ![101, 512]⟩
abbrev S1x512 : Shape := ⟨2, ![1, 512]⟩
abbrev S3x101x512 : Shape := ⟨3, ![3, 101, 512]⟩
abbrev S3x512x512 : Shape := ⟨3, ![3, 512, 512]⟩
abbrev S3x1x512 : Shape := ⟨3, ![3, 1, 512]⟩
abbrev S512x1 : Shape := ⟨2, ![512, 1]⟩
abbrev S1x1 : Shape := ⟨2, ![1, 1]⟩
abbrev S65536x512 : Shape := ⟨2, ![65536, 512]⟩
abbrev S1x101x512 : Shape := ⟨3, ![1, 101, 512]⟩
abbrev S1x512x512 : Shape := ⟨3, ![1, 512, 512]⟩
abbrev S512x512 : Shape := ⟨2, ![512, 512]⟩
abbrev S1x1x512 : Shape := ⟨3, ![1, 1, 512]⟩
abbrev S_ : Shape := ⟨0, ![]⟩
abbrev S65536x1 : Shape := ⟨2, ![65536, 1]⟩

abbrev nBuf : Space → Nat
  | .hbm => 189
  | .vmem => 0
  | .smem => 0
  | _ => 0

abbrev hbmTy0_0 (i : Nat) : BufTy := match i % 128 with
  | 0 => ⟨S65536x101, .f32⟩
  | 1 => ⟨S101x512, .f32⟩
  | 2 => ⟨S1x512, .f32⟩
  | 3 => ⟨S3x101x512, .f32⟩
  | 4 => ⟨S3x101x512, .f32⟩
  | 5 => ⟨S3x101x512, .f32⟩
  | 6 => ⟨S3x101x512, .f32⟩
  | 7 => ⟨S3x512x512, .f32⟩
  | 8 => ⟨S3x512x512, .f32⟩
  | 9 => ⟨S3x512x512, .f32⟩
  | 10 => ⟨S3x512x512, .f32⟩
  | 11 => ⟨S3x1x512, .f32⟩
  | 12 => ⟨S3x1x512, .f32⟩
  | 13 => ⟨S3x1x512, .f32⟩
  | 14 => ⟨S3x1x512, .f32⟩
  | 15 => ⟨S512x1, .f32⟩
  | 16 => ⟨S1x1, .f32⟩
  | 17 => ⟨S65536x512, .f32⟩
  | 18 => ⟨S65536x512, .f32⟩
  | 19 => ⟨S65536x512, .f32⟩
  | 20 => ⟨S65536x512, .f32⟩
  | 21 => ⟨S1x101x512, .f32⟩
  | 22 => ⟨S101x512, .f32⟩
  | 23 => ⟨S65536x512, .f32⟩
  | 24 => ⟨S1x512x512, .f32⟩
  | 25 => ⟨S512x512, .f32⟩
  | 26 => ⟨S65536x512, .f32⟩
  | 27 => ⟨S65536x512, .f32⟩
  | 28 => ⟨S1x1x512, .f32⟩
  | 29 => ⟨S1x512, .f32⟩
  | 30 => ⟨S65536x512, .f32⟩
  | 31 => ⟨S65536x512, .f32⟩
  | 32 => ⟨S65536x512, .f32⟩
  | 33 => ⟨S1x101x512, .f32⟩
  | 34 => ⟨S101x512, .f32⟩
  | 35 => ⟨S65536x512, .f32⟩
  | 36 => ⟨S1x512x512, .f32⟩
  | 37 => ⟨S512x512, .f32⟩
  | 38 => ⟨S65536x512, .f32⟩
  | 39 => ⟨S65536x512, .f32⟩
  | 40 => ⟨S1x1x512, .f32⟩
  | 41 => ⟨S1x512, .f32⟩
  | 42 => ⟨S65536x512, .f32⟩
  | 43 => ⟨S65536x512, .f32⟩
  | 44 => ⟨S65536x512, .f32⟩
  | 45 => ⟨S1x101x512, .f32⟩
  | 46 => ⟨S101x512, .f32⟩
  | 47 => ⟨S65536x512, .f32⟩
  | 48 => ⟨S1x512x512, .f32⟩
  | 49 => ⟨S512x512, .f32⟩
  | 50 => ⟨S65536x512, .f32⟩
  | 51 => ⟨S65536x512, .f32⟩
  | 52 => ⟨S1x1x512, .f32⟩
  | 53 => ⟨S1x512, .f32⟩
  | 54 => ⟨S65536x512, .f32⟩
  | 55 => ⟨S65536x512, .f32⟩
  | 56 => ⟨S65536x512, .f32⟩
  | 57 => ⟨S1x101x512, .f32⟩
  | 58 => ⟨S101x512, .f32⟩
  | 59 => ⟨S65536x512, .f32⟩
  | 60 => ⟨S65536x512, .f32⟩
  | 61 => ⟨S1x512x512, .f32⟩
  | 62 => ⟨S512x512, .f32⟩
  | 63 => ⟨S65536x512, .f32⟩
  | 64 => ⟨S65536x512, .f32⟩
  | 65 => ⟨S1x1x512, .f32⟩
  | 66 => ⟨S1x512, .f32⟩
  | 67 => ⟨S65536x512, .f32⟩
  | 68 => ⟨S65536x512, .f32⟩
  | 69 => ⟨S65536x512, .f32⟩
  | 70 => ⟨S_, .f32⟩
  | 71 => ⟨S65536x512, .f32⟩
  | 72 => ⟨S65536x512, .f32⟩
  | 73 => ⟨S65536x512, .f32⟩
  | 74 => ⟨S65536x512, .f32⟩
  | 75 => ⟨S65536x512, .f32⟩
  | 76 => ⟨S1x101x512, .f32⟩
  | 77 => ⟨S101x512, .f32⟩
  | 78 => ⟨S65536x512, .f32⟩
  | 79 => ⟨S1x512x512, .f32⟩
  | 80 => ⟨S512x512, .f32⟩
  | 81 => ⟨S65536x512, .f32⟩
  | 82 => ⟨S65536x512, .f32⟩
  | 83 => ⟨S1x1x512, .f32⟩
  | 84 => ⟨S1x512, .f32⟩
  | 85 => ⟨S65536x512, .f32⟩
  | 86 => ⟨S65536x512, .f32⟩
  | 87 => ⟨S65536x512, .f32⟩
  | 88 => ⟨S1x101x512, .f32⟩
  | 89 => ⟨S101x512, .f32⟩
  | 90 => ⟨S65536x512, .f32⟩
  | 91 => ⟨S1x512x512, .f32⟩
  | 92 => ⟨S512x512, .f32⟩
  | 93 => ⟨S65536x512, .f32⟩
  | 94 => ⟨S65536x512, .f32⟩
  | 95 => ⟨S1x1x512, .f32⟩
  | 96 => ⟨S1x512, .f32⟩
  | 97 => ⟨S65536x512, .f32⟩
  | 98 => ⟨S65536x512, .f32⟩
  | 99 => ⟨S65536x512, .f32⟩
  | 100 => ⟨S1x101x512, .f32⟩
  | 101 => ⟨S101x512, .f32⟩
  | 102 => ⟨S65536x512, .f32⟩
  | 103 => ⟨S1x512x512, .f32⟩
  | 104 => ⟨S512x512, .f32⟩
  | 105 => ⟨S65536x512, .f32⟩
  | 106 => ⟨S65536x512, .f32⟩
  | 107 => ⟨S1x1x512, .f32⟩
  | 108 => ⟨S1x512, .f32⟩
  | 109 => ⟨S65536x512, .f32⟩
  | 110 => ⟨S65536x512, .f32⟩
  | 111 => ⟨S65536x512, .f32⟩
  | 112 => ⟨S1x101x512, .f32⟩
  | 113 => ⟨S101x512, .f32⟩
  | 114 => ⟨S65536x512, .f32⟩
  | 115 => ⟨S65536x512, .f32⟩
  | 116 => ⟨S1x512x512, .f32⟩
  | 117 => ⟨S512x512, .f32⟩
  | 118 => ⟨S65536x512, .f32⟩
  | 119 => ⟨S65536x512, .f32⟩
  | 120 => ⟨S1x1x512, .f32⟩
  | 121 => ⟨S1x512, .f32⟩
  | 122 => ⟨S65536x512, .f32⟩
  | 123 => ⟨S65536x512, .f32⟩
  | 124 => ⟨S65536x512, .f32⟩
  | 125 => ⟨S_, .f32⟩
  | 126 => ⟨S65536x512, .f32⟩
  | 127 => ⟨S65536x512, .f32⟩
  | _ => ⟨S65536x101, .f32⟩

abbrev hbmTy0_1 (i : Nat) : BufTy := match i % 128 with
  | 0 => ⟨S65536x512, .f32⟩
  | 1 => ⟨S65536x512, .f32⟩
  | 2 => ⟨S65536x512, .f32⟩
  | 3 => ⟨S1x101x512, .f32⟩
  | 4 => ⟨S101x512, .f32⟩
  | 5 => ⟨S65536x512, .f32⟩
  | 6 => ⟨S1x512x512, .f32⟩
  | 7 => ⟨S512x512, .f32⟩
  | 8 => ⟨S65536x512, .f32⟩
  | 9 => ⟨S65536x512, .f32⟩
  | 10 => ⟨S1x1x512, .f32⟩
  | 11 => ⟨S1x512, .f32⟩
  | 12 => ⟨S65536x512, .f32⟩
  | 13 => ⟨S65536x512, .f32⟩
  | 14 => ⟨S65536x512, .f32⟩
  | 15 => ⟨S1x101x512, .f32⟩
  | 16 => ⟨S101x512, .f32⟩
  | 17 => ⟨S65536x512, .f32⟩
  | 18 => ⟨S1x512x512, .f32⟩
  | 19 => ⟨S512x512, .f32⟩
  | 20 => ⟨S65536x512, .f32⟩
  | 21 => ⟨S65536x512, .f32⟩
  | 22 => ⟨S1x1x512, .f32⟩
  | 23 => ⟨S1x512, .f32⟩
  | 24 => ⟨S65536x512, .f32⟩
  | 25 => ⟨S65536x512, .f32⟩
  | 26 => ⟨S65536x512, .f32⟩
  | 27 => ⟨S1x101x512, .f32⟩
  | 28 => ⟨S101x512, .f32⟩
  | 29 => ⟨S65536x512, .f32⟩
  | 30 => ⟨S1x512x512, .f32⟩
  | 31 => ⟨S512x512, .f32⟩
  | 32 => ⟨S65536x512, .f32⟩
  | 33 => ⟨S65536x512, .f32⟩
  | 34 => ⟨S1x1x512, .f32⟩
  | 35 => ⟨S1x512, .f32⟩
  | 36 => ⟨S65536x512, .f32⟩
  | 37 => ⟨S65536x512, .f32⟩
  | 38 => ⟨S65536x512, .f32⟩
  | 39 => ⟨S1x101x512, .f32⟩
  | 40 => ⟨S101x512, .f32⟩
  | 41 => ⟨S65536x512, .f32⟩
  | 42 => ⟨S65536x512, .f32⟩
  | 43 => ⟨S1x512x512, .f32⟩
  | 44 => ⟨S512x512, .f32⟩
  | 45 => ⟨S65536x512, .f32⟩
  | 46 => ⟨S65536x512, .f32⟩
  | 47 => ⟨S1x1x512, .f32⟩
  | 48 => ⟨S1x512, .f32⟩
  | 49 => ⟨S65536x512, .f32⟩
  | 50 => ⟨S65536x512, .f32⟩
  | 51 => ⟨S65536x512, .f32⟩
  | 52 => ⟨S_, .f32⟩
  | 53 => ⟨S65536x512, .f32⟩
  | 54 => ⟨S65536x512, .f32⟩
  | 55 => ⟨S65536x512, .f32⟩
  | 56 => ⟨S65536x512, .f32⟩
  | 57 => ⟨S65536x512, .f32⟩
  | 58 => ⟨S65536x1, .f32⟩
  | 59 => ⟨S65536x1, .f32⟩
  | 60 => ⟨S65536x1, .f32⟩
  | _ => ⟨S65536x101, .f32⟩

abbrev hbmTy (i : Nat) : BufTy := match i / 128 with
  | 0 => hbmTy0_0 i
  | 1 => hbmTy0_1 i
  | _ => ⟨S65536x101, .f32⟩

abbrev bufTy : (tb : Table) → Fin (tcTables nBuf tb) → BufTy
  | .hbm, ⟨i, _⟩ => hbmTy i
  | _, _ => ⟨S65536x101, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_0 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_cst_1 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩

abbrev nD : Nat := 1
abbrev τ : Topo := Topo.v7x

variable {F : FTy → Type} [FloatOps F]

class Facts₀ : Prop where
  bcast_S1x512_S65536x512_0_1 : S1x512.BroadcastsInDim S65536x512 (![0, 1] : Fin 2 → Fin S65536x512.rank)
  slices_S3x101x512_S1x101x512_0_0_0 : S3x101x512.Slices ![0, 0, 0] S1x101x512
  shapeCasts_S1x101x512_S101x512 : S1x101x512.ShapeCasts S101x512
  slices_S3x512x512_S1x512x512_0_0_0 : S3x512x512.Slices ![0, 0, 0] S1x512x512
  shapeCasts_S1x512x512_S512x512 : S1x512x512.ShapeCasts S512x512
  slices_S3x1x512_S1x1x512_0_0_0 : S3x1x512.Slices ![0, 0, 0] S1x1x512
  shapeCasts_S1x1x512_S1x512 : S1x1x512.ShapeCasts S1x512
  bcast_S_S65536x512 : S_.BroadcastsInDim S65536x512 (![] : Fin 0 → Fin S65536x512.rank)
  slices_S3x101x512_S1x101x512_1_0_0 : S3x101x512.Slices ![1, 0, 0] S1x101x512
  slices_S3x512x512_S1x512x512_1_0_0 : S3x512x512.Slices ![1, 0, 0] S1x512x512
  slices_S3x1x512_S1x1x512_1_0_0 : S3x1x512.Slices ![1, 0, 0] S1x1x512
  slices_S3x101x512_S1x101x512_2_0_0 : S3x101x512.Slices ![2, 0, 0] S1x101x512
  slices_S3x512x512_S1x512x512_2_0_0 : S3x512x512.Slices ![2, 0, 0] S1x512x512
  slices_S3x1x512_S1x1x512_2_0_0 : S3x1x512.Slices ![2, 0, 0] S1x1x512
  bcast_S1x1_S65536x1_0_1 : S1x1.BroadcastsInDim S65536x1 (![0, 1] : Fin 2 → Fin S65536x1.rank)
  dot_S65536x101_S101x512_S65536x512_1_0_0_1_n_n_wf : DotDims.WF S65536x101 S101x512 S65536x512 [1] [0] [0] [1] [] []
  dot_S65536x512_S512x512_S65536x512_1_0_0_1_n_n_wf : DotDims.WF S65536x512 S512x512 S65536x512 [1] [0] [0] [1] [] []
  dot_S65536x512_S512x1_S65536x1_1_0_0_1_n_n_wf : DotDims.WF S65536x512 S512x1 S65536x1 [1] [0] [0] [1] [] []

variable [Facts₀]

def dot_S65536x101_S101x512_S65536x512_1_0_0_1_n_n : DotDims S65536x101 S101x512 S65536x512 where
  lhsContracting := [1]
  rhsContracting := [0]
  lhsNonContracting := [0]
  rhsNonContracting := [1]
  lhsBatch := []
  rhsBatch := []
  wf := dot_S65536x101_S101x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf

class Facts : Prop extends Facts₀ where

variable [Facts]
-- ==== Proof.DgmRow.lean ====
/-
  The network, one input row at a time, over the extended reals.

  An input row `x` (of length `D`) is first sent through a dense layer, `s₀ = tanh (x·W₀ + b₀)`.  Each of the three
  gated layers then computes from `x` and the current state `s` (of length `N`) three gates
  `z, g, r = tanh ((x·U + s·W) + b)`, a candidate `h = tanh ((x·Uₕ + (s ⊙ r)·Wₕ) + bₕ)`, and the new state
  `(1 - g) ⊙ h + z ⊙ s`.  The output is `s₃·w_f + b_f`.

  Everything is written with the weights as functions of their coordinates, so that it does not matter how a
  program lays them out in memory (stacked by layer, packed side by side, or one array per gate), and with the
  association of the sums the programs use.  The number one is kept as the float word both programs print.
-/
import Idealize.ShloMosaic.PureOps.Ideal

noncomputable section

namespace Dgm

open Idealize.ShloMosaic

variable {D N : ℕ}

/-- The float word of the number one. -/
abbrev one : EReal := Ideal.ofBits .f32 0x3F800000#32

/-- A row times a matrix, at column `q`. -/
def affine {K : ℕ} (x : Fin K → EReal) (w : Fin K → Fin N → EReal) (q : Fin N) : EReal := ∑ k : Fin K, x k * w k q

/-- The first dense layer. -/
def dense0 (x : Fin D → EReal) (w0 : Fin D → Fin N → EReal) (b0 : Fin N → EReal) (q : Fin N) : EReal :=
  Ideal.tanh (affine x w0 q + b0 q)

/-- One gate: `tanh ((x·u + s·w) + b)`. -/
def gate (x : Fin D → EReal) (s : Fin N → EReal) (u : Fin D → Fin N → EReal) (w : Fin N → Fin N → EReal)
    (b : Fin N → EReal) (q : Fin N) : EReal :=
  Ideal.tanh ((affine x u q + affine s w q) + b q)

/-- One gated layer's weights. -/
structure Weights (D N : ℕ) where
  uz : Fin D → Fin N → EReal
  ug : Fin D → Fin N → EReal
  ur : Fin D → Fin N → EReal
  uh : Fin D → Fin N → EReal
  wz : Fin N → Fin N → EReal
  wg : Fin N → Fin N → EReal
  wr : Fin N → Fin N → EReal
  wh : Fin N → Fin N → EReal
  bz : Fin N → EReal
  bg : Fin N → EReal
  br : Fin N → EReal
  bh : Fin N → EReal

/-- One gated layer: the new state from the input row and the old state. -/
def layer (x : Fin D → EReal) (s : Fin N → EReal) (L : Weights D N) (q : Fin N) : EReal :=
  (one - gate x s L.ug L.wg L.bg q) * gate x (fun j => s j * gate x s L.ur L.wr L.br j) L.uh L.wh L.bh q
    + gate x s L.uz L.wz L.bz q * s q

/-- The final projection to one number. -/
def readout (s : Fin N → EReal) (wf : Fin N → EReal) (bf : EReal) : EReal := (∑ j : Fin N, s j * wf j) + bf

/-- The whole network on one row. -/
def net (x : Fin D → EReal) (w0 : Fin D → Fin N → EReal) (b0 : Fin N → EReal) (L0 L1 L2 : Weights D N)
    (wf : Fin N → EReal) (bf : EReal) : EReal :=
  readout (layer x (layer x (layer x (dense0 x w0 b0) L0) L1) L2) wf bf

end Dgm

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibStackSlab.lean ====
/-
  One layer's matrix out of a stack of three, as the host cuts it, read at an entry.

  A reference that keeps the weights of three layers in one `[3, a, b]` array takes layer `l`'s `[a, b]` matrix as the
  slab cut at `[l, 0, 0]` of sizes `[1, a, b]` with the unit axis dropped by a reshape.  Read at `(k, q)` that is the
  stack at `(l, k, q)`.  Stated for any `a`, `b`.
-/
import Idealize.ShloMosaic.PureOps.Ideal
import Idealize.ShloMosaic.Lib.ValueLayout

noncomputable section

namespace Idealize.ShloMosaic.StackSlab

open Idealize.ShloMosaic Idealize.ShloMosaic.ValueIdx

/-! ## A layer's matrix out of a stack -/

/-- Layer `l`'s `[a, b]` matrix out of a `[3, a, b]` stack: the slab cut at `[l, 0, 0]`, its unit axis dropped. -/
def slab {a b : ℕ} (l : ℕ) (hs : (⟨3, ![3, a, b]⟩ : Shape).Slices ![l, 0, 0] ⟨3, ![1, a, b]⟩)
    (hc : (⟨3, ![1, a, b]⟩ : Shape).ShapeCasts ⟨2, ![a, b]⟩) (A : FVec Ideal ⟨3, ![3, a, b]⟩ .f32) : FVec Ideal ⟨2, ![a, b]⟩ .f32 :=
  shapeCast ⟨2, ![a, b]⟩ (extractStridedSlice ⟨3, ![1, a, b]⟩ ![l, 0, 0] A hs) hc

theorem slab_apply {a b : ℕ} (l : ℕ) (hs : (⟨3, ![3, a, b]⟩ : Shape).Slices ![l, 0, 0] ⟨3, ![1, a, b]⟩)
    (hc : (⟨3, ![1, a, b]⟩ : Shape).ShapeCasts ⟨2, ![a, b]⟩) (A : FVec Ideal ⟨3, ![3, a, b]⟩ .f32) (l' : Fin 3) (hl : l'.val = l)
    (k : Fin a) (q : Fin b) : slab l hs hc A (ix2 k q) = A (ix3 l' k q) := by
  unfold slab
  rw [shapeCast_1ab_ab_apply]
  exact extractStridedSlice_apply _ _ _ _ _ (fun ax => by
    match ax with
    | ⟨0, _⟩ => exact hl.trans (Nat.add_zero _).symm
    | ⟨1, _⟩ => exact (Nat.zero_add _).symm
    | ⟨2, _⟩ => exact (Nat.zero_add _).symm)

end Idealize.ShloMosaic.StackSlab

end
-- ==== Proof.DgmHost.lean ====
/-
  The host's spelling of the network's stages, as whole-array functions, and each read at an entry.

  The host multiplies whole `R`-row arrays: a stage is a `dot_general` of the `[R, D]` input (or the `[R, N]` state)
  with one gate's `[D, N]` (or `[N, N]`) matrix, a `[1, N]` bias row spread over the `R` rows, `tanh`.  Read at
  `(p, q)` each stage depends only on row `p` of its operands: it is the one-row function of `DgmRow`, the weights
  read off their matrices.  A layer's matrix is cut out of a `[3, a, b]` stack at the layer's index and cast to
  `[a, b]`; read at `(k, q)` that is the stack at `(l, k, q)`.
-/
import proofs.«137595_j76484777607677_2_alg».proof.Proof.DgmRow
import proofs.«137595_j76484777607677_2_alg».proof.Proof.LibPlainDot
import proofs.«137595_j76484777607677_2_alg».proof.Proof.LibRegionBlockSpread
import proofs.«137595_j76484777607677_2_alg».proof.Proof.LibStackSlab
import Idealize.ShloMosaic.Lib.ValueLayout

noncomputable section

namespace Dgm.Host

open Idealize.ShloMosaic Idealize.ShloMosaic.ValueIdx

variable {R D N : ℕ}

/-- Row `p` of a matrix. -/
abbrev row {a b : ℕ} (X : (⟨2, ![a, b]⟩ : Shape).Idx → EReal) (p : Fin a) : Fin b → EReal := fun k => X (ix2 p k)
/-- A matrix as a function of its two coordinates. -/
abbrev mat {a b : ℕ} (W : (⟨2, ![a, b]⟩ : Shape).Idx → EReal) : Fin a → Fin b → EReal := fun k q => W (ix2 k q)
/-- The one row of a `[1, b]` array. -/
abbrev vec {b : ℕ} (B : (⟨2, ![1, b]⟩ : Shape).Idx → EReal) : Fin b → EReal := fun q => B (ix2 (0 : Fin 1) q)

export Idealize.ShloMosaic.StackSlab (slab slab_apply)

/-! ## The stages -/

section Stages

variable (dx : DotDims ⟨2, ![R, D]⟩ ⟨2, ![D, N]⟩ ⟨2, ![R, N]⟩) (ds : DotDims ⟨2, ![R, N]⟩ ⟨2, ![N, N]⟩ ⟨2, ![R, N]⟩)
  (hb : (⟨2, ![1, N]⟩ : Shape).BroadcastsInDim ⟨2, ![R, N]⟩ ![0, 1])
  (h1 : (⟨0, ![]⟩ : Shape).BroadcastsInDim ⟨2, ![R, N]⟩ ![])

/-- The first dense layer, on all rows. -/
def dense0 (X : FVec Ideal ⟨2, ![R, D]⟩ .f32) (W : FVec Ideal ⟨2, ![D, N]⟩ .f32) (B : FVec Ideal ⟨2, ![1, N]⟩ .f32) :
    FVec Ideal ⟨2, ![R, N]⟩ .f32 :=
  Host.tanh (addf (Host.dotGeneral dx none X W) (broadcastInDim ⟨2, ![R, N]⟩ ![0, 1] hb B))

/-- One gate, on all rows. -/
def gate (X : FVec Ideal ⟨2, ![R, D]⟩ .f32) (S : FVec Ideal ⟨2, ![R, N]⟩ .f32) (U : FVec Ideal ⟨2, ![D, N]⟩ .f32)
    (W : FVec Ideal ⟨2, ![N, N]⟩ .f32) (B : FVec Ideal ⟨2, ![1, N]⟩ .f32) : FVec Ideal ⟨2, ![R, N]⟩ .f32 :=
  Host.tanh (addf (addf (Host.dotGeneral dx none X U) (Host.dotGeneral ds none S W)) (broadcastInDim ⟨2, ![R, N]⟩ ![0, 1] hb B))

/-- One gated layer, on all rows. -/
def layer (X : FVec Ideal ⟨2, ![R, D]⟩ .f32) (S : FVec Ideal ⟨2, ![R, N]⟩ .f32)
    (Uz Ug Ur Uh : FVec Ideal ⟨2, ![D, N]⟩ .f32) (Wz Wg Wr Wh : FVec Ideal ⟨2, ![N, N]⟩ .f32)
    (Bz Bg Br Bh : FVec Ideal ⟨2, ![1, N]⟩ .f32) : FVec Ideal ⟨2, ![R, N]⟩ .f32 :=
  addf (mulf (subf (broadcastInDim ⟨2, ![R, N]⟩ ![] h1 (constant (F := Ideal) ⟨0, ![]⟩ .f32 0x3F800000#32)) (gate dx ds hb X S Ug Wg Bg))
      (gate dx ds hb X (mulf S (gate dx ds hb X S Ur Wr Br)) Uh Wh Bh))
    (mulf (gate dx ds hb X S Uz Wz Bz) S)

variable (hdx : dx = DotDims.plain R D N) (hds : ds = DotDims.plain R N N)
include hdx in
theorem dense0_apply (X : FVec Ideal ⟨2, ![R, D]⟩ .f32) (W : FVec Ideal ⟨2, ![D, N]⟩ .f32) (B : FVec Ideal ⟨2, ![1, N]⟩ .f32)
    (p : Fin R) (q : Fin N) : dense0 dx hb X W B (ix2 p q) = Dgm.dense0 (row X p) (mat W) (vec B) q := by
  show Ideal.tanh (FloatOps.dotGeneral dx none .single X W (ix2 p q) + broadcastInDim ⟨2, ![R, N]⟩ ![0, 1] hb B (ix2 p q)) = _
  rw [PlainDot.dotGeneral_apply dx hdx, KeepDims.broadcastInDim_1b_ab_apply]
  rfl

include hdx hds in
theorem gate_apply (X : FVec Ideal ⟨2, ![R, D]⟩ .f32) (S : FVec Ideal ⟨2, ![R, N]⟩ .f32) (U : FVec Ideal ⟨2, ![D, N]⟩ .f32)
    (W : FVec Ideal ⟨2, ![N, N]⟩ .f32) (B : FVec Ideal ⟨2, ![1, N]⟩ .f32) (p : Fin R) (q : Fin N) :
    gate dx ds hb X S U W B (ix2 p q) = Dgm.gate (row X p) (row S p) (mat U) (mat W) (vec B) q := by
  show Ideal.tanh ((FloatOps.dotGeneral dx none .single X U (ix2 p q) + FloatOps.dotGeneral ds none .single S W (ix2 p q))
    + broadcastInDim ⟨2, ![R, N]⟩ ![0, 1] hb B (ix2 p q)) = _
  rw [PlainDot.dotGeneral_apply dx hdx, PlainDot.dotGeneral_apply ds hds, KeepDims.broadcastInDim_1b_ab_apply]
  rfl

/-- A scalar spread over a matrix reads the scalar everywhere. -/
theorem scalar_apply (x : (⟨0, ![]⟩ : Shape).Idx → EReal) (p : Fin R) (q : Fin N) :
    broadcastInDim ⟨2, ![R, N]⟩ ![] h1 x (ix2 p q) = x ix0 :=
  broadcastInDim_apply ![] h1 x (ix2 p q) ix0 fun ax => ax.elim0

include hdx hds in
theorem layer_apply (X : FVec Ideal ⟨2, ![R, D]⟩ .f32) (S : FVec Ideal ⟨2, ![R, N]⟩ .f32)
    (Uz Ug Ur Uh : FVec Ideal ⟨2, ![D, N]⟩ .f32) (Wz Wg Wr Wh : FVec Ideal ⟨2, ![N, N]⟩ .f32)
    (Bz Bg Br Bh : FVec Ideal ⟨2, ![1, N]⟩ .f32) (p : Fin R) (q : Fin N) :
    layer dx ds hb h1 X S Uz Ug Ur Uh Wz Wg Wr Wh Bz Bg Br Bh (ix2 p q)
      = Dgm.layer (row X p) (row S p)
          ⟨mat Uz, mat Ug, mat Ur, mat Uh, mat Wz, mat Wg, mat Wr, mat Wh, vec Bz, vec Bg, vec Br, vec Bh⟩ q := by
  have hR : (row (mulf S (gate dx ds hb X S Ur Wr Br)) p)
      = fun j => row S p j * Dgm.gate (row X p) (row S p) (mat Ur) (mat Wr) (vec Br) j :=
    funext fun j => by
      show S (ix2 p j) * gate dx ds hb X S Ur Wr Br (ix2 p j) = _
      rw [gate_apply dx ds hb hdx hds]
  show (broadcastInDim ⟨2, ![R, N]⟩ ![] h1 (constant (F := Ideal) ⟨0, ![]⟩ .f32 0x3F800000#32) (ix2 p q)
        - gate dx ds hb X S Ug Wg Bg (ix2 p q))
      * gate dx ds hb X (mulf S (gate dx ds hb X S Ur Wr Br)) Uh Wh Bh (ix2 p q)
      + gate dx ds hb X S Uz Wz Bz (ix2 p q) * S (ix2 p q) = _
  rw [gate_apply dx ds hb hdx hds, gate_apply dx ds hb hdx hds, gate_apply dx ds hb hdx hds, scalar_apply, hR]
  rfl

end Stages

/-- The final projection on all rows. -/
def readout (df : DotDims ⟨2, ![R, N]⟩ ⟨2, ![N, 1]⟩ ⟨2, ![R, 1]⟩) (hbf : (⟨2, ![1, 1]⟩ : Shape).BroadcastsInDim ⟨2, ![R, 1]⟩ ![0, 1])
    (S : FVec Ideal ⟨2, ![R, N]⟩ .f32) (Wf : FVec Ideal ⟨2, ![N, 1]⟩ .f32) (Bf : FVec Ideal ⟨2, ![1, 1]⟩ .f32) :
    FVec Ideal ⟨2, ![R, 1]⟩ .f32 :=
  addf (Host.dotGeneral df none S Wf) (broadcastInDim ⟨2, ![R, 1]⟩ ![0, 1] hbf Bf)

theorem readout_apply (df : DotDims ⟨2, ![R, N]⟩ ⟨2, ![N, 1]⟩ ⟨2, ![R, 1]⟩) (hdf : df = DotDims.plain R N 1)
    (hbf : (⟨2, ![1, 1]⟩ : Shape).BroadcastsInDim ⟨2, ![R, 1]⟩ ![0, 1])
    (S : FVec Ideal ⟨2, ![R, N]⟩ .f32) (Wf : FVec Ideal ⟨2, ![N, 1]⟩ .f32) (Bf : FVec Ideal ⟨2, ![1, 1]⟩ .f32) (p : Fin R) (z : Fin 1) :
    readout df hbf S Wf Bf (ix2 p z) = Dgm.readout (row S p) (fun j => Wf (ix2 j (0 : Fin 1))) (Bf (ix2 (0 : Fin 1) (0 : Fin 1))) := by
  obtain rfl : z = 0 := Subsingleton.elim _ _
  show FloatOps.dotGeneral df none .single S Wf (ix2 p 0) + broadcastInDim ⟨2, ![R, 1]⟩ ![0, 1] hbf Bf (ix2 p 0) = _
  rw [PlainDot.dotGeneral_apply df hdf, KeepDims.broadcastInDim_1b_ab_apply]
  rfl

end Dgm.Host

end
-- ==== Proof.DgmStack.lean ====
/-
  The network on all rows of an input array, with the layers' weights stacked by layer.

  The programs take each gate's matrices of the three layers as one `[3, a, b]` array.  Layer `l`'s weights are those
  arrays read at leading index `l`, and the network's value on an `[R, D]` input is, at row `r`, the one-row network on
  row `r`.
-/
import proofs.«137595_j76484777607677_2_alg».proof.Proof.DgmRow
import Idealize.ShloMosaic.Lib.ValueIdx

noncomputable section

namespace Dgm

open Idealize.ShloMosaic Idealize.ShloMosaic.ValueIdx

variable {R D N : ℕ}

/-- Layer `l`'s weights read off the stacked arrays. -/
def stackWeights (Uz Ug Ur Uh : (⟨3, ![3, D, N]⟩ : Shape).Idx → EReal) (Wz Wg Wr Wh : (⟨3, ![3, N, N]⟩ : Shape).Idx → EReal)
    (Bz Bg Br Bh : (⟨3, ![3, 1, N]⟩ : Shape).Idx → EReal) (l : Fin 3) : Weights D N where
  uz k q := Uz (ix3 l k q)
  ug k q := Ug (ix3 l k q)
  ur k q := Ur (ix3 l k q)
  uh k q := Uh (ix3 l k q)
  wz j q := Wz (ix3 l j q)
  wg j q := Wg (ix3 l j q)
  wr j q := Wr (ix3 l j q)
  wh j q := Wh (ix3 l j q)
  bz q := Bz (ix3 l (0 : Fin 1) q)
  bg q := Bg (ix3 l (0 : Fin 1) q)
  br q := Br (ix3 l (0 : Fin 1) q)
  bh q := Bh (ix3 l (0 : Fin 1) q)

/-- The network on every row of `X`: an `[R, 1]` column. -/
def whole (X : (⟨2, ![R, D]⟩ : Shape).Idx → EReal) (W0 : (⟨2, ![D, N]⟩ : Shape).Idx → EReal) (B0 : (⟨2, ![1, N]⟩ : Shape).Idx → EReal)
    (Uz Ug Ur Uh : (⟨3, ![3, D, N]⟩ : Shape).Idx → EReal) (Wz Wg Wr Wh : (⟨3, ![3, N, N]⟩ : Shape).Idx → EReal)
    (Bz Bg Br Bh : (⟨3, ![3, 1, N]⟩ : Shape).Idx → EReal) (Wf : (⟨2, ![N, 1]⟩ : Shape).Idx → EReal) (Bf : (⟨2, ![1, 1]⟩ : Shape).Idx → EReal) :
    (⟨2, ![R, 1]⟩ : Shape).Idx → EReal :=
  fun i => net (fun k => X (ix2 (i 0) k)) (fun k q => W0 (ix2 k q)) (fun q => B0 (ix2 (0 : Fin 1) q))
    (stackWeights Uz Ug Ur Uh Wz Wg Wr Wh Bz Bg Br Bh 0) (stackWeights Uz Ug Ur Uh Wz Wg Wr Wh Bz Bg Br Bh 1)
    (stackWeights Uz Ug Ur Uh Wz Wg Wr Wh Bz Bg Br Bh 2) (fun j => Wf (ix2 j (0 : Fin 1))) (Bf (ix2 (0 : Fin 1) (0 : Fin 1)))

end Dgm

end
-- ==== Proof.DgmRef.lean ====
/-
  The reference as one function of its argument arrays, and its value at an entry.

  The reference computes, on all 65536 rows at once, the first dense layer, three gated layers (each gate's matrices cut
  out of the stacked arguments at the layer's index) and the final projection.  Read at row `r` this is the one-row
  network of `DgmRow` on row `r` of the input, each layer's weights read off the stacks at the layer's index.
-/
import proofs.«137595_j76484777607677_2_alg».proof.Proof.Gen.ReferenceIdeal
import proofs.«137595_j76484777607677_2_alg».proof.Proof.DgmHost
import proofs.«137595_j76484777607677_2_alg».proof.Proof.DgmStack

noncomputable section

namespace Cert.ReferenceIdeal.RefValue

open Cert.ReferenceIdeal Cert.ReferenceIdeal.Gen
open Idealize.ShloMosaic Idealize.ShloMosaic.ValueIdx
open Dgm.Host (row mat vec)

section
variable (X : FVec Ideal S65536x101 .f32) (W0 : FVec Ideal S101x512 .f32) (B0 : FVec Ideal S1x512 .f32)
  (Uz Ug Ur Uh : FVec Ideal S3x101x512 .f32) (Wz Wg Wr Wh : FVec Ideal S3x512x512 .f32)
  (Bz Bg Br Bh : FVec Ideal S3x1x512 .f32) (Wf : FVec Ideal S512x1 .f32) (Bf : FVec Ideal S1x1 .f32)

/-- The state after the first dense layer. -/
def state0 : FVec Ideal S65536x512 .f32 :=
  Dgm.Host.dense0 dot_S65536x101_S101x512_S65536x512_1_0_0_1_n_n bcast_S1x512_S65536x512_0_1 X W0 B0

/-- One gated layer of the reference at layer index `l`, from the state `S`. -/
def step (l : ℕ) (hsU : S3x101x512.Slices ![l, 0, 0] S1x101x512) (hsW : S3x512x512.Slices ![l, 0, 0] S1x512x512)
    (hsB : S3x1x512.Slices ![l, 0, 0] S1x1x512) (S : FVec Ideal S65536x512 .f32) : FVec Ideal S65536x512 .f32 :=
  Dgm.Host.layer dot_S65536x101_S101x512_S65536x512_1_0_0_1_n_n dot_S65536x512_S512x512_S65536x512_1_0_0_1_n_n
    bcast_S1x512_S65536x512_0_1 bcast_S_S65536x512 X S
    (Dgm.Host.slab l hsU shapeCasts_S1x101x512_S101x512 Uz) (Dgm.Host.slab l hsU shapeCasts_S1x101x512_S101x512 Ug)
    (Dgm.Host.slab l hsU shapeCasts_S1x101x512_S101x512 Ur) (Dgm.Host.slab l hsU shapeCasts_S1x101x512_S101x512 Uh)
    (Dgm.Host.slab l hsW shapeCasts_S1x512x512_S512x512 Wz) (Dgm.Host.slab l hsW shapeCasts_S1x512x512_S512x512 Wg)
    (Dgm.Host.slab l hsW shapeCasts_S1x512x512_S512x512 Wr) (Dgm.Host.slab l hsW shapeCasts_S1x512x512_S512x512 Wh)
    (Dgm.Host.slab l hsB shapeCasts_S1x1x512_S1x512 Bz) (Dgm.Host.slab l hsB shapeCasts_S1x1x512_S1x512 Bg)
    (Dgm.Host.slab l hsB shapeCasts_S1x1x512_S1x512 Br) (Dgm.Host.slab l hsB shapeCasts_S1x1x512_S1x512 Bh)

theorem dX_plain : dot_S65536x101_S101x512_S65536x512_1_0_0_1_n_n = DotDims.plain 65536 101 512 := rfl
theorem dS_plain : dot_S65536x512_S512x512_S65536x512_1_0_0_1_n_n = DotDims.plain 65536 512 512 := rfl
theorem dF_plain : dot_S65536x512_S512x1_S65536x1_1_0_0_1_n_n = DotDims.plain 65536 512 1 := rfl

/-- The state after the first dense layer, at an entry. -/
theorem state0_apply (r : Fin 65536) (q : Fin 512) :
    state0 X W0 B0 (ix2 r q) = Dgm.dense0 (row X r) (mat W0) (vec B0) q :=
  Dgm.Host.dense0_apply _ _ dX_plain X W0 B0 r q

/-- One gated layer at an entry: the one-row layer on row `r` of the input and of the state, with layer `l`'s weights. -/
theorem step_apply (l : ℕ) (hsU : S3x101x512.Slices ![l, 0, 0] S1x101x512) (hsW : S3x512x512.Slices ![l, 0, 0] S1x512x512)
    (hsB : S3x1x512.Slices ![l, 0, 0] S1x1x512) (l' : Fin 3) (hl : l'.val = l) (S : FVec Ideal S65536x512 .f32)
    (r : Fin 65536) (q : Fin 512) :
    step X Uz Ug Ur Uh Wz Wg Wr Wh Bz Bg Br Bh l hsU hsW hsB S (ix2 r q)
      = Dgm.layer (row X r) (row S r) (Dgm.stackWeights Uz Ug Ur Uh Wz Wg Wr Wh Bz Bg Br Bh l') q := by
  unfold step
  rw [Dgm.Host.layer_apply _ _ _ _ dX_plain dS_plain]
  congr 1
  unfold Dgm.stackWeights
  congr 1 <;> funext a <;> first
    | (funext b; exact Dgm.Host.slab_apply l _ _ _ l' hl a b)
    | exact Dgm.Host.slab_apply l _ _ _ l' hl (0 : Fin 1) a

/-- The reference's result as one function of its argument arrays. -/
def result : FVec Ideal S65536x1 .f32 :=
  Dgm.Host.readout dot_S65536x512_S512x1_S65536x1_1_0_0_1_n_n bcast_S1x1_S65536x1_0_1
    (step X Uz Ug Ur Uh Wz Wg Wr Wh Bz Bg Br Bh 2 slices_S3x101x512_S1x101x512_2_0_0 slices_S3x512x512_S1x512x512_2_0_0 slices_S3x1x512_S1x1x512_2_0_0
      (step X Uz Ug Ur Uh Wz Wg Wr Wh Bz Bg Br Bh 1 slices_S3x101x512_S1x101x512_1_0_0 slices_S3x512x512_S1x512x512_1_0_0 slices_S3x1x512_S1x1x512_1_0_0
        (step X Uz Ug Ur Uh Wz Wg Wr Wh Bz Bg Br Bh 0 slices_S3x101x512_S1x101x512_0_0_0 slices_S3x512x512_S1x512x512_0_0_0 slices_S3x1x512_S1x1x512_0_0_0
          (state0 X W0 B0))))
    Wf Bf

/-- The reference's result at row `r`: the one-row network on row `r` of the input. -/
theorem result_apply (r : Fin 65536) (z : Fin 1) :
    result X W0 B0 Uz Ug Ur Uh Wz Wg Wr Wh Bz Bg Br Bh Wf Bf (ix2 r z)
      = Dgm.net (row X r) (mat W0) (vec B0)
          (Dgm.stackWeights Uz Ug Ur Uh Wz Wg Wr Wh Bz Bg Br Bh 0) (Dgm.stackWeights Uz Ug Ur Uh Wz Wg Wr Wh Bz Bg Br Bh 1)
          (Dgm.stackWeights Uz Ug Ur Uh Wz Wg Wr Wh Bz Bg Br Bh 2) (fun j => Wf (ix2 j (0 : Fin 1))) (Bf (ix2 (0 : Fin 1) (0 : Fin 1))) := by
  unfold result
  rw [Dgm.Host.readout_apply _ dF_plain]
  unfold Dgm.net
  congr 1
  funext j
  show step X Uz Ug Ur Uh Wz Wg Wr Wh Bz Bg Br Bh 2 _ _ _ _ (ix2 r j) = _
  rw [step_apply X Uz Ug Ur Uh Wz Wg Wr Wh Bz Bg Br Bh 2 _ _ _ 2 rfl]
  congr 1
  funext j
  show step X Uz Ug Ur Uh Wz Wg Wr Wh Bz Bg Br Bh 1 _ _ _ _ (ix2 r j) = _
  rw [step_apply X Uz Ug Ur Uh Wz Wg Wr Wh Bz Bg Br Bh 1 _ _ _ 1 rfl]
  congr 1
  funext j
  show step X Uz Ug Ur Uh Wz Wg Wr Wh Bz Bg Br Bh 0 _ _ _ _ (ix2 r j) = _
  rw [step_apply X Uz Ug Ur Uh Wz Wg Wr Wh Bz Bg Br Bh 0 _ _ _ 0 rfl]
  congr 1
  funext j
  exact state0_apply X W0 B0 r j

/-- The reference's result is the network on every row of the input. -/
theorem result_eq_whole :
    result X W0 B0 Uz Ug Ur Uh Wz Wg Wr Wh Bz Bg Br Bh Wf Bf = Dgm.whole X W0 B0 Uz Ug Ur Uh Wz Wg Wr Wh Bz Bg Br Bh Wf Bf := by
  funext i
  obtain ⟨r, z, rfl⟩ : ∃ (r : Fin 65536) (z : Fin 1), i = ix2 r z := ⟨i 0, i 1, eq_ix2 i⟩
  exact result_apply X W0 B0 Uz Ug Ur Uh Wz Wg Wr Wh Bz Bg Br Bh Wf Bf r z

end

end Cert.ReferenceIdeal.RefValue

end
-- ==== Proof.LibStretchRead.lean ====
/-
  Reading one buffer after a long straight line of host operations, through the one stretch that writes it.

  `StableHlo.after ops V` folds every operation of `ops` over the buffer contents `V`. When the line is long, a buffer
  written early is read back through all the later operations one by one. If `Wr` lists, operation by operation, the
  one reference each operation may write (`WritesOnly ops Wr`), then:

  * a reference not in `Wr` is never written: `after ops V` still holds `V` there (`after_of_not_mem_writesOnly`);
  * a reference that none of the operations after position `a + n` writes is read off the stretch of `n` operations
    from position `a`, run from the contents the first `a` operations leave (`after_read_stretch`);
  * the first `a` operations leave every reference they do not write as it was (`after_take_of_not_mem`), and already
    leave in a reference no later operation writes what the whole line leaves (`after_take_eq`).

  Membership in `Wr` (a list of references) is decided in one pass, so each buffer of a program of hundreds of operations
  costs one short stretch instead of the whole fold.
-/
import Idealize.ShloMosaic.Lib.StableHlo.Run
import Mathlib.Data.List.Forall2

noncomputable section

namespace Idealize.ShloMosaic.StableHlo

variable {τ : Topo} {sig : RefSig} {Val : EltTy → Type}

/-- Two lines run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `Wr` names, operation by operation, the one reference each operation of `ops` may write. -/
def WritesOnly (ops : List (HloOp τ sig Val)) (Wr : List (Ref sig .tc)) : Prop :=
  List.Forall₂ (fun op r => op.writes ⊆ ({Proc.devRef (τ := τ) .tc r} : Finset (DevRef τ sig))) ops Wr

/-- A reference none of the operations may write keeps its contents. -/
theorem after_of_not_mem_writesOnly {ops : List (HloOp τ sig Val)} {Wr : List (Ref sig .tc)} (h : WritesOnly ops Wr)
    (V : Valuation τ sig Val) (r : Ref sig .tc) (hr : r ∉ Wr) :
    after ops V (Proc.devRef .tc r) = V (Proc.devRef .tc r) := by
  refine after_of_forall_not_mem ops V ?_
  unfold WritesOnly at h
  induction h with
  | nil => intro op hop; exact absurd hop List.not_mem_nil
  | @cons op r₀ l W hop _ ih =>
    intro op' hop'
    rcases List.mem_cons.mp hop' with rfl | hmem
    · intro hb
      have := Finset.mem_singleton.mp (hop hb)
      exact hr (by rw [Proc.devRef_injective _ this]; exact List.mem_cons_self)
    · exact ih (fun hm => hr (List.mem_cons_of_mem _ hm)) op' hmem

/-- The first `a` operations leave a reference they may not write as it was. -/
theorem after_take_of_not_mem {ops : List (HloOp τ sig Val)} {Wr : List (Ref sig .tc)} (h : WritesOnly ops Wr) (a : Nat)
    (V : Valuation τ sig Val) (r : Ref sig .tc) (hr : r ∉ Wr.take a) :
    after (ops.take a) V (Proc.devRef .tc r) = V (Proc.devRef .tc r) :=
  after_of_not_mem_writesOnly (List.forall₂_take a h) V r hr

/-- A reference that no operation after position `a + n` may write is read, after the whole line, off the stretch of
    `n` operations from position `a`, run from what the first `a` operations leave. -/
theorem after_read_stretch {ops : List (HloOp τ sig Val)} {Wr : List (Ref sig .tc)} (h : WritesOnly ops Wr) (a n : Nat)
    (V : Valuation τ sig Val) (r : Ref sig .tc) (hr : r ∉ (Wr.drop a).drop n) :
    after ops V (Proc.devRef .tc r) = after ((ops.drop a).take n) (after (ops.take a) V) (Proc.devRef .tc r) := by
  have e : ops = ops.take a ++ ((ops.drop a).take n ++ (ops.drop a).drop n) := by
    rw [List.take_append_drop, List.take_append_drop]
  conv_lhs => rw [e]
  rw [after_append, after_append]
  exact after_of_not_mem_writesOnly (List.forall₂_drop n (List.forall₂_drop a h)) _ r hr

/-- The first `p` operations already leave, in a reference no later operation may write, what the whole line leaves. -/
theorem after_take_eq {ops : List (HloOp τ sig Val)} {Wr : List (Ref sig .tc)} (h : WritesOnly ops Wr) (p : Nat)
    (V : Valuation τ sig Val) (r : Ref sig .tc) (hr : r ∉ Wr.drop p) :
    after (ops.take p) V (Proc.devRef .tc r) = after ops V (Proc.devRef .tc r) := by
  conv_rhs => rw [← List.take_append_drop p ops]
  rw [after_append]
  exact (after_of_not_mem_writesOnly (List.forall₂_drop p h) _ r hr).symm

end Idealize.ShloMosaic.StableHlo

end
-- ==== Proof.RefRun.lean ====
/-
  The reference's run, read back: every weakly fair execution terminates with the result array at the reference's
  stages composed and the argument arrays unchanged.

  The reference's @main is a straight line of 172 host operations: four for the first dense layer, fifty-five for each
  of the three gated layers, three for the final projection.  What a buffer holds after the line is the fold of the
  operations' results; read stretch by stretch, each stretch from any contents: a stretch leaves in its last buffer the
  stage's function of the argument arrays and of the previous stretch's last buffer, and leaves every buffer it does not
  write as it was.  No operation writes an argument array.
-/
import proofs.«137595_j76484777607677_2_alg».proof.Proof.Gen.ReferenceIdeal
import proofs.«137595_j76484777607677_2_alg».proof.Proof.DgmRef
import proofs.«137595_j76484777607677_2_alg».proof.Proof.LibStretchRead
import Idealize.ShloMosaic.Lib.StableHlo.Run

set_option maxRecDepth 8192

noncomputable section

namespace Cert.ReferenceIdeal.HandRun

open Cert.ReferenceIdeal Cert.ReferenceIdeal.Gen Cert.ReferenceIdeal.RefValue
open Idealize.ShloMosaic Idealize.ShloMosaic.TcCoe Idealize.SL.Sem Idealize.ShloMosaic.StableHlo

variable {F : FTy → Type} [FloatOps F]

/-! ## @main's operations, stretch by stretch -/

/-- The first dense layer. -/
abbrev seg0 : List (HloOp τ sig (Elt F)) :=
  [ binary main_arg0 main_arg1 main_v0 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    unary main_arg2 main_v1 (broadcastInDim S65536x512 ![0, 1] bcast_S1x512_S65536x512_0_1 : (⟨S1x512, .f32⟩ : BufTy).Contents (Elt F) → (⟨S65536x512, .f32⟩ : BufTy).Contents (Elt F)),
    binary main_v0 main_v1 main_v2 (addf : (⟨S65536x512, .f32⟩ : BufTy).Contents (Elt F) → (⟨S65536x512, .f32⟩ : BufTy).Contents (Elt F) → (⟨S65536x512, .f32⟩ : BufTy).Contents (Elt F)),
    unary main_v2 main_v3 (Host.tanh : (⟨S65536x512, .f32⟩ : BufTy).Contents (Elt F) → (⟨S65536x512, .f32⟩ : BufTy).Contents (Elt F)) ]

/-- The first gated layer. -/
abbrev seg1 : List (HloOp τ sig (Elt F)) :=
  [ unary main_arg3 main_v4 ((extractStridedSlice S1x101x512 ![0, 0, 0] · slices_S3x101x512_S1x101x512_0_0_0) : (⟨S3x101x512, .f32⟩ : BufTy).Contents (Elt F) → (⟨S1x101x512, .f32⟩ : BufTy).Contents (Elt F)),
    reshape main_v4 main_v5 rfl shapeCasts_S1x101x512_S101x512,
    binary main_arg0 main_v5 main_v6 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    unary main_arg7 main_v7 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v7 main_v8 rfl shapeCasts_S1x512x512_S512x512,
    binary main_v3 main_v8 main_v9 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v6 main_v9 main_v10 (addf : (⟨S65536x512, .f32⟩ : BufTy).Contents (Elt F) → (⟨S65536x512, .f32⟩ : BufTy).Contents (Elt F) → (⟨S65536x512, .f32⟩ : BufTy).Contents (Elt F)),
    unary main_arg11 main_v11 ((extractStridedSlice S1x1x512 ![0, 0, 0] · slices_S3x1x512_S1x1x512_0_0_0) : (⟨S3x1x512, .f32⟩ : BufTy).Contents (Elt F) → (⟨S1x1x512, .f32⟩ : BufTy).Contents (Elt F)),
    reshape main_v11 main_v12 rfl shapeCasts_S1x1x512_S1x512,
    unary main_v12 main_v13 (broadcastInDim S65536x512 ![0, 1] bcast_S1x512_S65536x512_0_1 : (⟨S1x512, .f32⟩ : BufTy).Contents (Elt F) → (⟨S65536x512, .f32⟩ : BufTy).Contents (Elt F)),
    binary main_v10 main_v13 main_v14 (addf : (⟨S65536x512, .f32⟩ : BufTy).Contents (Elt F) → (⟨S65536x512, .f32⟩ : BufTy).Contents (Elt F) → (⟨S65536x512, .f32⟩ : BufTy).Contents (Elt F)),
    unary main_v14 main_v15 (Host.tanh : (⟨S65536x512, .f32⟩ : BufTy).Contents (Elt F) → (⟨S65536x512, .f32⟩ : BufTy).Contents (Elt F)),
    unary main_arg4 main_v16 ((extractStridedSlice S1x101x512 ![0, 0, 0] · slices_S3x101x512_S1x101x512_0_0_0) : (⟨S3x101x512, .f32⟩ : BufTy).Contents (Elt F) → (⟨S1x101x512, .f32⟩ : BufTy).Contents (Elt F)),
    reshape main_v16 main_v17 rfl shapeCasts_S1x101x512_S101x512,
    binary main_arg0 main_v17 main_v18 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    unary main_arg8 main_v19 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v19 main_v20 rfl shapeCasts_S1x512x512_S512x512,
    binary main_v3 main_v20 main_v21 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v18 main_v21 main_v22 (addf : (⟨S65536x512, .f32⟩ : BufTy).Contents (Elt F) → (⟨S65536x512, .f32⟩ : BufTy).Contents (Elt F) → (⟨S65536x512, .f32⟩ : BufTy).Contents (Elt F)),
    unary main_arg12 main_v23 ((extractStridedSlice S1x1x512 ![0, 0, 0] · slices_S3x1x512_S1x1x512_0_0_0) : (⟨S3x1x512, .f32⟩ : BufTy).Contents (Elt F) → (⟨S1x1x512, .f32⟩ : BufTy).Contents (Elt F)),
    reshape main_v23 main_v24 rfl shapeCasts_S1x1x512_S1x512,
    unary main_v24 main_v25 (broadcastInDim S65536x512 ![0, 1] bcast_S1x512_S65536x512_0_1 : (⟨S1x512, .f32⟩ : BufTy).Contents (Elt F) → (⟨S65536x512, .f32⟩ : BufTy).Contents (Elt F)),
    binary main_v22 main_v25 main_v26 (addf : (⟨S65536x512, .f32⟩ : BufTy).Contents (Elt F) → (⟨S65536x512, .f32⟩ : BufTy).Contents (Elt F) → (⟨S65536x512, .f32⟩ : BufTy).Contents (Elt F)),
    unary main_v26 main_v27 (Host.tanh : (⟨S65536x512, .f32⟩ : BufTy).Contents (Elt F) → (⟨S65536x512, .f32⟩ : BufTy).Contents (Elt F)),
    unary main_arg5 main_v28 ((extractStridedSlice S1x101x512 ![0, 0, 0] · slices_S3x101x512_S1x101x512_0_0_0) : (⟨S3x101x512, .f32⟩ : BufTy).Contents (Elt F) → (⟨S1x101x512, .f32⟩ : BufTy).Contents (Elt F)),
    reshape main_v28 main_v29 rfl shapeCasts_S1x101x512_S101x512,
    binary main_arg0 main_v29 main_v30 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    unary main_arg9 main_v31 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v31 main_v32 rfl shapeCasts_S1x512x512_S512x512,
    binary main_v3 main_v32 main_v33 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v30 main_v33 main_v34 (addf : (⟨S65536x512, .f32⟩ : BufTy).Contents (Elt F) → (⟨S65536x512, .f32⟩ : BufTy).Contents (Elt F) → (⟨S65536x512, .f32⟩ : BufTy).Contents (Elt F)),
    unary main_arg13 main_v35 ((extractStridedSlice S1x1x512 ![0, 0, 0] · slices_S3x1x512_S1x1x512_0_0_0) : (⟨S3x1x512, .f32⟩ : BufTy).Contents (Elt F) → (⟨S1x1x512, .f32⟩ : BufTy).Contents (Elt F)),
    reshape main_v35 main_v36 rfl shapeCasts_S1x1x512_S1x512,
    unary main_v36 main_v37 (broadcastInDim S65536x512 ![0, 1] bcast_S1x512_S65536x512_0_1 : (⟨S1x512, .f32⟩ : BufTy).Contents (Elt F) → (⟨S65536x512, .f32⟩ : BufTy).Contents (Elt F)),
    binary main_v34 main_v37 main_v38 (addf : (⟨S65536x512, .f32⟩ : BufTy).Contents (Elt F) → (⟨S65536x512, .f32⟩ : BufTy).Contents (Elt F) → (⟨S65536x512, .f32⟩ : BufTy).Contents (Elt F)),
    unary main_v38 main_v39 (Host.tanh : (⟨S65536x512, .f32⟩ : BufTy).Contents (Elt F) → (⟨S65536x512, .f32⟩ : BufTy).Contents (Elt F)),
    unary main_arg6 main_v40 ((extractStridedSlice S1x101x512 ![0, 0, 0] · slices_S3x101x512_S1x101x512_0_0_0) : (⟨S3x101x512, .f32⟩ : BufTy).Contents (Elt F) → (⟨S1x101x512, .f32⟩ : BufTy).Contents (Elt F)),
    reshape main_v40 main_v41 rfl shapeCasts_S1x101x512_S101x512,
    binary main_arg0 main_v41 main_v42 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    binary main_v3 main_v39 main_v43 (mulf : (⟨S65536x512, .f32⟩ : BufTy).Contents (Elt F) → (⟨S65536x512, .f32⟩ : BufTy).Contents (Elt F) → (⟨S65536x512, .f32⟩ : BufTy).Contents (Elt F)),
    unary main_arg10 main_v44 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v44 main_v45 rfl shapeCasts_S1x512x512_S512x512,
    binary main_v43 main_v45 main_v46 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v42 main_v46 main_v47 (addf : (⟨S65536x512, .f32⟩ : BufTy).Contents (Elt F) → (⟨S65536x512, .f32⟩ : BufTy).Contents (Elt F) → (⟨S65536x512, .f32⟩ : BufTy).Contents (Elt F)),
    unary main_arg14 main_v48 ((extractStridedSlice S1x1x512 ![0, 0, 0] · slices_S3x1x512_S1x1x512_0_0_0) : (⟨S3x1x512, .f32⟩ : BufTy).Contents (Elt F) → (⟨S1x1x512, .f32⟩ : BufTy).Contents (Elt F)),
    reshape main_v48 main_v49 rfl shapeCasts_S1x1x512_S1x512,
    unary main_v49 main_v50 (broadcastInDim S65536x512 ![0, 1] bcast_S1x512_S65536x512_0_1 : (⟨S1x512, .f32⟩ : BufTy).Contents (Elt F) → (⟨S65536x512, .f32⟩ : BufTy).Contents (Elt F)),
    binary main_v47 main_v50 main_v51 (addf : (⟨S65536x512, .f32⟩ : BufTy).Contents (Elt F) → (⟨S65536x512, .f32⟩ : BufTy).Contents (Elt F) → (⟨S65536x512, .f32⟩ : BufTy).Contents (Elt F)),
    unary main_v51 main_v52 (Host.tanh : (⟨S65536x512, .f32⟩ : BufTy).Contents (Elt F) → (⟨S65536x512, .f32⟩ : BufTy).Contents (Elt F)),
    nullary main_cst (constant S_ .f32 0x3F800000#32),
    unary main_cst main_v53 (broadcastInDim S65536x512 ![] bcast_S_S65536x512 : (⟨S_, .f32⟩ : BufTy).Contents (Elt F) → (⟨S65536x512, .f32⟩ : BufTy).Contents (Elt F)),
    binary main_v53 main_v27 main_v54 (subf : (⟨S65536x512, .f32⟩ : BufTy).Contents (Elt F) → (⟨S65536x512, .f32⟩ : BufTy).Contents (Elt F) → (⟨S65536x512, .f32⟩ : BufTy).Contents (Elt F)),
    binary main_v54 main_v52 main_v55 (mulf : (⟨S65536x512, .f32⟩ : BufTy).Contents (Elt F) → (⟨S65536x512, .f32⟩ : BufTy).Contents (Elt F) → (⟨S65536x512, .f32⟩ : BufTy).Contents (Elt F)),
    binary main_v15 main_v3 main_v56 (mulf : (⟨S65536x512, .f32⟩ : BufTy).Contents (Elt F) → (⟨S65536x512, .f32⟩ : BufTy).Contents (Elt F) → (⟨S65536x512, .f32⟩ : BufTy).Contents (Elt F)),
    binary main_v55 main_v56 main_v57 (addf : (⟨S65536x512, .f32⟩ : BufTy).Contents (Elt F) → (⟨S65536x512, .f32⟩ : BufTy).Contents (Elt F) → (⟨S65536x512, .f32⟩ : BufTy).Contents (Elt F)) ]

/-- The second gated layer. -/
abbrev seg2 : List (HloOp τ sig (Elt F)) :=
  [ unary main_arg3 main_v58 ((extractStridedSlice S1x101x512 ![1, 0, 0] · slices_S3x101x512_S1x101x512_1_0_0) : (⟨S3x101x512, .f32⟩ : BufTy).Contents (Elt F) → (⟨S1x101x512, .f32⟩ : BufTy).Contents (Elt F)),
    reshape main_v58 main_v59 rfl shapeCasts_S1x101x512_S101x512,
    binary main_arg0 main_v59 main_v60 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    unary main_arg7 main_v61 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v61 main_v62 rfl shapeCasts_S1x512x512_S512x512,
    binary main_v57 main_v62 main_v63 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v60 main_v63 main_v64 (addf : (⟨S65536x512, .f32⟩ : BufTy).Contents (Elt F) → (⟨S65536x512, .f32⟩ : BufTy).Contents (Elt F) → (⟨S65536x512, .f32⟩ : BufTy).Contents (Elt F)),
    unary main_arg11 main_v65 ((extractStridedSlice S1x1x512 ![1, 0, 0] · slices_S3x1x512_S1x1x512_1_0_0) : (⟨S3x1x512, .f32⟩ : BufTy).Contents (Elt F) → (⟨S1x1x512, .f32⟩ : BufTy).Contents (Elt F)),
    reshape main_v65 main_v66 rfl shapeCasts_S1x1x512_S1x512,
    unary main_v66 main_v67 (broadcastInDim S65536x512 ![0, 1] bcast_S1x512_S65536x512_0_1 : (⟨S1x512, .f32⟩ : BufTy).Contents (Elt F) → (⟨S65536x512, .f32⟩ : BufTy).Contents (Elt F)),
    binary main_v64 main_v67 main_v68 (addf : (⟨S65536x512, .f32⟩ : BufTy).Contents (Elt F) → (⟨S65536x512, .f32⟩ : BufTy).Contents (Elt F) → (⟨S65536x512, .f32⟩ : BufTy).Contents (Elt F)),
    unary main_v68 main_v69 (Host.tanh : (⟨S65536x512, .f32⟩ : BufTy).Contents (Elt F) → (⟨S65536x512, .f32⟩ : BufTy).Contents (Elt F)),
    unary main_arg4 main_v70 ((extractStridedSlice S1x101x512 ![1, 0, 0] · slices_S3x101x512_S1x101x512_1_0_0) : (⟨S3x101x512, .f32⟩ : BufTy).Contents (Elt F) → (⟨S1x101x512, .f32⟩ : BufTy).Contents (Elt F)),
    reshape main_v70 main_v71 rfl shapeCasts_S1x101x512_S101x512,
    binary main_arg0 main_v71 main_v72 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    unary main_arg8 main_v73 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v73 main_v74 rfl shapeCasts_S1x512x512_S512x512,
    binary main_v57 main_v74 main_v75 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v72 main_v75 main_v76 (addf : (⟨S65536x512, .f32⟩ : BufTy).Contents (Elt F) → (⟨S65536x512, .f32⟩ : BufTy).Contents (Elt F) → (⟨S65536x512, .f32⟩ : BufTy).Contents (Elt F)),
    unary main_arg12 main_v77 ((extractStridedSlice S1x1x512 ![1, 0, 0] · slices_S3x1x512_S1x1x512_1_0_0) : (⟨S3x1x512, .f32⟩ : BufTy).Contents (Elt F) → (⟨S1x1x512, .f32⟩ : BufTy).Contents (Elt F)),
    reshape main_v77 main_v78 rfl shapeCasts_S1x1x512_S1x512,
    unary main_v78 main_v79 (broadcastInDim S65536x512 ![0, 1] bcast_S1x512_S65536x512_0_1 : (⟨S1x512, .f32⟩ : BufTy).Contents (Elt F) → (⟨S65536x512, .f32⟩ : BufTy).Contents (Elt F)),
    binary main_v76 main_v79 main_v80 (addf : (⟨S65536x512, .f32⟩ : BufTy).Contents (Elt F) → (⟨S65536x512, .f32⟩ : BufTy).Contents (Elt F) → (⟨S65536x512, .f32⟩ : BufTy).Contents (Elt F)),
    unary main_v80 main_v81 (Host.tanh : (⟨S65536x512, .f32⟩ : BufTy).Contents (Elt F) → (⟨S65536x512, .f32⟩ : BufTy).Contents (Elt F)),
    unary main_arg5 main_v82 ((extractStridedSlice S1x101x512 ![1, 0, 0] · slices_S3x101x512_S1x101x512_1_0_0) : (⟨S3x101x512, .f32⟩ : BufTy).Contents (Elt F) → (⟨S1x101x512, .f32⟩ : BufTy).Contents (Elt F)),
    reshape main_v82 main_v83 rfl shapeCasts_S1x101x512_S101x512,
    binary main_arg0 main_v83 main_v84 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    unary main_arg9 main_v85 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v85 main_v86 rfl shapeCasts_S1x512x512_S512x512,
    binary main_v57 main_v86 main_v87 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v84 main_v87 main_v88 (addf : (⟨S65536x512, .f32⟩ : BufTy).Contents (Elt F) → (⟨S65536x512, .f32⟩ : BufTy).Contents (Elt F) → (⟨S65536x512, .f32⟩ : BufTy).Contents (Elt F)),
    unary main_arg13 main_v89 ((extractStridedSlice S1x1x512 ![1, 0, 0] · slices_S3x1x512_S1x1x512_1_0_0) : (⟨S3x1x512, .f32⟩ : BufTy).Contents (Elt F) → (⟨S1x1x512, .f32⟩ : BufTy).Contents (Elt F)),
    reshape main_v89 main_v90 rfl shapeCasts_S1x1x512_S1x512,
    unary main_v90 main_v91 (broadcastInDim S65536x512 ![0, 1] bcast_S1x512_S65536x512_0_1 : (⟨S1x512, .f32⟩ : BufTy).Contents (Elt F) → (⟨S65536x512, .f32⟩ : BufTy).Contents (Elt F)),
    binary main_v88 main_v91 main_v92 (addf : (⟨S65536x512, .f32⟩ : BufTy).Contents (Elt F) → (⟨S65536x512, .f32⟩ : BufTy).Contents (Elt F) → (⟨S65536x512, .f32⟩ : BufTy).Contents (Elt F)),
    unary main_v92 main_v93 (Host.tanh : (⟨S65536x512, .f32⟩ : BufTy).Contents (Elt F) → (⟨S65536x512, .f32⟩ : BufTy).Contents (Elt F)),
    unary main_arg6 main_v94 ((extractStridedSlice S1x101x512 ![1, 0, 0] · slices_S3x101x512_S1x101x512_1_0_0) : (⟨S3x101x512, .f32⟩ : BufTy).Contents (Elt F) → (⟨S1x101x512, .f32⟩ : BufTy).Contents (Elt F)),
    reshape main_v94 main_v95 rfl shapeCasts_S1x101x512_S101x512,
    binary main_arg0 main_v95 main_v96 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    binary main_v57 main_v93 main_v97 (mulf : (⟨S65536x512, .f32⟩ : BufTy).Contents (Elt F) → (⟨S65536x512, .f32⟩ : BufTy).Contents (Elt F) → (⟨S65536x512, .f32⟩ : BufTy).Contents (Elt F)),
    unary main_arg10 main_v98 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v98 main_v99 rfl shapeCasts_S1x512x512_S512x512,
    binary main_v97 main_v99 main_v100 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v96 main_v100 main_v101 (addf : (⟨S65536x512, .f32⟩ : BufTy).Contents (Elt F) → (⟨S65536x512, .f32⟩ : BufTy).Contents (Elt F) → (⟨S65536x512, .f32⟩ : BufTy).Contents (Elt F)),
    unary main_arg14 main_v102 ((extractStridedSlice S1x1x512 ![1, 0, 0] · slices_S3x1x512_S1x1x512_1_0_0) : (⟨S3x1x512, .f32⟩ : BufTy).Contents (Elt F) → (⟨S1x1x512, .f32⟩ : BufTy).Contents (Elt F)),
    reshape main_v102 main_v103 rfl shapeCasts_S1x1x512_S1x512,
    unary main_v103 main_v104 (broadcastInDim S65536x512 ![0, 1] bcast_S1x512_S65536x512_0_1 : (⟨S1x512, .f32⟩ : BufTy).Contents (Elt F) → (⟨S65536x512, .f32⟩ : BufTy).Contents (Elt F)),
    binary main_v101 main_v104 main_v105 (addf : (⟨S65536x512, .f32⟩ : BufTy).Contents (Elt F) → (⟨S65536x512, .f32⟩ : BufTy).Contents (Elt F) → (⟨S65536x512, .f32⟩ : BufTy).Contents (Elt F)),
    unary main_v105 main_v106 (Host.tanh : (⟨S65536x512, .f32⟩ : BufTy).Contents (Elt F) → (⟨S65536x512, .f32⟩ : BufTy).Contents (Elt F)),
    nullary main_cst_0 (constant S_ .f32 0x3F800000#32),
    unary main_cst_0 main_v107 (broadcastInDim S65536x512 ![] bcast_S_S65536x512 : (⟨S_, .f32⟩ : BufTy).Contents (Elt F) → (⟨S65536x512, .f32⟩ : BufTy).Contents (Elt F)),
    binary main_v107 main_v81 main_v108 (subf : (⟨S65536x512, .f32⟩ : BufTy).Contents (Elt F) → (⟨S65536x512, .f32⟩ : BufTy).Contents (Elt F) → (⟨S65536x512, .f32⟩ : BufTy).Contents (Elt F)),
    binary main_v108 main_v106 main_v109 (mulf : (⟨S65536x512, .f32⟩ : BufTy).Contents (Elt F) → (⟨S65536x512, .f32⟩ : BufTy).Contents (Elt F) → (⟨S65536x512, .f32⟩ : BufTy).Contents (Elt F)),
    binary main_v69 main_v57 main_v110 (mulf : (⟨S65536x512, .f32⟩ : BufTy).Contents (Elt F) → (⟨S65536x512, .f32⟩ : BufTy).Contents (Elt F) → (⟨S65536x512, .f32⟩ : BufTy).Contents (Elt F)),
    binary main_v109 main_v110 main_v111 (addf : (⟨S65536x512, .f32⟩ : BufTy).Contents (Elt F) → (⟨S65536x512, .f32⟩ : BufTy).Contents (Elt F) → (⟨S65536x512, .f32⟩ : BufTy).Contents (Elt F)) ]

/-- The third gated layer. -/
abbrev seg3 : List (HloOp τ sig (Elt F)) :=
  [ unary main_arg3 main_v112 ((extractStridedSlice S1x101x512 ![2, 0, 0] · slices_S3x101x512_S1x101x512_2_0_0) : (⟨S3x101x512, .f32⟩ : BufTy).Contents (Elt F) → (⟨S1x101x512, .f32⟩ : BufTy).Contents (Elt F)),
    reshape main_v112 main_v113 rfl shapeCasts_S1x101x512_S101x512,
    binary main_arg0 main_v113 main_v114 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    unary main_arg7 main_v115 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v115 main_v116 rfl shapeCasts_S1x512x512_S512x512,
    binary main_v111 main_v116 main_v117 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v114 main_v117 main_v118 (addf : (⟨S65536x512, .f32⟩ : BufTy).Contents (Elt F) → (⟨S65536x512, .f32⟩ : BufTy).Contents (Elt F) → (⟨S65536x512, .f32⟩ : BufTy).Contents (Elt F)),
    unary main_arg11 main_v119 ((extractStridedSlice S1x1x512 ![2, 0, 0] · slices_S3x1x512_S1x1x512_2_0_0) : (⟨S3x1x512, .f32⟩ : BufTy).Contents (Elt F) → (⟨S1x1x512, .f32⟩ : BufTy).Contents (Elt F)),
    reshape main_v119 main_v120 rfl shapeCasts_S1x1x512_S1x512,
    unary main_v120 main_v121 (broadcastInDim S65536x512 ![0, 1] bcast_S1x512_S65536x512_0_1 : (⟨S1x512, .f32⟩ : BufTy).Contents (Elt F) → (⟨S65536x512, .f32⟩ : BufTy).Contents (Elt F)),
    binary main_v118 main_v121 main_v122 (addf : (⟨S65536x512, .f32⟩ : BufTy).Contents (Elt F) → (⟨S65536x512, .f32⟩ : BufTy).Contents (Elt F) → (⟨S65536x512, .f32⟩ : BufTy).Contents (Elt F)),
    unary main_v122 main_v123 (Host.tanh : (⟨S65536x512, .f32⟩ : BufTy).Contents (Elt F) → (⟨S65536x512, .f32⟩ : BufTy).Contents (Elt F)),
    unary main_arg4 main_v124 ((extractStridedSlice S1x101x512 ![2, 0, 0] · slices_S3x101x512_S1x101x512_2_0_0) : (⟨S3x101x512, .f32⟩ : BufTy).Contents (Elt F) → (⟨S1x101x512, .f32⟩ : BufTy).Contents (Elt F)),
    reshape main_v124 main_v125 rfl shapeCasts_S1x101x512_S101x512,
    binary main_arg0 main_v125 main_v126 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    unary main_arg8 main_v127 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v127 main_v128 rfl shapeCasts_S1x512x512_S512x512,
    binary main_v111 main_v128 main_v129 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v126 main_v129 main_v130 (addf : (⟨S65536x512, .f32⟩ : BufTy).Contents (Elt F) → (⟨S65536x512, .f32⟩ : BufTy).Contents (Elt F) → (⟨S65536x512, .f32⟩ : BufTy).Contents (Elt F)),
    unary main_arg12 main_v131 ((extractStridedSlice S1x1x512 ![2, 0, 0] · slices_S3x1x512_S1x1x512_2_0_0) : (⟨S3x1x512, .f32⟩ : BufTy).Contents (Elt F) → (⟨S1x1x512, .f32⟩ : BufTy).Contents (Elt F)),
    reshape main_v131 main_v132 rfl shapeCasts_S1x1x512_S1x512,
    unary main_v132 main_v133 (broadcastInDim S65536x512 ![0, 1] bcast_S1x512_S65536x512_0_1 : (⟨S1x512, .f32⟩ : BufTy).Contents (Elt F) → (⟨S65536x512, .f32⟩ : BufTy).Contents (Elt F)),
    binary main_v130 main_v133 main_v134 (addf : (⟨S65536x512, .f32⟩ : BufTy).Contents (Elt F) → (⟨S65536x512, .f32⟩ : BufTy).Contents (Elt F) → (⟨S65536x512, .f32⟩ : BufTy).Contents (Elt F)),
    unary main_v134 main_v135 (Host.tanh : (⟨S65536x512, .f32⟩ : BufTy).Contents (Elt F) → (⟨S65536x512, .f32⟩ : BufTy).Contents (Elt F)),
    unary main_arg5 main_v136 ((extractStridedSlice S1x101x512 ![2, 0, 0] · slices_S3x101x512_S1x101x512_2_0_0) : (⟨S3x101x512, .f32⟩ : BufTy).Contents (Elt F) → (⟨S1x101x512, .f32⟩ : BufTy).Contents (Elt F)),
    reshape main_v136 main_v137 rfl shapeCasts_S1x101x512_S101x512,
    binary main_arg0 main_v137 main_v138 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    unary main_arg9 main_v139 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v139 main_v140 rfl shapeCasts_S1x512x512_S512x512,
    binary main_v111 main_v140 main_v141 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v138 main_v141 main_v142 (addf : (⟨S65536x512, .f32⟩ : BufTy).Contents (Elt F) → (⟨S65536x512, .f32⟩ : BufTy).Contents (Elt F) → (⟨S65536x512, .f32⟩ : BufTy).Contents (Elt F)),
    unary main_arg13 main_v143 ((extractStridedSlice S1x1x512 ![2, 0, 0] · slices_S3x1x512_S1x1x512_2_0_0) : (⟨S3x1x512, .f32⟩ : BufTy).Contents (Elt F) → (⟨S1x1x512, .f32⟩ : BufTy).Contents (Elt F)),
    reshape main_v143 main_v144 rfl shapeCasts_S1x1x512_S1x512,
    unary main_v144 main_v145 (broadcastInDim S65536x512 ![0, 1] bcast_S1x512_S65536x512_0_1 : (⟨S1x512, .f32⟩ : BufTy).Contents (Elt F) → (⟨S65536x512, .f32⟩ : BufTy).Contents (Elt F)),
    binary main_v142 main_v145 main_v146 (addf : (⟨S65536x512, .f32⟩ : BufTy).Contents (Elt F) → (⟨S65536x512, .f32⟩ : BufTy).Contents (Elt F) → (⟨S65536x512, .f32⟩ : BufTy).Contents (Elt F)),
    unary main_v146 main_v147 (Host.tanh : (⟨S65536x512, .f32⟩ : BufTy).Contents (Elt F) → (⟨S65536x512, .f32⟩ : BufTy).Contents (Elt F)),
    unary main_arg6 main_v148 ((extractStridedSlice S1x101x512 ![2, 0, 0] · slices_S3x101x512_S1x101x512_2_0_0) : (⟨S3x101x512, .f32⟩ : BufTy).Contents (Elt F) → (⟨S1x101x512, .f32⟩ : BufTy).Contents (Elt F)),
    reshape main_v148 main_v149 rfl shapeCasts_S1x101x512_S101x512,
    binary main_arg0 main_v149 main_v150 ((fun l r => Host.dotGeneral dot_S65536x101_S101x512_S65536x512_1_0_0_1_n_n none l r) : (⟨S65536x101, .f32⟩ : BufTy).Contents (Elt F) → (⟨S101x512, .f32⟩ : BufTy).Contents (Elt F) → (⟨S65536x512, .f32⟩ : BufTy).Contents (Elt F)),
    binary main_v111 main_v147 main_v151 (mulf : (⟨S65536x512, .f32⟩ : BufTy).Contents (Elt F) → (⟨S65536x512, .f32⟩ : BufTy).Contents (Elt F) → (⟨S65536x512, .f32⟩ : BufTy).Contents (Elt F)),
    unary main_arg10 main_v152 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v152 main_v153 rfl shapeCasts_S1x512x512_S512x512,
    binary main_v151 main_v153 main_v154 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_v150 main_v154 main_v155 (addf : (⟨S65536x512, .f32⟩ : BufTy).Contents (Elt F) → (⟨S65536x512, .f32⟩ : BufTy).Contents (Elt F) → (⟨S65536x512, .f32⟩ : BufTy).Contents (Elt F)),
    unary main_arg14 main_v156 ((extractStridedSlice S1x1x512 ![2, 0, 0] · slices_S3x1x512_S1x1x512_2_0_0) : (⟨S3x1x512, .f32⟩ : BufTy).Contents (Elt F) → (⟨S1x1x512, .f32⟩ : BufTy).Contents (Elt F)),
    reshape main_v156 main_v157 rfl shapeCasts_S1x1x512_S1x512,
    unary main_v157 main_v158 (broadcastInDim S65536x512 ![0, 1] bcast_S1x512_S65536x512_0_1 : (⟨S1x512, .f32⟩ : BufTy).Contents (Elt F) → (⟨S65536x512, .f32⟩ : BufTy).Contents (Elt F)),
    binary main_v155 main_v158 main_v159 (addf : (⟨S65536x512, .f32⟩ : BufTy).Contents (Elt F) → (⟨S65536x512, .f32⟩ : BufTy).Contents (Elt F) → (⟨S65536x512, .f32⟩ : BufTy).Contents (Elt F)),
    unary main_v159 main_v160 (Host.tanh : (⟨S65536x512, .f32⟩ : BufTy).Contents (Elt F) → (⟨S65536x512, .f32⟩ : BufTy).Contents (Elt F)),
    nullary main_cst_1 (constant S_ .f32 0x3F800000#32),
    unary main_cst_1 main_v161 (broadcastInDim S65536x512 ![] bcast_S_S65536x512 : (⟨S_, .f32⟩ : BufTy).Contents (Elt F) → (⟨S65536x512, .f32⟩ : BufTy).Contents (Elt F)),
    binary main_v161 main_v135 main_v162 (subf : (⟨S65536x512, .f32⟩ : BufTy).Contents (Elt F) → (⟨S65536x512, .f32⟩ : BufTy).Contents (Elt F) → (⟨S65536x512, .f32⟩ : BufTy).Contents (Elt F)),
    binary main_v162 main_v160 main_v163 (mulf : (⟨S65536x512, .f32⟩ : BufTy).Contents (Elt F) → (⟨S65536x512, .f32⟩ : BufTy).Contents (Elt F) → (⟨S65536x512, .f32⟩ : BufTy).Contents (Elt F)),
    binary main_v123 main_v111 main_v164 (mulf : (⟨S65536x512, .f32⟩ : BufTy).Contents (Elt F) → (⟨S65536x512, .f32⟩ : BufTy).Contents (Elt F) → (⟨S65536x512, .f32⟩ : BufTy).Contents (Elt F)),
    binary main_v163 main_v164 main_v165 (addf : (⟨S65536x512, .f32⟩ : BufTy).Contents (Elt F) → (⟨S65536x512, .f32⟩ : BufTy).Contents (Elt F) → (⟨S65536x512, .f32⟩ : BufTy).Contents (Elt F)) ]

/-- The final projection. -/
abbrev seg4 : List (HloOp τ sig (Elt F)) :=
  [ binary main_v165 main_arg15 main_v166 ((fun l r => Host.dotGeneral dot_S65536x512_S512x1_S65536x1_1_0_0_1_n_n none l r) : (⟨S65536x512, .f32⟩ : BufTy).Contents (Elt F) → (⟨S512x1, .f32⟩ : BufTy).Contents (Elt F) → (⟨S65536x1, .f32⟩ : BufTy).Contents (Elt F)),
    unary main_arg16 main_v167 (broadcastInDim S65536x1 ![0, 1] bcast_S1x1_S65536x1_0_1 : (⟨S1x1, .f32⟩ : BufTy).Contents (Elt F) → (⟨S65536x1, .f32⟩ : BufTy).Contents (Elt F)),
    binary main_v166 main_v167 main_v168 (addf : (⟨S65536x1, .f32⟩ : BufTy).Contents (Elt F) → (⟨S65536x1, .f32⟩ : BufTy).Contents (Elt F) → (⟨S65536x1, .f32⟩ : BufTy).Contents (Elt F)) ]

/-- @main's 172 operations, in order. -/
abbrev ops : List (HloOp τ sig (Elt F)) := seg0 ++ (seg1 ++ (seg2 ++ (seg3 ++ seg4)))

set_option maxHeartbeats 8000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem seg0_sub : (seg0 : List (HloOp τ sig (Elt F))).Forall fun op => op.bufs ⊆ tcRefs τ sig :=
  ⟨binary_bufs_sub .., unary_bufs_sub .., binary_bufs_sub .., unary_bufs_sub ..⟩
theorem seg1_sub : (seg1 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., binary_bufs_sub .., unary_bufs_sub .., unary_bufs_sub .., reshape_bufs_sub .., binary_bufs_sub .., unary_bufs_sub .., reshape_bufs_sub .., binary_bufs_sub .., binary_bufs_sub .., unary_bufs_sub .., reshape_bufs_sub .., unary_bufs_sub .., binary_bufs_sub .., unary_bufs_sub .., unary_bufs_sub .., reshape_bufs_sub .., binary_bufs_sub .., unary_bufs_sub .., reshape_bufs_sub .., binary_bufs_sub .., binary_bufs_sub .., unary_bufs_sub .., reshape_bufs_sub .., unary_bufs_sub .., binary_bufs_sub .., unary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub .., binary_bufs_sub .., unary_bufs_sub .., nullary_bufs_sub .., unary_bufs_sub .., binary_bufs_sub .., binary_bufs_sub .., binary_bufs_sub .., binary_bufs_sub ..⟩
theorem seg2_sub : (seg2 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., binary_bufs_sub .., unary_bufs_sub .., unary_bufs_sub .., reshape_bufs_sub .., binary_bufs_sub .., unary_bufs_sub .., reshape_bufs_sub .., binary_bufs_sub .., binary_bufs_sub .., unary_bufs_sub .., reshape_bufs_sub .., unary_bufs_sub .., binary_bufs_sub .., unary_bufs_sub .., unary_bufs_sub .., reshape_bufs_sub .., binary_bufs_sub .., unary_bufs_sub .., reshape_bufs_sub .., binary_bufs_sub .., binary_bufs_sub .., unary_bufs_sub .., reshape_bufs_sub .., unary_bufs_sub .., binary_bufs_sub .., unary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub .., binary_bufs_sub .., unary_bufs_sub .., nullary_bufs_sub .., unary_bufs_sub .., binary_bufs_sub .., binary_bufs_sub .., binary_bufs_sub .., binary_bufs_sub ..⟩
theorem seg3_sub : (seg3 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., binary_bufs_sub .., unary_bufs_sub .., unary_bufs_sub .., reshape_bufs_sub .., binary_bufs_sub .., unary_bufs_sub .., reshape_bufs_sub .., binary_bufs_sub .., binary_bufs_sub .., unary_bufs_sub .., reshape_bufs_sub .., unary_bufs_sub .., binary_bufs_sub .., unary_bufs_sub .., unary_bufs_sub .., reshape_bufs_sub .., binary_bufs_sub .., unary_bufs_sub .., reshape_bufs_sub .., binary_bufs_sub .., binary_bufs_sub .., unary_bufs_sub .., reshape_bufs_sub .., unary_bufs_sub .., binary_bufs_sub .., unary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub .., binary_bufs_sub .., unary_bufs_sub .., nullary_bufs_sub .., unary_bufs_sub .., binary_bufs_sub .., binary_bufs_sub .., binary_bufs_sub .., binary_bufs_sub ..⟩
theorem seg4_sub : (seg4 : List (HloOp τ sig (Elt F))).Forall fun op => op.bufs ⊆ tcRefs τ sig :=
  ⟨binary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp seg0_sub op h
    rcases List.mem_append.mp h with h | h
    · exact List.forall_iff_forall_mem.mp seg1_sub op h
    rcases List.mem_append.mp h with h | h
    · exact List.forall_iff_forall_mem.mp seg2_sub op h
    rcases List.mem_append.mp h with h | h
    · exact List.forall_iff_forall_mem.mp seg3_sub op h
    · exact List.forall_iff_forall_mem.mp seg4_sub op h

/-- No operation allocates: each writes its result from its operands. -/
theorem ops_fresh : ∀ op ∈ (ops : List (HloOp τ sig (Elt F))), op.fresh = ∅ := fun op h => by
  have f0 : ∀ op ∈ (seg0 : List (HloOp τ sig (Elt F))), op.fresh = ∅ := by intro _ h; (repeat (cases h with | head => rfl | tail _ h => ?_)); exact nomatch h
  have f1 : ∀ op ∈ (seg1 : List (HloOp τ sig (Elt F))), op.fresh = ∅ := by intro _ h; (repeat (cases h with | head => rfl | tail _ h => ?_)); exact nomatch h
  have f2 : ∀ op ∈ (seg2 : List (HloOp τ sig (Elt F))), op.fresh = ∅ := by intro _ h; (repeat (cases h with | head => rfl | tail _ h => ?_)); exact nomatch h
  have f3 : ∀ op ∈ (seg3 : List (HloOp τ sig (Elt F))), op.fresh = ∅ := by intro _ h; (repeat (cases h with | head => rfl | tail _ h => ?_)); exact nomatch h
  have f4 : ∀ op ∈ (seg4 : List (HloOp τ sig (Elt F))), op.fresh = ∅ := by intro _ h; (repeat (cases h with | head => rfl | tail _ h => ?_)); exact nomatch h
  rcases List.mem_append.mp h with h | h
  · exact f0 op h
  rcases List.mem_append.mp h with h | h
  · exact f1 op h
  rcases List.mem_append.mp h with h | h
  · exact f2 op h
  rcases List.mem_append.mp h with h | h
  · exact f3 op h
  · exact f4 op h

/-! ## What each stretch writes -/

theorem seg0_writes : WritesOnly (τ := τ) (seg0 : List (HloOp τ sig (Elt F))) [main_v0, main_v1, main_v2, main_v3] := by
  unfold WritesOnly
  repeat' (first | exact List.Forall₂.nil | apply List.Forall₂.cons)
  all_goals (simp only [unary_writes, binary_writes, nullary_writes, reshape_writes]; exact Finset.Subset.refl _)

/-- Stretch 0 leaves every buffer it does not write as it was. -/
theorem keep0 (W : Valuation τ sig (Elt F)) (r : Ref sig .tc) (hr : r ∉ [main_v0, main_v1, main_v2, main_v3]) :
    after (seg0 : List (HloOp τ sig (Elt F))) W (Proc.devRef .tc r) = W (Proc.devRef .tc r) :=
  after_of_not_mem_writesOnly seg0_writes W r hr

theorem seg1_writes : WritesOnly (τ := τ) (seg1 : List (HloOp τ sig (Elt F))) [main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst, main_v53, main_v54, main_v55, main_v56, main_v57] := by
  unfold WritesOnly
  repeat' (first | exact List.Forall₂.nil | apply List.Forall₂.cons)
  all_goals (simp only [unary_writes, binary_writes, nullary_writes, reshape_writes]; exact Finset.Subset.refl _)

/-- Stretch 1 leaves every buffer it does not write as it was. -/
theorem keep1 (W : Valuation τ sig (Elt F)) (r : Ref sig .tc) (hr : r ∉ [main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst, main_v53, main_v54, main_v55, main_v56, main_v57]) :
    after (seg1 : List (HloOp τ sig (Elt F))) W (Proc.devRef .tc r) = W (Proc.devRef .tc r) :=
  after_of_not_mem_writesOnly seg1_writes W r hr

theorem seg2_writes : WritesOnly (τ := τ) (seg2 : List (HloOp τ sig (Elt F))) [main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_cst_0, main_v107, main_v108, main_v109, main_v110, main_v111] := by
  unfold WritesOnly
  repeat' (first | exact List.Forall₂.nil | apply List.Forall₂.cons)
  all_goals (simp only [unary_writes, binary_writes, nullary_writes, reshape_writes]; exact Finset.Subset.refl _)

/-- Stretch 2 leaves every buffer it does not write as it was. -/
theorem keep2 (W : Valuation τ sig (Elt F)) (r : Ref sig .tc) (hr : r ∉ [main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_cst_0, main_v107, main_v108, main_v109, main_v110, main_v111]) :
    after (seg2 : List (HloOp τ sig (Elt F))) W (Proc.devRef .tc r) = W (Proc.devRef .tc r) :=
  after_of_not_mem_writesOnly seg2_writes W r hr

theorem seg3_writes : WritesOnly (τ := τ) (seg3 : List (HloOp τ sig (Elt F))) [main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_cst_1, main_v161, main_v162, main_v163, main_v164, main_v165] := by
  unfold WritesOnly
  repeat' (first | exact List.Forall₂.nil | apply List.Forall₂.cons)
  all_goals (simp only [unary_writes, binary_writes, nullary_writes, reshape_writes]; exact Finset.Subset.refl _)

/-- Stretch 3 leaves every buffer it does not write as it was. -/
theorem keep3 (W : Valuation τ sig (Elt F)) (r : Ref sig .tc) (hr : r ∉ [main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_cst_1, main_v161, main_v162, main_v163, main_v164, main_v165]) :
    after (seg3 : List (HloOp τ sig (Elt F))) W (Proc.devRef .tc r) = W (Proc.devRef .tc r) :=
  after_of_not_mem_writesOnly seg3_writes W r hr

theorem seg4_writes : WritesOnly (τ := τ) (seg4 : List (HloOp τ sig (Elt F))) [main_v166, main_v167, main_v168] := by
  unfold WritesOnly
  repeat' (first | exact List.Forall₂.nil | apply List.Forall₂.cons)
  all_goals (simp only [unary_writes, binary_writes, nullary_writes, reshape_writes]; exact Finset.Subset.refl _)

/-- Stretch 4 leaves every buffer it does not write as it was. -/
theorem keep4 (W : Valuation τ sig (Elt F)) (r : Ref sig .tc) (hr : r ∉ [main_v166, main_v167, main_v168]) :
    after (seg4 : List (HloOp τ sig (Elt F))) W (Proc.devRef .tc r) = W (Proc.devRef .tc r) :=
  after_of_not_mem_writesOnly seg4_writes W r hr

/-- An argument array read after the first stretches is as launched. -/
theorem kept1 (V : Valuation τ sig (Elt F)) (r : Ref sig .tc) (h0 : r ∉ [main_v0, main_v1, main_v2, main_v3]) (h1 : r ∉ [main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst, main_v53, main_v54, main_v55, main_v56, main_v57]) :
    after (seg1 : List (HloOp τ sig (Elt F))) (after seg0 V) (Proc.devRef .tc r) = V (Proc.devRef .tc r) :=
  (keep1 _ r h1).trans (keep0 _ r h0)
theorem kept2 (V : Valuation τ sig (Elt F)) (r : Ref sig .tc) (h0 : r ∉ [main_v0, main_v1, main_v2, main_v3]) (h1 : r ∉ [main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst, main_v53, main_v54, main_v55, main_v56, main_v57])
    (h2 : r ∉ [main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_cst_0, main_v107, main_v108, main_v109, main_v110, main_v111]) :
    after (seg2 : List (HloOp τ sig (Elt F))) (after seg1 (after seg0 V)) (Proc.devRef .tc r) = V (Proc.devRef .tc r) :=
  (keep2 _ r h2).trans (kept1 V r h0 h1)
theorem kept3 (V : Valuation τ sig (Elt F)) (r : Ref sig .tc) (h0 : r ∉ [main_v0, main_v1, main_v2, main_v3]) (h1 : r ∉ [main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst, main_v53, main_v54, main_v55, main_v56, main_v57])
    (h2 : r ∉ [main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_cst_0, main_v107, main_v108, main_v109, main_v110, main_v111]) (h3 : r ∉ [main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_cst_1, main_v161, main_v162, main_v163, main_v164, main_v165]) :
    after (seg3 : List (HloOp τ sig (Elt F))) (after seg2 (after seg1 (after seg0 V))) (Proc.devRef .tc r) = V (Proc.devRef .tc r) :=
  (keep3 _ r h3).trans (kept2 V r h0 h1 h2)

/-! ## What each stretch leaves in its last buffer -/

set_option maxHeartbeats 4000000 in
theorem last0 (W : Valuation τ sig (Elt Ideal)) :
    after (seg0 (F := Ideal)) W (Proc.devRef .tc main_v3) = state0 (W (Proc.devRef .tc main_arg0)) (W (Proc.devRef .tc main_arg1)) (W (Proc.devRef .tc main_arg2)) := by
  after_results_simp <;> rfl

set_option maxHeartbeats 16000000 in
theorem last1 (W : Valuation τ sig (Elt Ideal)) :
    after (seg1 (F := Ideal)) W (Proc.devRef .tc main_v57)
      = step (W (Proc.devRef .tc main_arg0)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) 0 slices_S3x101x512_S1x101x512_0_0_0 slices_S3x512x512_S1x512x512_0_0_0 slices_S3x1x512_S1x1x512_0_0_0
          (W (Proc.devRef .tc main_v3)) := by
  after_results_simp <;> rfl

set_option maxHeartbeats 16000000 in
theorem last2 (W : Valuation τ sig (Elt Ideal)) :
    after (seg2 (F := Ideal)) W (Proc.devRef .tc main_v111)
      = step (W (Proc.devRef .tc main_arg0)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) 1 slices_S3x101x512_S1x101x512_1_0_0 slices_S3x512x512_S1x512x512_1_0_0 slices_S3x1x512_S1x1x512_1_0_0
          (W (Proc.devRef .tc main_v57)) := by
  after_results_simp <;> rfl

set_option maxHeartbeats 16000000 in
theorem last3 (W : Valuation τ sig (Elt Ideal)) :
    after (seg3 (F := Ideal)) W (Proc.devRef .tc main_v165)
      = step (W (Proc.devRef .tc main_arg0)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) 2 slices_S3x101x512_S1x101x512_2_0_0 slices_S3x512x512_S1x512x512_2_0_0 slices_S3x1x512_S1x1x512_2_0_0
          (W (Proc.devRef .tc main_v111)) := by
  after_results_simp <;> rfl

set_option maxHeartbeats 4000000 in
theorem last4 (W : Valuation τ sig (Elt Ideal)) :
    after (seg4 (F := Ideal)) W (Proc.devRef .tc main_v168)
      = Dgm.Host.readout dot_S65536x512_S512x1_S65536x1_1_0_0_1_n_n bcast_S1x1_S65536x1_0_1 (W (Proc.devRef .tc main_v165)) (W (Proc.devRef .tc main_arg15)) (W (Proc.devRef .tc main_arg16)) := by
  after_results_simp <;> rfl

/-! ## The whole line -/

/-- The result buffer after the line: the reference's stages composed, of the argument arrays as launched. -/
theorem result_after (V : Valuation τ sig (Elt Ideal)) :
    after (ops (F := Ideal)) V (Proc.devRef .tc main_v168) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  show after ((seg0 (F := Ideal)) ++ (seg1 ++ (seg2 ++ (seg3 ++ seg4)))) V _ = _
  rw [after_append, after_append, after_append, after_append, last4, last3, last2, last1, last0]
  rw [kept3 V main_arg15 (by decide) (by decide) (by decide) (by decide),
    kept3 V main_arg16 (by decide) (by decide) (by decide) (by decide),
    kept2 V main_arg0 (by decide) (by decide) (by decide),
    kept2 V main_arg3 (by decide) (by decide) (by decide),
    kept2 V main_arg4 (by decide) (by decide) (by decide),
    kept2 V main_arg5 (by decide) (by decide) (by decide),
    kept2 V main_arg6 (by decide) (by decide) (by decide),
    kept2 V main_arg7 (by decide) (by decide) (by decide),
    kept2 V main_arg8 (by decide) (by decide) (by decide),
    kept2 V main_arg9 (by decide) (by decide) (by decide),
    kept2 V main_arg10 (by decide) (by decide) (by decide),
    kept2 V main_arg11 (by decide) (by decide) (by decide),
    kept2 V main_arg12 (by decide) (by decide) (by decide),
    kept2 V main_arg13 (by decide) (by decide) (by decide),
    kept2 V main_arg14 (by decide) (by decide) (by decide),
    kept1 V main_arg0 (by decide) (by decide),
    kept1 V main_arg3 (by decide) (by decide),
    kept1 V main_arg4 (by decide) (by decide),
    kept1 V main_arg5 (by decide) (by decide),
    kept1 V main_arg6 (by decide) (by decide),
    kept1 V main_arg7 (by decide) (by decide),
    kept1 V main_arg8 (by decide) (by decide),
    kept1 V main_arg9 (by decide) (by decide),
    kept1 V main_arg10 (by decide) (by decide),
    kept1 V main_arg11 (by decide) (by decide),
    kept1 V main_arg12 (by decide) (by decide),
    kept1 V main_arg13 (by decide) (by decide),
    kept1 V main_arg14 (by decide) (by decide),
    keep0 V main_arg0 (by decide),
    keep0 V main_arg3 (by decide),
    keep0 V main_arg4 (by decide),
    keep0 V main_arg5 (by decide),
    keep0 V main_arg6 (by decide),
    keep0 V main_arg7 (by decide),
    keep0 V main_arg8 (by decide),
    keep0 V main_arg9 (by decide),
    keep0 V main_arg10 (by decide),
    keep0 V main_arg11 (by decide),
    keep0 V main_arg12 (by decide),
    keep0 V main_arg13 (by decide),
    keep0 V main_arg14 (by decide)]
  rfl

/-- An argument array after the line is as launched. -/
theorem arg_after (V : Valuation τ sig (Elt Ideal)) (r : Ref sig .tc)
    (h0 : r ∉ [main_v0, main_v1, main_v2, main_v3]) (h1 : r ∉ [main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst, main_v53, main_v54, main_v55, main_v56, main_v57])
    (h2 : r ∉ [main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_cst_0, main_v107, main_v108, main_v109, main_v110, main_v111])
    (h3 : r ∉ [main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_cst_1, main_v161, main_v162, main_v163, main_v164, main_v165])
    (h4 : r ∉ [main_v166, main_v167, main_v168]) :
    after (ops (F := Ideal)) V (Proc.devRef .tc r) = V (Proc.devRef .tc r) := by
  show after ((seg0 (F := Ideal)) ++ (seg1 ++ (seg2 ++ (seg3 ++ seg4)))) V _ = _
  rw [after_append, after_append, after_append, after_append, keep4 _ r h4, keep3 _ r h3, keep2 _ r h2, keep1 _ r h1, keep0 _ r h0]

/-- The run: every weakly fair execution of @main terminates with the result array at the reference's stages composed
    and every argument array unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v168) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v168).trans (result_after (launchContents m c)),
      (h c main_arg0).trans (arg_after (launchContents m c) main_arg0 (by decide) (by decide) (by decide) (by decide) (by decide)),
      (h c main_arg1).trans (arg_after (launchContents m c) main_arg1 (by decide) (by decide) (by decide) (by decide) (by decide)),
      (h c main_arg2).trans (arg_after (launchContents m c) main_arg2 (by decide) (by decide) (by decide) (by decide) (by decide)),
      (h c main_arg3).trans (arg_after (launchContents m c) main_arg3 (by decide) (by decide) (by decide) (by decide) (by decide)),
      (h c main_arg4).trans (arg_after (launchContents m c) main_arg4 (by decide) (by decide) (by decide) (by decide) (by decide)),
      (h c main_arg5).trans (arg_after (launchContents m c) main_arg5 (by decide) (by decide) (by decide) (by decide) (by decide)),
      (h c main_arg6).trans (arg_after (launchContents m c) main_arg6 (by decide) (by decide) (by decide) (by decide) (by decide)),
      (h c main_arg7).trans (arg_after (launchContents m c) main_arg7 (by decide) (by decide) (by decide) (by decide) (by decide)),
      (h c main_arg8).trans (arg_after (launchContents m c) main_arg8 (by decide) (by decide) (by decide) (by decide) (by decide)),
      (h c main_arg9).trans (arg_after (launchContents m c) main_arg9 (by decide) (by decide) (by decide) (by decide) (by decide)),
      (h c main_arg10).trans (arg_after (launchContents m c) main_arg10 (by decide) (by decide) (by decide) (by decide) (by decide)),
      (h c main_arg11).trans (arg_after (launchContents m c) main_arg11 (by decide) (by decide) (by decide) (by decide) (by decide)),
      (h c main_arg12).trans (arg_after (launchContents m c) main_arg12 (by decide) (by decide) (by decide) (by decide) (by decide)),
      (h c main_arg13).trans (arg_after (launchContents m c) main_arg13 (by decide) (by decide) (by decide) (by decide) (by decide)),
      (h c main_arg14).trans (arg_after (launchContents m c) main_arg14 (by decide) (by decide) (by decide) (by decide) (by decide)),
      (h c main_arg15).trans (arg_after (launchContents m c) main_arg15 (by decide) (by decide) (by decide) (by decide) (by decide)),
      (h c main_arg16).trans (arg_after (launchContents m c) main_arg16 (by decide) (by decide) (by decide) (by decide) (by decide))⟩)
    (run_seq scopedRefs_eq scopedSems_eq defs main (fun _ => ops (F := Ideal)) main_eq (fun _ => ops_sub) m ρ (fun _ => ops_fresh))

end Cert.ReferenceIdeal.HandRun

end
-- ==== Proof.KernelRegion.lean ====
/-
  The frame of `Kernel`: every weakly fair execution of @main terminates without a fault, and afterwards every
  array of the one pallas_call holds what the pipeline's bookkeeping computes for it while every other unscoped
  buffer holds what it held when the region was entered.

  @main is eight host operations (three concatenations that pack the gate weights side by side along the last
  axis, five changes of float format) followed by one region over a grid of 64 points.  At every point the body
  loads its ten input staging buffers (whole, or one layer's slab of a stacked one), computes, and stores ONE
  1024 x 1 column into the output's staging buffer through the whole-buffer rectangle; it also loads the output
  buffer once and drops what it read.  So the region keeps the class invariant (the scoped rest and the generator
  register untouched), each input buffer holds its window's block at every point, and the output buffer after the
  body holds `stored` of the ten input blocks: the skeleton's payloads composed in the body's order.

  Nothing here depends on the float instance: the module is stated at any `F`.
-/
import proofs.«137595_j76484777607677_2_alg».proof.Proof.Gen.Kernel.Launch
import proofs.«137595_j76484777607677_2_alg».proof.Proof.Gen.Kernel.Skeleton
import proofs.«137595_j76484777607677_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the eight host operations. -/
abbrev V (c : Dev nD) (b : Ref sig .tc) : Buf (Elt F) ((c : Thread nD τ).loc b) :=
  StableHlo.after hostOps0 (fun b => m (c, b)) b

/-- None of the eight host operations allocates: each writes its result from its operands. -/
theorem hostOps0_fresh : (hostOps0 : List (HloOp τ sig (Elt F))).Forall fun op => op.fresh = ∅ := by
  simp only [List.Forall]; repeat' constructor

/-- @main is the host operations, then the region: holding the unscoped buffers at the launch contents it reaches
    the region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument array is written by none of the host operations (their results are `main_v0` … `main_v7`): the
    region finds it as launched. -/
theorem V_arg (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    obtain ⟨h0, h1, h2, h3, h4, h5, h6, h7⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index
    has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (unfetched, the block index
    has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (unfetched, the block index
    has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (unfetched, the block index
    has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (unfetched, the block index
    has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (unfetched, the block index
    has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not (unfetched, the block index
    has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not (unfetched, the block index
    has not moved), for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not (unfetched, the block index
    has not moved), for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, fetched there or not (unfetched, the block index
    has not moved), for any proof data over `V` whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body loads and stores through -/

abbrev rX : Rect S1024x101 := Rect.unit (s := S1024x101) ![0, 0] S1024x101.size inb_S1024x101_S1024x101_0_0
abbrev rW0 : Rect S101x512 := Rect.unit (s := S101x512) ![0, 0] S101x512.size inb_S101x512_S101x512_0_0
abbrev rB0 : Rect S1x512 := Rect.unit (s := S1x512) ![0, 0] S1x512.size inb_S1x512_S1x512_0_0
abbrev rU0 : Rect S3x101x2048 := Rect.unit (s := S3x101x2048) ![0, 0, 0] S1x101x2048.size inb_S3x101x2048_S1x101x2048_0_0_0
abbrev rW1 : Rect S3x512x1536 := Rect.unit (s := S3x512x1536) ![0, 0, 0] S1x512x1536.size inb_S3x512x1536_S1x512x1536_0_0_0
abbrev rH0 : Rect S3x512x512 := Rect.unit (s := S3x512x512) ![0, 0, 0] S1x512x512.size inb_S3x512x512_S1x512x512_0_0_0
abbrev rZ0 : Rect S3x1x1536 := Rect.unit (s := S3x1x1536) ![0, 0, 0] S1x1x1536.size inb_S3x1x1536_S1x1x1536_0_0_0
abbrev rC0 : Rect S3x1x512 := Rect.unit (s := S3x1x512) ![0, 0, 0] S1x1x512.size inb_S3x1x512_S1x1x512_0_0_0
abbrev rU1 : Rect S3x101x2048 := Rect.unit (s := S3x101x2048) ![1, 0, 0] S1x101x2048.size inb_S3x101x2048_S1x101x2048_1_0_0
abbrev rW2 : Rect S3x512x1536 := Rect.unit (s := S3x512x1536) ![1, 0, 0] S1x512x1536.size inb_S3x512x1536_S1x512x1536_1_0_0
abbrev rH1 : Rect S3x512x512 := Rect.unit (s := S3x512x512) ![1, 0, 0] S1x512x512.size inb_S3x512x512_S1x512x512_1_0_0
abbrev rZ1 : Rect S3x1x1536 := Rect.unit (s := S3x1x1536) ![1, 0, 0] S1x1x1536.size inb_S3x1x1536_S1x1x1536_1_0_0
abbrev rC1 : Rect S3x1x512 := Rect.unit (s := S3x1x512) ![1, 0, 0] S1x1x512.size inb_S3x1x512_S1x1x512_1_0_0
abbrev rU2 : Rect S3x101x2048 := Rect.unit (s := S3x101x2048) ![2, 0, 0] S1x101x2048.size inb_S3x101x2048_S1x101x2048_2_0_0
abbrev rW3 : Rect S3x512x1536 := Rect.unit (s := S3x512x1536) ![2, 0, 0] S1x512x1536.size inb_S3x512x1536_S1x512x1536_2_0_0
abbrev rH2 : Rect S3x512x512 := Rect.unit (s := S3x512x512) ![2, 0, 0] S1x512x512.size inb_S3x512x512_S1x512x512_2_0_0
abbrev rZ2 : Rect S3x1x1536 := Rect.unit (s := S3x1x1536) ![2, 0, 0] S1x1x1536.size inb_S3x1x1536_S1x1x1536_2_0_0
abbrev rC2 : Rect S3x1x512 := Rect.unit (s := S3x1x512) ![2, 0, 0] S1x1x512.size inb_S3x1x512_S1x1x512_2_0_0
abbrev rWf : Rect S512x1 := Rect.unit (s := S512x1) ![0, 0] S512x1.size inb_S512x1_S512x1_0_0
abbrev rBf : Rect S1x1 := Rect.unit (s := S1x1) ![0, 0] S1x1.size inb_S1x1_S1x1_0_0
abbrev rO : Rect S1024x1 := Rect.unit (s := S1024x1) ![0, 0] S1024x1.size inb_S1024x1_S1024x1_0_0

/-! ## What the body stores -/

/-- The column the body stores, as a function of the ten input staging buffers' contents: the skeleton's payloads
    composed in the body's order (the first dense layer, three gated layers, the final projection). -/
def stored (x0 : Vec F S1024x101 .f32) (x1 : Vec F S101x512 .bf16) (x2 : Vec F S1x512 .f32) (x3 : Vec F S3x101x2048 .bf16)
    (x4 : Vec F S3x512x1536 .bf16) (x5 : Vec F S3x512x512 .bf16) (x6 : Vec F S3x1x1536 .f32) (x7 : Vec F S3x1x512 .f32)
    (x8 : Vec F S512x1 .bf16) (x9 : Vec F S1x1 .f32) : FVec F S1024x1 .f32 :=
  let v0 := View.ld x0 rX
  let v2 := View.ld x1 rW0
  let v4 := View.ld x2 rB0
  let v9 := View.ld x3 rU0
  let v11 := View.ld x4 rW1
  let v13 := View.ld x5 rH0
  let v15 := View.ld x6 rZ0
  let v17 := View.ld x7 rC0
  let v1 := k0_pay2 v0
  let v8 := k0_pay3 v0 v2 v4
  let v14 := k0_pay4 v13
  let v18 := k0_pay6 v17
  let v21 := k0_pay8 v0 v9
  let v22 := k0_pay9 v0 v9
  let v23 := k0_pay10 v0 v9
  let v27 := k0_pay12 v0 v2 v4 v11
  let v28 := k0_pay13 v0 v2 v4 v11
  let v30 := k0_pay14 v15
  let v31 := k0_pay15 v15
  let v34 := k0_pay16 v0 v2 v4 v9 v11 v15
  let v56 := View.ld x3 rU1
  let v58 := View.ld x4 rW2
  let v60 := View.ld x5 rH1
  let v62 := View.ld x6 rZ1
  let v64 := View.ld x7 rC1
  let v55 := k0_pay17 v8 v14 v18 v21 v22 v23 v27 v28 v30 v31 v34
  let v61 := k0_pay18 v60
  let v63 := k0_pay19 v62
  let v65 := k0_pay20 v64
  let v67 := k0_pay22 v1 v56
  let v68 := k0_pay23 v1 v56
  let v69 := k0_pay24 v1 v56
  let v70 := k0_pay25 v1 v56
  let v73 := k0_pay27 v8 v14 v18 v21 v22 v23 v27 v28 v30 v31 v34 v58
  let v74 := k0_pay28 v8 v14 v18 v21 v22 v23 v27 v28 v30 v31 v34 v58
  let v75 := k0_pay29 v8 v14 v18 v21 v22 v23 v27 v28 v30 v31 v34 v58
  let v103 := View.ld x3 rU2
  let v105 := View.ld x4 rW3
  let v107 := View.ld x5 rH2
  let v109 := View.ld x6 rZ2
  let v111 := View.ld x7 rC2
  let v102 := k0_pay30 v55 v61 v63 v65 v67 v68 v69 v70 v73 v74 v75
  let v106 := k0_pay31 v105
  let v108 := k0_pay32 v107
  let v110 := k0_pay33 v109
  let v112 := k0_pay34 v111
  let v114 := k0_pay36 v1 v103
  let v115 := k0_pay37 v1 v103
  let v116 := k0_pay38 v1 v103
  let v117 := k0_pay39 v1 v103
  k0_pay1 v102 v106 v108 v110 v112 v114 v115 v116 v117 (View.ld x8 rWf) (View.ld x9 rBf)

/-- The output's staging buffer after the body: its one store, through the whole-buffer rectangle. -/
def out (x0 : Vec F S1024x101 .f32) (x1 : Vec F S101x512 .bf16) (x2 : Vec F S1x512 .f32) (x3 : Vec F S3x101x2048 .bf16)
    (x4 : Vec F S3x512x1536 .bf16) (x5 : Vec F S3x512x512 .bf16) (x6 : Vec F S3x1x1536 .f32) (x7 : Vec F S3x1x512 .f32)
    (x8 : Vec F S512x1 .bf16) (x9 : Vec F S1x1 .f32) : Vec F S1024x1 .f32 :=
  View.canon [⟨rO, stored x0 x1 x2 x3 x4 x5 x6 x7 x8 x9⟩]

/-- The one store covers the buffer. -/
theorem covered (p0 : Vec F S1024x1 .f32) (y : S1024x1.Idx) :
    ∃ pc ∈ ([⟨rO, p0⟩] : List (View.Piece (Elt F) S1024x1 .f32)), y ∈ pc.1.set :=
  ⟨_, List.mem_singleton_self _, View.mem_set_unit_zero (by funext a; fin_cases a <;> rfl) inb_S1024x1_S1024x1_0_0 y⟩

/-! ## The body's triple -/

set_option maxHeartbeats 4000000 in
/-- The body on whole staging memrefs, the inputs' at contents `x0 … x9` and the output's at anything, runs to the
    continuation holding the inputs' as they were and the output's at `out` of them. -/
theorem body_triple (c : Dev nD) (E : Set ℕ) (i : grid0.Coords) (a0 : Memref sig .tc .vmem S1024x101 .f32) (h0 : a0.IsWhole) (a1 : Memref sig .tc .vmem S101x512 .bf16) (h1 : a1.IsWhole) (a2 : Memref sig .tc .vmem S1x512 .f32) (h2 : a2.IsWhole) (a3 : Memref sig .tc .vmem S3x101x2048 .bf16) (h3 : a3.IsWhole) (a4 : Memref sig .tc .vmem S3x512x1536 .bf16) (h4 : a4.IsWhole) (a5 : Memref sig .tc .vmem S3x512x512 .bf16) (h5 : a5.IsWhole) (a6 : Memref sig .tc .vmem S3x1x1536 .f32) (h6 : a6.IsWhole) (a7 : Memref sig .tc .vmem S3x1x512 .f32) (h7 : a7.IsWhole) (a8 : Memref sig .tc .vmem S512x1 .bf16) (h8 : a8.IsWhole) (a9 : Memref sig .tc .vmem S1x1 .f32) (h9 : a9.IsWhole) (a10 : Memref sig .tc .vmem S1024x1 .f32) (h10 : a10.IsWhole)
    (x0 : Vec F S1024x101 .f32) (x1 : Vec F S101x512 .bf16) (x2 : Vec F S1x512 .f32) (x3 : Vec F S3x101x2048 .bf16) (x4 : Vec F S3x512x1536 .bf16) (x5 : Vec F S3x512x512 .bf16) (x6 : Vec F S3x1x1536 .f32) (x7 : Vec F S3x1x512 .f32) (x8 : Vec F S512x1 .bf16) (x9 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out x0 x1 x2 x3 x4 x5 x6 x7 x8 x9)) -∗ K ⟨⟩))
      ⊢ wp frame (wpE (defs₀ (F := F)) Variants.none c none) E (cc0__dgm_kernel i a0 h0 a1 h1 a2 h2 a3 h3 a4 h4 a5 h5 a6 h6 a7 h7 a8 h8 a9 h9 a10 h10) K := by
  simp only [cc0__dgm_kernel_eq_skeleton]; unfold cc0__dgm_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (covered _)

/-! ## The pipeline's proof data -/

/-- The proof data of the pipeline on core `c`: the arrays as the region finds them; after the body at point `t` each
    input's buffer at its block and the output's at `out` of the input blocks; the class invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument array that the region stages through an input window ends as launched. -/
theorem kept_staged (r : PUnit × MemSt nD τ sig (Elt F)) (h : Pipeline.FramePost cfgs (dats m) 0 (V m) r) (c : Dev nD)
    (w : Fin cfg0.W) (hw : (cfg0.win w).isOut = false) (b : Ref sig .tc) (hb : Pipeline.arrRef spec0 w = b)
    (hv : V m c b = m ((c : Thread nD τ).loc b)) :
    r.2.mem ((c.tc : Thread nD τ).loc b) = m ((c.tc : Thread nD τ).loc b) := by
  subst hb
  exact (((h c).1 w).trans ((dats m 0 c).arrAt_in w hw _)).trans ((A_eq m c w).trans hv)

/-- An argument array no window stages ends as launched. -/
theorem kept_rest (r : PUnit × MemSt nD τ sig (Elt F)) (h : Pipeline.FramePost cfgs (dats m) 0 (V m) r) (c : Dev nD)
    (b : Ref sig .tc) (hs : b.isScoped = false) (ha : ∀ w, (spec0 w).arr.view.ref ≠ b)
    (hv : V m c b = m ((c : Thread nD τ).loc b)) :
    r.2.mem ((c.tc : Thread nD τ).loc b) = m ((c.tc : Thread nD τ).loc b) :=
  ((h c).2 b (Pipeline.mem_restRefs_of b hs ha)).trans hv

/-- The frame: every weakly fair execution of @main terminates without a fault and leaves every argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨kept_staged m r h c 0 rfl main_arg0 rfl (V_arg m c main_arg0 (by decide)),
      kept_rest m r h c main_arg1 (by decide) (by decide) (V_arg m c main_arg1 (by decide)),
      kept_staged m r h c 2 rfl main_arg2 rfl (V_arg m c main_arg2 (by decide)),
      kept_rest m r h c main_arg3 (by decide) (by decide) (V_arg m c main_arg3 (by decide)),
      kept_rest m r h c main_arg4 (by decide) (by decide) (V_arg m c main_arg4 (by decide)),
      kept_rest m r h c main_arg5 (by decide) (by decide) (V_arg m c main_arg5 (by decide)),
      kept_rest m r h c main_arg6 (by decide) (by decide) (V_arg m c main_arg6 (by decide)),
      kept_rest m r h c main_arg7 (by decide) (by decide) (V_arg m c main_arg7 (by decide)),
      kept_rest m r h c main_arg8 (by decide) (by decide) (V_arg m c main_arg8 (by decide)),
      kept_rest m r h c main_arg9 (by decide) (by decide) (V_arg m c main_arg9 (by decide)),
      kept_rest m r h c main_arg10 (by decide) (by decide) (V_arg m c main_arg10 (by decide)),
      kept_rest m r h c main_arg11 (by decide) (by decide) (V_arg m c main_arg11 (by decide)),
      kept_rest m r h c main_arg12 (by decide) (by decide) (V_arg m c main_arg12 (by decide)),
      kept_rest m r h c main_arg13 (by decide) (by decide) (V_arg m c main_arg13 (by decide)),
      kept_staged m r h c 7 rfl main_arg14 rfl (V_arg m c main_arg14 (by decide)),
      kept_rest m r h c main_arg15 (by decide) (by decide) (V_arg m c main_arg15 (by decide)),
      kept_staged m r h c 9 rfl main_arg16 rfl (V_arg m c main_arg16 (by decide))⟩) (run_main m ρ)

end Cert.Kernel.Region

end
-- ==== Proof.KernelIdealRegion.lean ====
/-
  The frame of `KernelIdeal`: every weakly fair execution of @main terminates without a fault, and afterwards every
  array of the one pallas_call holds what the pipeline's bookkeeping computes for it while every other unscoped
  buffer holds what it held when the region was entered.

  @main is eight host operations (three concatenations that pack the gate weights side by side along the last
  axis, five changes of float format) followed by one region over a grid of 64 points.  At every point the body
  loads its ten input staging buffers (whole, or one layer's slab of a stacked one), computes, and stores ONE
  1024 x 1 column into the output's staging buffer through the whole-buffer rectangle; it also loads the output
  buffer once and drops what it read.  So the region keeps the class invariant (the scoped rest and the generator
  register untouched), each input buffer holds its window's block at every point, and the output buffer after the
  body holds `stored` of the ten input blocks: the skeleton's payloads composed in the body's order.

  Nothing here depends on the float instance: the module is stated at any `F`.
-/
import proofs.«137595_j76484777607677_2_alg».proof.Proof.Gen.KernelIdeal.Launch
import proofs.«137595_j76484777607677_2_alg».proof.Proof.Gen.KernelIdeal.Skeleton
import proofs.«137595_j76484777607677_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the eight host operations. -/
abbrev V (c : Dev nD) (b : Ref sig .tc) : Buf (Elt F) ((c : Thread nD τ).loc b) :=
  StableHlo.after hostOps0 (fun b => m (c, b)) b

/-- None of the eight host operations allocates: each writes its result from its operands. -/
theorem hostOps0_fresh : (hostOps0 : List (HloOp τ sig (Elt F))).Forall fun op => op.fresh = ∅ := by
  simp only [List.Forall]; repeat' constructor

/-- @main is the host operations, then the region: holding the unscoped buffers at the launch contents it reaches
    the region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument array is written by none of the host operations (their results are `main_v0` … `main_v7`): the
    region finds it as launched. -/
theorem V_arg (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    obtain ⟨h0, h1, h2, h3, h4, h5, h6, h7⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index
    has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (unfetched, the block index
    has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (unfetched, the block index
    has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (unfetched, the block index
    has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (unfetched, the block index
    has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (unfetched, the block index
    has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not (unfetched, the block index
    has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not (unfetched, the block index
    has not moved), for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not (unfetched, the block index
    has not moved), for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, fetched there or not (unfetched, the block index
    has not moved), for any proof data over `V` whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body loads and stores through -/

abbrev rX : Rect S1024x101 := Rect.unit (s := S1024x101) ![0, 0] S1024x101.size inb_S1024x101_S1024x101_0_0
abbrev rW0 : Rect S101x512 := Rect.unit (s := S101x512) ![0, 0] S101x512.size inb_S101x512_S101x512_0_0
abbrev rB0 : Rect S1x512 := Rect.unit (s := S1x512) ![0, 0] S1x512.size inb_S1x512_S1x512_0_0
abbrev rU0 : Rect S3x101x2048 := Rect.unit (s := S3x101x2048) ![0, 0, 0] S1x101x2048.size inb_S3x101x2048_S1x101x2048_0_0_0
abbrev rW1 : Rect S3x512x1536 := Rect.unit (s := S3x512x1536) ![0, 0, 0] S1x512x1536.size inb_S3x512x1536_S1x512x1536_0_0_0
abbrev rH0 : Rect S3x512x512 := Rect.unit (s := S3x512x512) ![0, 0, 0] S1x512x512.size inb_S3x512x512_S1x512x512_0_0_0
abbrev rZ0 : Rect S3x1x1536 := Rect.unit (s := S3x1x1536) ![0, 0, 0] S1x1x1536.size inb_S3x1x1536_S1x1x1536_0_0_0
abbrev rC0 : Rect S3x1x512 := Rect.unit (s := S3x1x512) ![0, 0, 0] S1x1x512.size inb_S3x1x512_S1x1x512_0_0_0
abbrev rU1 : Rect S3x101x2048 := Rect.unit (s := S3x101x2048) ![1, 0, 0] S1x101x2048.size inb_S3x101x2048_S1x101x2048_1_0_0
abbrev rW2 : Rect S3x512x1536 := Rect.unit (s := S3x512x1536) ![1, 0, 0] S1x512x1536.size inb_S3x512x1536_S1x512x1536_1_0_0
abbrev rH1 : Rect S3x512x512 := Rect.unit (s := S3x512x512) ![1, 0, 0] S1x512x512.size inb_S3x512x512_S1x512x512_1_0_0
abbrev rZ1 : Rect S3x1x1536 := Rect.unit (s := S3x1x1536) ![1, 0, 0] S1x1x1536.size inb_S3x1x1536_S1x1x1536_1_0_0
abbrev rC1 : Rect S3x1x512 := Rect.unit (s := S3x1x512) ![1, 0, 0] S1x1x512.size inb_S3x1x512_S1x1x512_1_0_0
abbrev rU2 : Rect S3x101x2048 := Rect.unit (s := S3x101x2048) ![2, 0, 0] S1x101x2048.size inb_S3x101x2048_S1x101x2048_2_0_0
abbrev rW3 : Rect S3x512x1536 := Rect.unit (s := S3x512x1536) ![2, 0, 0] S1x512x1536.size inb_S3x512x1536_S1x512x1536_2_0_0
abbrev rH2 : Rect S3x512x512 := Rect.unit (s := S3x512x512) ![2, 0, 0] S1x512x512.size inb_S3x512x512_S1x512x512_2_0_0
abbrev rZ2 : Rect S3x1x1536 := Rect.unit (s := S3x1x1536) ![2, 0, 0] S1x1x1536.size inb_S3x1x1536_S1x1x1536_2_0_0
abbrev rC2 : Rect S3x1x512 := Rect.unit (s := S3x1x512) ![2, 0, 0] S1x1x512.size inb_S3x1x512_S1x1x512_2_0_0
abbrev rWf : Rect S512x1 := Rect.unit (s := S512x1) ![0, 0] S512x1.size inb_S512x1_S512x1_0_0
abbrev rBf : Rect S1x1 := Rect.unit (s := S1x1) ![0, 0] S1x1.size inb_S1x1_S1x1_0_0
abbrev rO : Rect S1024x1 := Rect.unit (s := S1024x1) ![0, 0] S1024x1.size inb_S1024x1_S1024x1_0_0

/-! ## What the body stores -/

/-- The column the body stores, as a function of the ten input staging buffers' contents: the skeleton's payloads
    composed in the body's order (the first dense layer, three gated layers, the final projection). -/
def stored (x0 : Vec F S1024x101 .f32) (x1 : Vec F S101x512 .bf16) (x2 : Vec F S1x512 .f32) (x3 : Vec F S3x101x2048 .bf16)
    (x4 : Vec F S3x512x1536 .bf16) (x5 : Vec F S3x512x512 .bf16) (x6 : Vec F S3x1x1536 .f32) (x7 : Vec F S3x1x512 .f32)
    (x8 : Vec F S512x1 .bf16) (x9 : Vec F S1x1 .f32) : FVec F S1024x1 .f32 :=
  let v0 := View.ld x0 rX
  let v2 := View.ld x1 rW0
  let v4 := View.ld x2 rB0
  let v9 := View.ld x3 rU0
  let v11 := View.ld x4 rW1
  let v13 := View.ld x5 rH0
  let v15 := View.ld x6 rZ0
  let v17 := View.ld x7 rC0
  let v1 := k0_pay2 v0
  let v8 := k0_pay3 v0 v2 v4
  let v14 := k0_pay4 v13
  let v18 := k0_pay6 v17
  let v21 := k0_pay8 v0 v9
  let v22 := k0_pay9 v0 v9
  let v23 := k0_pay10 v0 v9
  let v27 := k0_pay12 v0 v2 v4 v11
  let v28 := k0_pay13 v0 v2 v4 v11
  let v30 := k0_pay14 v15
  let v31 := k0_pay15 v15
  let v34 := k0_pay16 v0 v2 v4 v9 v11 v15
  let v56 := View.ld x3 rU1
  let v58 := View.ld x4 rW2
  let v60 := View.ld x5 rH1
  let v62 := View.ld x6 rZ1
  let v64 := View.ld x7 rC1
  let v55 := k0_pay17 v8 v14 v18 v21 v22 v23 v27 v28 v30 v31 v34
  let v61 := k0_pay18 v60
  let v63 := k0_pay19 v62
  let v65 := k0_pay20 v64
  let v67 := k0_pay22 v1 v56
  let v68 := k0_pay23 v1 v56
  let v69 := k0_pay24 v1 v56
  let v70 := k0_pay25 v1 v56
  let v73 := k0_pay27 v8 v14 v18 v21 v22 v23 v27 v28 v30 v31 v34 v58
  let v74 := k0_pay28 v8 v14 v18 v21 v22 v23 v27 v28 v30 v31 v34 v58
  let v75 := k0_pay29 v8 v14 v18 v21 v22 v23 v27 v28 v30 v31 v34 v58
  let v103 := View.ld x3 rU2
  let v105 := View.ld x4 rW3
  let v107 := View.ld x5 rH2
  let v109 := View.ld x6 rZ2
  let v111 := View.ld x7 rC2
  let v102 := k0_pay30 v55 v61 v63 v65 v67 v68 v69 v70 v73 v74 v75
  let v106 := k0_pay31 v105
  let v108 := k0_pay32 v107
  let v110 := k0_pay33 v109
  let v112 := k0_pay34 v111
  let v114 := k0_pay36 v1 v103
  let v115 := k0_pay37 v1 v103
  let v116 := k0_pay38 v1 v103
  let v117 := k0_pay39 v1 v103
  k0_pay1 v102 v106 v108 v110 v112 v114 v115 v116 v117 (View.ld x8 rWf) (View.ld x9 rBf)

/-- The output's staging buffer after the body: its one store, through the whole-buffer rectangle. -/
def out (x0 : Vec F S1024x101 .f32) (x1 : Vec F S101x512 .bf16) (x2 : Vec F S1x512 .f32) (x3 : Vec F S3x101x2048 .bf16)
    (x4 : Vec F S3x512x1536 .bf16) (x5 : Vec F S3x512x512 .bf16) (x6 : Vec F S3x1x1536 .f32) (x7 : Vec F S3x1x512 .f32)
    (x8 : Vec F S512x1 .bf16) (x9 : Vec F S1x1 .f32) : Vec F S1024x1 .f32 :=
  View.canon [⟨rO, stored x0 x1 x2 x3 x4 x5 x6 x7 x8 x9⟩]

/-- The one store covers the buffer. -/
theorem covered (p0 : Vec F S1024x1 .f32) (y : S1024x1.Idx) :
    ∃ pc ∈ ([⟨rO, p0⟩] : List (View.Piece (Elt F) S1024x1 .f32)), y ∈ pc.1.set :=
  ⟨_, List.mem_singleton_self _, View.mem_set_unit_zero (by funext a; fin_cases a <;> rfl) inb_S1024x1_S1024x1_0_0 y⟩

/-! ## The body's triple -/

set_option maxHeartbeats 4000000 in
/-- The body on whole staging memrefs, the inputs' at contents `x0 … x9` and the output's at anything, runs to the
    continuation holding the inputs' as they were and the output's at `out` of them. -/
theorem body_triple (c : Dev nD) (E : Set ℕ) (i : grid0.Coords) (a0 : Memref sig .tc .vmem S1024x101 .f32) (h0 : a0.IsWhole) (a1 : Memref sig .tc .vmem S101x512 .bf16) (h1 : a1.IsWhole) (a2 : Memref sig .tc .vmem S1x512 .f32) (h2 : a2.IsWhole) (a3 : Memref sig .tc .vmem S3x101x2048 .bf16) (h3 : a3.IsWhole) (a4 : Memref sig .tc .vmem S3x512x1536 .bf16) (h4 : a4.IsWhole) (a5 : Memref sig .tc .vmem S3x512x512 .bf16) (h5 : a5.IsWhole) (a6 : Memref sig .tc .vmem S3x1x1536 .f32) (h6 : a6.IsWhole) (a7 : Memref sig .tc .vmem S3x1x512 .f32) (h7 : a7.IsWhole) (a8 : Memref sig .tc .vmem S512x1 .bf16) (h8 : a8.IsWhole) (a9 : Memref sig .tc .vmem S1x1 .f32) (h9 : a9.IsWhole) (a10 : Memref sig .tc .vmem S1024x1 .f32) (h10 : a10.IsWhole)
    (x0 : Vec F S1024x101 .f32) (x1 : Vec F S101x512 .bf16) (x2 : Vec F S1x512 .f32) (x3 : Vec F S3x101x2048 .bf16) (x4 : Vec F S3x512x1536 .bf16) (x5 : Vec F S3x512x512 .bf16) (x6 : Vec F S3x1x1536 .f32) (x7 : Vec F S3x1x512 .f32) (x8 : Vec F S512x1 .bf16) (x9 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out x0 x1 x2 x3 x4 x5 x6 x7 x8 x9)) -∗ K ⟨⟩))
      ⊢ wp frame (wpE (defs₀ (F := F)) Variants.none c none) E (cc0__dgm_kernel i a0 h0 a1 h1 a2 h2 a3 h3 a4 h4 a5 h5 a6 h6 a7 h7 a8 h8 a9 h9 a10 h10) K := by
  simp only [cc0__dgm_kernel_eq_skeleton]; unfold cc0__dgm_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (covered _)

/-! ## The pipeline's proof data -/

/-- The proof data of the pipeline on core `c`: the arrays as the region finds them; after the body at point `t` each
    input's buffer at its block and the output's at `out` of the input blocks; the class invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument array that the region stages through an input window ends as launched. -/
theorem kept_staged (r : PUnit × MemSt nD τ sig (Elt F)) (h : Pipeline.FramePost cfgs (dats m) 0 (V m) r) (c : Dev nD)
    (w : Fin cfg0.W) (hw : (cfg0.win w).isOut = false) (b : Ref sig .tc) (hb : Pipeline.arrRef spec0 w = b)
    (hv : V m c b = m ((c : Thread nD τ).loc b)) :
    r.2.mem ((c.tc : Thread nD τ).loc b) = m ((c.tc : Thread nD τ).loc b) := by
  subst hb
  exact (((h c).1 w).trans ((dats m 0 c).arrAt_in w hw _)).trans ((A_eq m c w).trans hv)

/-- An argument array no window stages ends as launched. -/
theorem kept_rest (r : PUnit × MemSt nD τ sig (Elt F)) (h : Pipeline.FramePost cfgs (dats m) 0 (V m) r) (c : Dev nD)
    (b : Ref sig .tc) (hs : b.isScoped = false) (ha : ∀ w, (spec0 w).arr.view.ref ≠ b)
    (hv : V m c b = m ((c : Thread nD τ).loc b)) :
    r.2.mem ((c.tc : Thread nD τ).loc b) = m ((c.tc : Thread nD τ).loc b) :=
  ((h c).2 b (Pipeline.mem_restRefs_of b hs ha)).trans hv

/-- The frame: every weakly fair execution of @main terminates without a fault and leaves every argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨kept_staged m r h c 0 rfl main_arg0 rfl (V_arg m c main_arg0 (by decide)),
      kept_rest m r h c main_arg1 (by decide) (by decide) (V_arg m c main_arg1 (by decide)),
      kept_staged m r h c 2 rfl main_arg2 rfl (V_arg m c main_arg2 (by decide)),
      kept_rest m r h c main_arg3 (by decide) (by decide) (V_arg m c main_arg3 (by decide)),
      kept_rest m r h c main_arg4 (by decide) (by decide) (V_arg m c main_arg4 (by decide)),
      kept_rest m r h c main_arg5 (by decide) (by decide) (V_arg m c main_arg5 (by decide)),
      kept_rest m r h c main_arg6 (by decide) (by decide) (V_arg m c main_arg6 (by decide)),
      kept_rest m r h c main_arg7 (by decide) (by decide) (V_arg m c main_arg7 (by decide)),
      kept_rest m r h c main_arg8 (by decide) (by decide) (V_arg m c main_arg8 (by decide)),
      kept_rest m r h c main_arg9 (by decide) (by decide) (V_arg m c main_arg9 (by decide)),
      kept_rest m r h c main_arg10 (by decide) (by decide) (V_arg m c main_arg10 (by decide)),
      kept_rest m r h c main_arg11 (by decide) (by decide) (V_arg m c main_arg11 (by decide)),
      kept_rest m r h c main_arg12 (by decide) (by decide) (V_arg m c main_arg12 (by decide)),
      kept_rest m r h c main_arg13 (by decide) (by decide) (V_arg m c main_arg13 (by decide)),
      kept_staged m r h c 7 rfl main_arg14 rfl (V_arg m c main_arg14 (by decide)),
      kept_rest m r h c main_arg15 (by decide) (by decide) (V_arg m c main_arg15 (by decide)),
      kept_staged m r h c 9 rfl main_arg16 rfl (V_arg m c main_arg16 (by decide))⟩) (run_main m ρ)

end Cert.KernelIdeal.Region

end
-- ==== Proof.LibPackedPieces.lean ====
/-
  Products with matrices packed side by side, cut into pieces, read at an entry (over the extended reals).

  A kernel may multiply a tile's rows by several `[K, N]` matrices at once by packing them along the columns into one
  `[K, M]` matrix, and then cut the wide product into `N`-column pieces.  The piece from column `o`, read at `(p, q)`,
  is row `p` of the left operand times column `o + q` of the packed matrix: packing changes no entry.  Here the packed
  matrix is one layer's slab of a staged `[3, K, M]` stack, loaded as `[1, K, M]` and cast to `[K, M]`; the left operand
  is narrowed to a shorter float format first (the identity on extended reals) and the product goes into the zero
  accumulator (the plain sum).  The same for a packed bias row `[1, 1, M]` cut into `N`-entry pieces and spread over the
  tile's rows.  Stated for any sizes.
-/
import proofs.«137595_j76484777607677_2_alg».proof.Proof.LibPlainDot
import Idealize.ShloMosaic.Lib.ValueLayout
import Idealize.ShloMosaic.Lib.Pipeline.FrameBody

noncomputable section

namespace Idealize.ShloMosaic.Packed

open Idealize.ShloMosaic Idealize.ShloMosaic.ValueIdx

variable {R D N : ℕ}

/-! ## One layer's slab of a staged stack -/

/-- A load of layer `l`'s `[1, a, b]` slab out of a staged `[3, a, b]` stack reads, at `(0, k, c)`, the stack at `(l, k, c)`. -/
theorem ld_slab {a b : ℕ} {Val : EltTy → Type} {e' : EltTy} (x : (⟨3, ![3, a, b]⟩ : Shape).Idx → Val e') (l : ℕ)
    (inb : ∀ ax, (![l, 0, 0] : Fin 3 → ℕ) ax + (⟨3, ![1, a, b]⟩ : Shape).size ax ≤ (⟨3, ![3, a, b]⟩ : Shape).size ax)
    (l' : Fin 3) (hl : l'.val = l) (k : Fin a) (c : Fin b) :
    View.ld x (Rect.unit (s := ⟨3, ![3, a, b]⟩) ![l, 0, 0] (⟨3, ![1, a, b]⟩ : Shape).size inb) (ix3 (0 : Fin 1) k c)
      = x (ix3 l' k c) := by
  show x _ = x _
  congr 1
  funext ax
  apply Fin.ext
  match ax with
  | ⟨0, _⟩ => show l + 1 * 0 = l'.val; omega
  | ⟨1, _⟩ => show 0 + 1 * k.val = k.val; omega
  | ⟨2, _⟩ => show 0 + 1 * c.val = c.val; omega

/-! ## Products with a packed matrix, cut into pieces -/

/-- A tile's rows (narrowed) times a packed `[K, M]` matrix given as a `[1, K, M]` slab, into the zero accumulator. -/
def wide {K M : ℕ} {φ : FTy} (d : DotDims ⟨2, ![R, K]⟩ ⟨2, ![K, M]⟩ ⟨2, ![R, M]⟩) (hlt : FTy.bits .bf16 < FTy.bits .f32)
    (hc : (⟨3, ![1, K, M]⟩ : Shape).ShapeCasts ⟨2, ![K, M]⟩)
    (a : FVec Ideal ⟨2, ![R, K]⟩ .f32) (w : FVec Ideal ⟨3, ![1, K, M]⟩ φ) : FVec Ideal ⟨2, ![R, M]⟩ .f32 :=
  matmul d none (truncf .bf16 a hlt) (shapeCast ⟨2, ![K, M]⟩ w hc) (constant ⟨2, ![R, M]⟩ .f32 0x00000000#32)

/-- The piece of `N` columns from column `o` of such a product, at `(p, q)`: row `p` times the packed column `o + q`. -/
theorem piece_wide_apply {K M : ℕ} {φ : FTy} (d : DotDims ⟨2, ![R, K]⟩ ⟨2, ![K, M]⟩ ⟨2, ![R, M]⟩) (hd : d = DotDims.plain R K M)
    (hlt : FTy.bits .bf16 < FTy.bits .f32) (hc : (⟨3, ![1, K, M]⟩ : Shape).ShapeCasts ⟨2, ![K, M]⟩) (o : ℕ)
    (hs : (⟨2, ![R, M]⟩ : Shape).Slices ![0, o] ⟨2, ![R, N]⟩)
    (a : FVec Ideal ⟨2, ![R, K]⟩ .f32) (w : FVec Ideal ⟨3, ![1, K, M]⟩ φ) (p : Fin R) (q : Fin N) (c : Fin M) (hcq : c.val = o + q.val) :
    extractStridedSlice ⟨2, ![R, N]⟩ ![0, o] (wide d hlt hc a w) hs (ix2 p q)
      = ∑ k : Fin K, a (ix2 p k) * w (ix3 (0 : Fin 1) k c) := by
  rw [slice2_axis1_apply o _ hs p q c hcq]
  unfold wide
  rw [show matmul d none (truncf .bf16 a hlt) (shapeCast ⟨2, ![K, M]⟩ w hc) (constant ⟨2, ![R, M]⟩ .f32 0x00000000#32) (ix2 p c)
      = FloatOps.matmul d none (truncf .bf16 a hlt) (shapeCast ⟨2, ![K, M]⟩ w hc) (constant ⟨2, ![R, M]⟩ .f32 0x00000000#32) (ix2 p c) from rfl,
    PlainDot.matmul_zero_apply d hd]
  exact Finset.sum_congr rfl fun k _ => by rw [shapeCast_1ab_ab_apply]; rfl

/-- A whole (uncut) product with an `[N, N']` matrix given as a `[1, N, N']` slab, at `(p, q)`. -/
theorem wide_apply {K M : ℕ} {φ : FTy} (d : DotDims ⟨2, ![R, K]⟩ ⟨2, ![K, M]⟩ ⟨2, ![R, M]⟩) (hd : d = DotDims.plain R K M)
    (hlt : FTy.bits .bf16 < FTy.bits .f32) (hc : (⟨3, ![1, K, M]⟩ : Shape).ShapeCasts ⟨2, ![K, M]⟩)
    (a : FVec Ideal ⟨2, ![R, K]⟩ .f32) (w : FVec Ideal ⟨3, ![1, K, M]⟩ φ) (p : Fin R) (c : Fin M) :
    wide d hlt hc a w (ix2 p c) = ∑ k : Fin K, a (ix2 p k) * w (ix3 (0 : Fin 1) k c) := by
  unfold wide
  rw [show matmul d none (truncf .bf16 a hlt) (shapeCast ⟨2, ![K, M]⟩ w hc) (constant ⟨2, ![R, M]⟩ .f32 0x00000000#32) (ix2 p c)
      = FloatOps.matmul d none (truncf .bf16 a hlt) (shapeCast ⟨2, ![K, M]⟩ w hc) (constant ⟨2, ![R, M]⟩ .f32 0x00000000#32) (ix2 p c) from rfl,
    PlainDot.matmul_zero_apply d hd]
  exact Finset.sum_congr rfl fun k _ => by rw [shapeCast_1ab_ab_apply]; rfl

/-- The piece of `N` entries from `o` of a packed bias row given as a `[1, 1, M]` slab, spread over the tile's rows. -/
theorem piece_bias_apply {M : ℕ} (hc : (⟨3, ![1, 1, M]⟩ : Shape).ShapeCasts ⟨2, ![1, M]⟩) (o : ℕ)
    (hs : (⟨2, ![1, M]⟩ : Shape).Slices ![0, o] ⟨2, ![1, N]⟩) (hb : (⟨2, ![1, N]⟩ : Shape).Broadcasts ⟨2, ![R, N]⟩)
    (b : FVec Ideal ⟨3, ![1, 1, M]⟩ .f32) (p : Fin R) (q : Fin N) (c : Fin M) (hcq : c.val = o + q.val) :
    broadcastTo ⟨2, ![R, N]⟩ (extractStridedSlice ⟨2, ![1, N]⟩ ![0, o] (shapeCast ⟨2, ![1, M]⟩ b hc) hs) hb (ix2 p q)
      = b (ix3 (0 : Fin 1) (0 : Fin 1) c) := by
  rw [broadcastTo_1b_ab_apply, slice2_axis1_apply o _ hs (0 : Fin 1) q c hcq, shapeCast_1ab_ab_apply]

/-- An uncut bias row given as a `[1, 1, N]` slab, spread over the tile's rows. -/
theorem bias_apply (hc : (⟨3, ![1, 1, N]⟩ : Shape).ShapeCasts ⟨2, ![1, N]⟩) (hb : (⟨2, ![1, N]⟩ : Shape).Broadcasts ⟨2, ![R, N]⟩)
    (b : FVec Ideal ⟨3, ![1, 1, N]⟩ .f32) (p : Fin R) (q : Fin N) :
    broadcastTo ⟨2, ![R, N]⟩ (shapeCast ⟨2, ![1, N]⟩ b hc) hb (ix2 p q) = b (ix3 (0 : Fin 1) (0 : Fin 1) q) := by
  rw [broadcastTo_1b_ab_apply, shapeCast_1ab_ab_apply]

end Idealize.ShloMosaic.Packed

end
-- ==== Proof.DgmTile.lean ====
/-
  The kernel's spelling of the network's stages on a tile of `R` rows, each read at an entry.

  On a tile the kernel multiplies the input rows by ALL FOUR gates' `[D, N]` matrices packed side by side as one
  `[D, 4N]` matrix, and the state rows by three gates' `[N, N]` matrices packed as `[N, 3N]`, then cuts the wide
  products into `N`-column pieces.  A piece of a product, read at `(p, q)`, is row `p` of the left operand times
  column `o + q` of the packed matrix: packing changes no entry.  The packed matrices are one layer's slab of a stack,
  loaded as `[1, K, M]` and cast to `[K, M]`.  Narrowing to a shorter float format is the identity on extended reals,
  and a matmul into the zero accumulator is the plain sum.
-/
import proofs.«137595_j76484777607677_2_alg».proof.Proof.DgmRow
import proofs.«137595_j76484777607677_2_alg».proof.Proof.LibPlainDot
import proofs.«137595_j76484777607677_2_alg».proof.Proof.LibPackedPieces
import Idealize.ShloMosaic.Lib.ValueLayout
import Idealize.ShloMosaic.Lib.Pipeline.FrameBody

noncomputable section

namespace Dgm.Tile

open Idealize.ShloMosaic Idealize.ShloMosaic.ValueIdx

variable {R D N : ℕ}

/-- Row `p` of a matrix. -/
abbrev row {a b : ℕ} (X : (⟨2, ![a, b]⟩ : Shape).Idx → EReal) (p : Fin a) : Fin b → EReal := fun k => X (ix2 p k)

export Idealize.ShloMosaic.Packed (ld_slab wide piece_wide_apply wide_apply piece_bias_apply bias_apply)

/-! ## The first dense layer on a tile -/

/-- `tanh (x·W₀ + b₀)` on a tile: the input narrowed, the product into the zero accumulator, the bias row spread. -/
def dense0 (d : DotDims ⟨2, ![R, D]⟩ ⟨2, ![D, N]⟩ ⟨2, ![R, N]⟩) (hlt : FTy.bits .bf16 < FTy.bits .f32)
    (hb : (⟨2, ![1, N]⟩ : Shape).Broadcasts ⟨2, ![R, N]⟩) {φ : FTy}
    (x : FVec Ideal ⟨2, ![R, D]⟩ .f32) (w : FVec Ideal ⟨2, ![D, N]⟩ φ) (b : FVec Ideal ⟨2, ![1, N]⟩ .f32) : FVec Ideal ⟨2, ![R, N]⟩ .f32 :=
  tanh (addf (matmul d none (truncf .bf16 x hlt) w (constant ⟨2, ![R, N]⟩ .f32 0x00000000#32)) (broadcastTo ⟨2, ![R, N]⟩ b hb))

theorem dense0_apply (d : DotDims ⟨2, ![R, D]⟩ ⟨2, ![D, N]⟩ ⟨2, ![R, N]⟩) (hd : d = DotDims.plain R D N)
    (hlt : FTy.bits .bf16 < FTy.bits .f32) (hb : (⟨2, ![1, N]⟩ : Shape).Broadcasts ⟨2, ![R, N]⟩) {φ : FTy}
    (x : FVec Ideal ⟨2, ![R, D]⟩ .f32) (w : FVec Ideal ⟨2, ![D, N]⟩ φ) (b : FVec Ideal ⟨2, ![1, N]⟩ .f32) (p : Fin R) (q : Fin N) :
    dense0 d hlt hb x w b (ix2 p q) = Dgm.dense0 (row x p) (fun k q => w (ix2 k q)) (fun q => b (ix2 (0 : Fin 1) q)) q := by
  show Ideal.tanh (FloatOps.matmul d none (truncf .bf16 x hlt) w (constant ⟨2, ![R, N]⟩ .f32 0x00000000#32) (ix2 p q)
    + broadcastTo ⟨2, ![R, N]⟩ b hb (ix2 p q)) = _
  rw [PlainDot.matmul_zero_apply d hd, broadcastTo_1b_ab_apply]
  rfl

/-! ## A gated layer on a tile -/

/-- A gate's argument on a tile: the input's piece plus the state's piece, plus the bias piece spread over the rows. -/
def pre (hb : (⟨2, ![1, N]⟩ : Shape).Broadcasts ⟨2, ![R, N]⟩) (xu sw : FVec Ideal ⟨2, ![R, N]⟩ .f32) (b : FVec Ideal ⟨2, ![1, N]⟩ .f32) :
    FVec Ideal ⟨2, ![R, N]⟩ .f32 :=
  addf (addf xu sw) (broadcastTo ⟨2, ![R, N]⟩ b hb)

theorem pre_apply (hb : (⟨2, ![1, N]⟩ : Shape).Broadcasts ⟨2, ![R, N]⟩) (xu sw : FVec Ideal ⟨2, ![R, N]⟩ .f32) (b : FVec Ideal ⟨2, ![1, N]⟩ .f32)
    (p : Fin R) (q : Fin N) : pre hb xu sw b (ix2 p q) = (xu (ix2 p q) + sw (ix2 p q)) + broadcastTo ⟨2, ![R, N]⟩ b hb (ix2 p q) := rfl

/-- The new state on a tile from the three gates' arguments, the candidate's input piece, its `[N, N]` matrix and its
    bias row: `(1 - tanh g) ⊙ tanh ((xh + (s ⊙ tanh r)·Wₕ) + bₕ) + tanh z ⊙ s`. -/
def core (dh : DotDims ⟨2, ![R, N]⟩ ⟨2, ![N, N]⟩ ⟨2, ![R, N]⟩) (hlt : FTy.bits .bf16 < FTy.bits .f32)
    (hb : (⟨2, ![1, N]⟩ : Shape).Broadcasts ⟨2, ![R, N]⟩)
    (s zpre gpre rpre xh : FVec Ideal ⟨2, ![R, N]⟩ .f32) (wh : FVec Ideal ⟨2, ![N, N]⟩ .bf16) (bh : FVec Ideal ⟨2, ![1, N]⟩ .f32) :
    FVec Ideal ⟨2, ![R, N]⟩ .f32 :=
  addf (mulf (subf (broadcast ⟨2, ![R, N]⟩ (Scalar.ofBits (F := Ideal) .f32 0x3F800000#32)) (tanh gpre))
      (tanh (addf (addf xh (matmul dh none (truncf .bf16 (mulf s (tanh rpre)) hlt) wh (constant ⟨2, ![R, N]⟩ .f32 0x00000000#32)))
        (broadcastTo ⟨2, ![R, N]⟩ bh hb))))
    (mulf (tanh zpre) s)

theorem core_apply (dh : DotDims ⟨2, ![R, N]⟩ ⟨2, ![N, N]⟩ ⟨2, ![R, N]⟩) (hdh : dh = DotDims.plain R N N)
    (hlt : FTy.bits .bf16 < FTy.bits .f32) (hb : (⟨2, ![1, N]⟩ : Shape).Broadcasts ⟨2, ![R, N]⟩)
    (s zpre gpre rpre xh : FVec Ideal ⟨2, ![R, N]⟩ .f32) (wh : FVec Ideal ⟨2, ![N, N]⟩ .bf16) (bh : FVec Ideal ⟨2, ![1, N]⟩ .f32)
    (x : Fin D → EReal) (L : Weights D N) (p : Fin R)
    (hz : ∀ q, zpre (ix2 p q) = (affine x L.uz q + affine (row s p) L.wz q) + L.bz q)
    (hg : ∀ q, gpre (ix2 p q) = (affine x L.ug q + affine (row s p) L.wg q) + L.bg q)
    (hr : ∀ q, rpre (ix2 p q) = (affine x L.ur q + affine (row s p) L.wr q) + L.br q)
    (hxh : ∀ q, xh (ix2 p q) = affine x L.uh q)
    (hwh : ∀ j q, wh (ix2 j q) = L.wh j q) (hbh : ∀ q, bh (ix2 (0 : Fin 1) q) = L.bh q) (q : Fin N) :
    core dh hlt hb s zpre gpre rpre xh wh bh (ix2 p q) = Dgm.layer x (row s p) L q := by
  show (Ideal.ofBits .f32 0x3F800000#32 - Ideal.tanh (gpre (ix2 p q)))
      * Ideal.tanh ((xh (ix2 p q) + FloatOps.matmul dh none (truncf .bf16 (mulf s (tanh rpre)) hlt) wh (constant ⟨2, ![R, N]⟩ .f32 0x00000000#32) (ix2 p q))
          + broadcastTo ⟨2, ![R, N]⟩ bh hb (ix2 p q))
      + Ideal.tanh (zpre (ix2 p q)) * s (ix2 p q) = _
  rw [PlainDot.matmul_zero_apply dh hdh, broadcastTo_1b_ab_apply, hz, hg, hxh, hbh]
  have hsr : (fun k : Fin N => (truncf .bf16 (mulf s (tanh rpre)) hlt : FVec Ideal ⟨2, ![R, N]⟩ .bf16) (ix2 p k) * wh (ix2 k q))
      = fun k => (row s p k * Dgm.gate x (row s p) L.ur L.wr L.br k) * L.wh k q := funext fun k => by
    show s (ix2 p k) * Ideal.tanh (rpre (ix2 p k)) * wh (ix2 k q) = _
    rw [hr, hwh]; rfl
  rw [show (∑ k : Fin N, (truncf .bf16 (mulf s (tanh rpre)) hlt : FVec Ideal ⟨2, ![R, N]⟩ .bf16) (ix2 p k) * wh (ix2 k q))
      = ∑ k : Fin N, (row s p k * Dgm.gate x (row s p) L.ur L.wr L.br k) * L.wh k q from congrArg (fun f => ∑ k : Fin N, f k) hsr]
  rfl

/-! ## The final projection on a tile -/

/-- `s·w_f + b_f` on a tile. -/
def readout (df : DotDims ⟨2, ![R, N]⟩ ⟨2, ![N, 1]⟩ ⟨2, ![R, 1]⟩) (hlt : FTy.bits .bf16 < FTy.bits .f32)
    (hb : (⟨2, ![1, 1]⟩ : Shape).Broadcasts ⟨2, ![R, 1]⟩)
    (s : FVec Ideal ⟨2, ![R, N]⟩ .f32) (wf : FVec Ideal ⟨2, ![N, 1]⟩ .bf16) (bf : FVec Ideal ⟨2, ![1, 1]⟩ .f32) : FVec Ideal ⟨2, ![R, 1]⟩ .f32 :=
  addf (matmul df none (truncf .bf16 s hlt) wf (constant ⟨2, ![R, 1]⟩ .f32 0x00000000#32)) (broadcastTo ⟨2, ![R, 1]⟩ bf hb)

theorem readout_apply (df : DotDims ⟨2, ![R, N]⟩ ⟨2, ![N, 1]⟩ ⟨2, ![R, 1]⟩) (hdf : df = DotDims.plain R N 1)
    (hlt : FTy.bits .bf16 < FTy.bits .f32) (hb : (⟨2, ![1, 1]⟩ : Shape).Broadcasts ⟨2, ![R, 1]⟩)
    (s : FVec Ideal ⟨2, ![R, N]⟩ .f32) (wf : FVec Ideal ⟨2, ![N, 1]⟩ .bf16) (bf : FVec Ideal ⟨2, ![1, 1]⟩ .f32) (p : Fin R) (z : Fin 1) :
    readout df hlt hb s wf bf (ix2 p z) = Dgm.readout (row s p) (fun j => wf (ix2 j (0 : Fin 1))) (bf (ix2 (0 : Fin 1) (0 : Fin 1))) := by
  obtain rfl : z = 0 := Subsingleton.elim _ _
  show FloatOps.matmul df none (truncf .bf16 s hlt) wf (constant ⟨2, ![R, 1]⟩ .f32 0x00000000#32) (ix2 p 0)
    + broadcastTo ⟨2, ![R, 1]⟩ bf hb (ix2 p 0) = _
  rw [PlainDot.matmul_zero_apply df hdf, broadcastTo_1b_ab_apply]
  rfl

end Dgm.Tile

end
-- ==== Proof.KernelTile.lean ====
/-
  What the kernel stores at one grid point, as the one-row network on each row of the tile.

  The column the body stores is, in the skeleton's payloads, the first dense layer, three gated layers and the final
  projection on the 1024 rows of the input block, every layer's matrices loaded as that layer's slab of a staged
  stack whose last axis packs the gates side by side.  Row by row it is the network of `DgmRow` with layer `l`'s
  weights read off the staged stacks: gate number `g` of a packed matrix sits at columns `512 g … 512 g + 511`.
-/
import proofs.«137595_j76484777607677_2_alg».proof.Proof.KernelIdealRegion
import proofs.«137595_j76484777607677_2_alg».proof.Proof.DgmTile

set_option maxRecDepth 16384

noncomputable section

namespace Cert.KernelIdeal.TileValue

open Cert.KernelIdeal Cert.KernelIdeal.Gen Cert.KernelIdeal.Region
open Idealize.ShloMosaic Idealize.ShloMosaic.ValueIdx
open Dgm.Tile (row)

/-- One gated layer on a tile from the loaded slabs: the packed input and state products cut into the gates' pieces,
    the packed bias row cut likewise, the candidate's matrix and bias. -/
def tileLayer (x : FVec Ideal S1024x101 .f32) (s : FVec Ideal S1024x512 .f32) (u : FVec Ideal S1x101x2048 .bf16)
    (w : FVec Ideal S1x512x1536 .bf16) (h : FVec Ideal S1x512x512 .bf16) (bz : FVec Ideal S1x1x1536 .f32)
    (bh : FVec Ideal S1x1x512 .f32) : FVec Ideal S1024x512 .f32 :=
  Dgm.Tile.core dot_S1024x512_S512x512_S1024x512_1_0_0_1_n_n bitsLt_bf16_f32 broadcasts_S1x512_S1024x512 s
    (Dgm.Tile.pre broadcasts_S1x512_S1024x512
      (extractStridedSlice S1024x512 ![0, 0] (Dgm.Tile.wide dot_S1024x101_S101x2048_S1024x2048_1_0_0_1_n_n bitsLt_bf16_f32 shapeCasts_S1x101x2048_S101x2048 x u) slices_S1024x2048_o0_0_S1024x512)
      (extractStridedSlice S1024x512 ![0, 0] (Dgm.Tile.wide dot_S1024x512_S512x1536_S1024x1536_1_0_0_1_n_n bitsLt_bf16_f32 shapeCasts_S1x512x1536_S512x1536 s w) slices_S1024x1536_o0_0_S1024x512)
      (extractStridedSlice S1x512 ![0, 0] (shapeCast S1x1536 bz shapeCasts_S1x1x1536_S1x1536) slices_S1x1536_o0_0_S1x512))
    (Dgm.Tile.pre broadcasts_S1x512_S1024x512
      (extractStridedSlice S1024x512 ![0, 512] (Dgm.Tile.wide dot_S1024x101_S101x2048_S1024x2048_1_0_0_1_n_n bitsLt_bf16_f32 shapeCasts_S1x101x2048_S101x2048 x u) slices_S1024x2048_o0_512_S1024x512)
      (extractStridedSlice S1024x512 ![0, 512] (Dgm.Tile.wide dot_S1024x512_S512x1536_S1024x1536_1_0_0_1_n_n bitsLt_bf16_f32 shapeCasts_S1x512x1536_S512x1536 s w) slices_S1024x1536_o0_512_S1024x512)
      (extractStridedSlice S1x512 ![0, 512] (shapeCast S1x1536 bz shapeCasts_S1x1x1536_S1x1536) slices_S1x1536_o0_512_S1x512))
    (Dgm.Tile.pre broadcasts_S1x512_S1024x512
      (extractStridedSlice S1024x512 ![0, 1024] (Dgm.Tile.wide dot_S1024x101_S101x2048_S1024x2048_1_0_0_1_n_n bitsLt_bf16_f32 shapeCasts_S1x101x2048_S101x2048 x u) slices_S1024x2048_o0_1024_S1024x512)
      (extractStridedSlice S1024x512 ![0, 1024] (Dgm.Tile.wide dot_S1024x512_S512x1536_S1024x1536_1_0_0_1_n_n bitsLt_bf16_f32 shapeCasts_S1x512x1536_S512x1536 s w) slices_S1024x1536_o0_1024_S1024x512)
      (extractStridedSlice S1x512 ![0, 1024] (shapeCast S1x1536 bz shapeCasts_S1x1x1536_S1x1536) slices_S1x1536_o0_1024_S1x512))
    (extractStridedSlice S1024x512 ![0, 1536] (Dgm.Tile.wide dot_S1024x101_S101x2048_S1024x2048_1_0_0_1_n_n bitsLt_bf16_f32 shapeCasts_S1x101x2048_S101x2048 x u) slices_S1024x2048_o0_1536_S1024x512)
    (shapeCast S512x512 h shapeCasts_S1x512x512_S512x512) (shapeCast S1x512 bh shapeCasts_S1x1x512_S1x512)

/-- Layer weights read off one layer's loaded slabs: gate `g` of a packed matrix at columns `512 g + q`. -/
def slabWeights (u : FVec Ideal S1x101x2048 .bf16) (w : FVec Ideal S1x512x1536 .bf16) (h : FVec Ideal S1x512x512 .bf16)
    (bz : FVec Ideal S1x1x1536 .f32) (bh : FVec Ideal S1x1x512 .f32) : Dgm.Weights 101 512 where
  uz k q := u (ix3 (0 : Fin 1) k (⟨q.val, by omega⟩ : Fin 2048))
  ug k q := u (ix3 (0 : Fin 1) k (⟨512 + q.val, by omega⟩ : Fin 2048))
  ur k q := u (ix3 (0 : Fin 1) k (⟨1024 + q.val, by omega⟩ : Fin 2048))
  uh k q := u (ix3 (0 : Fin 1) k (⟨1536 + q.val, by omega⟩ : Fin 2048))
  wz j q := w (ix3 (0 : Fin 1) j (⟨q.val, by omega⟩ : Fin 1536))
  wg j q := w (ix3 (0 : Fin 1) j (⟨512 + q.val, by omega⟩ : Fin 1536))
  wr j q := w (ix3 (0 : Fin 1) j (⟨1024 + q.val, by omega⟩ : Fin 1536))
  wh j q := h (ix3 (0 : Fin 1) j q)
  bz q := bz (ix3 (0 : Fin 1) (0 : Fin 1) (⟨q.val, by omega⟩ : Fin 1536))
  bg q := bz (ix3 (0 : Fin 1) (0 : Fin 1) (⟨512 + q.val, by omega⟩ : Fin 1536))
  br q := bz (ix3 (0 : Fin 1) (0 : Fin 1) (⟨1024 + q.val, by omega⟩ : Fin 1536))
  bh q := bh (ix3 (0 : Fin 1) (0 : Fin 1) q)

theorem dU_plain : dot_S1024x101_S101x2048_S1024x2048_1_0_0_1_n_n = DotDims.plain 1024 101 2048 := rfl
theorem dW_plain : dot_S1024x512_S512x1536_S1024x1536_1_0_0_1_n_n = DotDims.plain 1024 512 1536 := rfl
theorem dH_plain : dot_S1024x512_S512x512_S1024x512_1_0_0_1_n_n = DotDims.plain 1024 512 512 := rfl
theorem d0_plain : dot_S1024x101_S101x512_S1024x512_1_0_0_1_n_n = DotDims.plain 1024 101 512 := rfl
theorem dF_plain : dot_S1024x512_S512x1_S1024x1_1_0_0_1_n_n = DotDims.plain 1024 512 1 := rfl

/-- A gate's argument on the tile, at `(p, q)`: row `p` of the input times the gate's packed columns, plus row `p` of the
    state times its packed columns, plus the gate's piece of the bias row. -/
theorem pre_piece_apply (o : ℕ) (hsU : S1024x2048.Slices ![0, o] S1024x512) (hsW : S1024x1536.Slices ![0, o] S1024x512)
    (hsB : S1x1536.Slices ![0, o] S1x512) (x : FVec Ideal S1024x101 .f32) (s : FVec Ideal S1024x512 .f32)
    (u : FVec Ideal S1x101x2048 .bf16) (w : FVec Ideal S1x512x1536 .bf16) (bz : FVec Ideal S1x1x1536 .f32)
    (p : Fin 1024) (q : Fin 512) (cu : Fin 2048) (hcu : cu.val = o + q.val) (cw : Fin 1536) (hcw : cw.val = o + q.val) :
    Dgm.Tile.pre broadcasts_S1x512_S1024x512
        (extractStridedSlice S1024x512 ![0, o] (Dgm.Tile.wide dot_S1024x101_S101x2048_S1024x2048_1_0_0_1_n_n bitsLt_bf16_f32 shapeCasts_S1x101x2048_S101x2048 x u) hsU)
        (extractStridedSlice S1024x512 ![0, o] (Dgm.Tile.wide dot_S1024x512_S512x1536_S1024x1536_1_0_0_1_n_n bitsLt_bf16_f32 shapeCasts_S1x512x1536_S512x1536 s w) hsW)
        (extractStridedSlice S1x512 ![0, o] (shapeCast S1x1536 bz shapeCasts_S1x1x1536_S1x1536) hsB) (ix2 p q)
      = ((∑ k : Fin 101, x (ix2 p k) * u (ix3 (0 : Fin 1) k cu)) + ∑ j : Fin 512, s (ix2 p j) * w (ix3 (0 : Fin 1) j cw))
          + bz (ix3 (0 : Fin 1) (0 : Fin 1) cw) := by
  rw [Dgm.Tile.pre_apply, Dgm.Tile.piece_wide_apply _ dU_plain _ _ o hsU x u p q cu hcu,
    Dgm.Tile.piece_wide_apply _ dW_plain _ _ o hsW s w p q cw hcw,
    Dgm.Tile.piece_bias_apply shapeCasts_S1x1x1536_S1x1536 o hsB broadcasts_S1x512_S1024x512 bz p q cw hcw]

/-- One gated layer on the tile, at `(p, q)`: the one-row layer on row `p`. -/
theorem tileLayer_apply (x : FVec Ideal S1024x101 .f32) (s : FVec Ideal S1024x512 .f32) (u : FVec Ideal S1x101x2048 .bf16)
    (w : FVec Ideal S1x512x1536 .bf16) (h : FVec Ideal S1x512x512 .bf16) (bz : FVec Ideal S1x1x1536 .f32)
    (bh : FVec Ideal S1x1x512 .f32) (p : Fin 1024) (q : Fin 512) :
    tileLayer x s u w h bz bh (ix2 p q) = Dgm.layer (row x p) (row s p) (slabWeights u w h bz bh) q := by
  unfold tileLayer
  refine Dgm.Tile.core_apply _ dH_plain _ _ s _ _ _ _ _ _ (row x p) (slabWeights u w h bz bh) p ?_ ?_ ?_ ?_ ?_ ?_ q
  · intro q'
    exact pre_piece_apply 0 _ _ _ x s u w bz p q' ⟨q'.val, by omega⟩ (Nat.zero_add _).symm ⟨q'.val, by omega⟩ (Nat.zero_add _).symm
  · intro q'
    exact pre_piece_apply 512 _ _ _ x s u w bz p q' ⟨512 + q'.val, by omega⟩ rfl ⟨512 + q'.val, by omega⟩ rfl
  · intro q'
    exact pre_piece_apply 1024 _ _ _ x s u w bz p q' ⟨1024 + q'.val, by omega⟩ rfl ⟨1024 + q'.val, by omega⟩ rfl
  · intro q'
    exact Dgm.Tile.piece_wide_apply _ dU_plain _ _ 1536 _ x u p q' ⟨1536 + q'.val, by omega⟩ rfl
  · intro j q'
    exact shapeCast_1ab_ab_apply h _ j q'
  · intro q'
    exact shapeCast_1ab_ab_apply bh _ (0 : Fin 1) q'

/-- The column stored at a grid point, from the loaded values: the first dense layer, three gated layers, the projection. -/
def tileNet (x : FVec Ideal S1024x101 .f32) (w0 : FVec Ideal S101x512 .bf16) (b0 : FVec Ideal S1x512 .f32)
    (u0 u1 u2 : FVec Ideal S1x101x2048 .bf16) (w1 w2 w3 : FVec Ideal S1x512x1536 .bf16) (h0 h1 h2 : FVec Ideal S1x512x512 .bf16)
    (z0 z1 z2 : FVec Ideal S1x1x1536 .f32) (c0 c1 c2 : FVec Ideal S1x1x512 .f32)
    (wf : FVec Ideal S512x1 .bf16) (bf : FVec Ideal S1x1 .f32) : FVec Ideal S1024x1 .f32 :=
  Dgm.Tile.readout dot_S1024x512_S512x1_S1024x1_1_0_0_1_n_n bitsLt_bf16_f32 broadcasts_S1x1_S1024x1
    (tileLayer x (tileLayer x (tileLayer x
      (Dgm.Tile.dense0 dot_S1024x101_S101x512_S1024x512_1_0_0_1_n_n bitsLt_bf16_f32 broadcasts_S1x512_S1024x512 x
        (shapeCast S101x512 w0 shapeCasts_S101x512_S101x512) b0)
      u0 w1 h0 z0 c0) u1 w2 h1 z1 c1) u2 w3 h2 z2 c2)
    (shapeCast S512x1 wf shapeCasts_S512x1_S512x1) bf

/-- The stored column at row `p`: the one-row network on row `p` of the input block. -/
theorem tileNet_apply (x : FVec Ideal S1024x101 .f32) (w0 : FVec Ideal S101x512 .bf16) (b0 : FVec Ideal S1x512 .f32)
    (u0 u1 u2 : FVec Ideal S1x101x2048 .bf16) (w1 w2 w3 : FVec Ideal S1x512x1536 .bf16) (h0 h1 h2 : FVec Ideal S1x512x512 .bf16)
    (z0 z1 z2 : FVec Ideal S1x1x1536 .f32) (c0 c1 c2 : FVec Ideal S1x1x512 .f32)
    (wf : FVec Ideal S512x1 .bf16) (bf : FVec Ideal S1x1 .f32) (p : Fin 1024) (z : Fin 1) :
    tileNet x w0 b0 u0 u1 u2 w1 w2 w3 h0 h1 h2 z0 z1 z2 c0 c1 c2 wf bf (ix2 p z)
      = Dgm.net (row x p) (fun k q => w0 (ix2 k q)) (fun q => b0 (ix2 (0 : Fin 1) q))
          (slabWeights u0 w1 h0 z0 c0) (slabWeights u1 w2 h1 z1 c1) (slabWeights u2 w3 h2 z2 c2)
          (fun j => wf (ix2 j (0 : Fin 1))) (bf (ix2 (0 : Fin 1) (0 : Fin 1))) := by
  unfold tileNet
  rw [Dgm.Tile.readout_apply _ dF_plain, shapeCast_self, shapeCast_self]
  unfold Dgm.net
  congr 1
  funext j
  show tileLayer x _ u2 w3 h2 z2 c2 (ix2 p j) = _
  rw [tileLayer_apply]
  congr 1
  funext j
  show tileLayer x _ u1 w2 h1 z1 c1 (ix2 p j) = _
  rw [tileLayer_apply]
  congr 1
  funext j
  show tileLayer x _ u0 w1 h0 z0 c0 (ix2 p j) = _
  rw [tileLayer_apply]
  congr 1
  funext j
  exact Dgm.Tile.dense0_apply _ d0_plain _ _ x w0 b0 p j

/-- What the body stores is that column of the values it loads: the payloads unfold to it. -/
theorem stored_eq (x0 : Vec Ideal S1024x101 .f32) (x1 : Vec Ideal S101x512 .bf16) (x2 : Vec Ideal S1x512 .f32) (x3 : Vec Ideal S3x101x2048 .bf16)
    (x4 : Vec Ideal S3x512x1536 .bf16) (x5 : Vec Ideal S3x512x512 .bf16) (x6 : Vec Ideal S3x1x1536 .f32) (x7 : Vec Ideal S3x1x512 .f32)
    (x8 : Vec Ideal S512x1 .bf16) (x9 : Vec Ideal S1x1 .f32) :
    stored x0 x1 x2 x3 x4 x5 x6 x7 x8 x9
      = tileNet (View.ld x0 rX) (View.ld x1 rW0) (View.ld x2 rB0) (View.ld x3 rU0) (View.ld x3 rU1) (View.ld x3 rU2)
          (View.ld x4 rW1) (View.ld x4 rW2) (View.ld x4 rW3) (View.ld x5 rH0) (View.ld x5 rH1) (View.ld x5 rH2)
          (View.ld x6 rZ0) (View.ld x6 rZ1) (View.ld x6 rZ2) (View.ld x7 rC0) (View.ld x7 rC1) (View.ld x7 rC2)
          (View.ld x8 rWf) (View.ld x9 rBf) := rfl

end Cert.KernelIdeal.TileValue

end
-- ==== Proof.LibConcatLast.lean ====
/-
  A concatenation along the last of three axes, read at an index.

  When several `[A, B, Cᵢ]` arrays are laid side by side along the last axis into an `[A, B, M]` array, the result at
  `(l, k, pre + q)` — `pre` the extents of the pieces before piece `g` — is piece `g` at `(l, k, q)`.  For any number of
  pieces and any sizes; the piece is named by its position in the list.
-/
import Idealize.ShloMosaic.Lib.ValueIdx
import Idealize.ShloMosaic.Lib.Pipeline.Value

noncomputable section

namespace Idealize.ShloMosaic.ConcatLast

open Idealize.ShloMosaic Idealize.ShloMosaic.ValueIdx

/-- Piece `g` of a concatenation along the last axis, whose span starts at `pre`: the result at last coordinate
    `pre + q` is the piece at `q`. -/
theorem concat_last_apply {A B C M : ℕ} {α : Type} (xs : List ((s : Shape) × (s.Idx → α)))
    (h : Shape.Concatenates (xs.map (·.1)) (⟨3, ![A, B, M]⟩ : Shape) (2 : Fin 3)) (g : ℕ) (hg : g < xs.length)
    (x : (⟨3, ![A, B, C]⟩ : Shape).Idx → α) (hx : xs[g] = ⟨⟨3, ![A, B, C]⟩, x⟩) (pre : ℕ)
    (hpre : (((xs.take g).map (·.1)).map fun s => if h : s.rank = (⟨3, ![A, B, M]⟩ : Shape).rank
      then s.size (((2 : Fin 3) : Fin (⟨3, ![A, B, M]⟩ : Shape).rank).cast h.symm) else 0).sum = pre)
    (l : Fin A) (k : Fin B) (q : Fin C) (cc : Fin M) (hc : cc.val = pre + q.val) :
    concatenate (⟨3, ![A, B, M]⟩ : Shape) (2 : Fin 3) xs h (ix3 l k cc) = x (ix3 l k q) :=
  concatenate_apply_piece (2 : Fin 3) xs h (ix3 l k cc) g hg _ x hx rfl pre hpre (ix3 l k q)
    (fun b hb => by
      match b with
      | ⟨0, _⟩ => rfl
      | ⟨1, _⟩ => rfl
      | ⟨2, _⟩ => exact absurd rfl hb)
    (by show pre + q.val = cc.val; omega)

end Idealize.ShloMosaic.ConcatLast

end
-- ==== Proof.KernelWhole.lean ====
/-
  The kernel's result array after the run, as the network on every row of the input.

  The region finds the input array as launched and the packed, narrowed weights as the host operations left them: the
  four input-side gate matrices of every layer side by side along the last axis (gate `g` at columns `512 g + q`), the
  three state-side ones likewise, and the three gate biases likewise; narrowing changes no extended real.  Every
  weight window's block is its whole array at every grid point, and the input window's block at point `t` is rows
  `1024 t … 1024 t + 1023`.  So what point `t` writes back is rows `1024 t …` of the network applied to the whole
  input, and the 64 blocks cover the result array.
-/
import proofs.«137595_j76484777607677_2_alg».proof.Proof.KernelTile
import proofs.«137595_j76484777607677_2_alg».proof.Proof.DgmStack
import proofs.«137595_j76484777607677_2_alg».proof.Proof.LibConcatLast
import Idealize.ShloMosaic.Lib.StableHlo.Run
import Idealize.ShloMosaic.Lib.Pipeline.Value
import Idealize.ShloMosaic.Lib.Tactic

set_option maxRecDepth 16384

noncomputable section

namespace Cert.KernelIdeal.Whole

open Cert.KernelIdeal Cert.KernelIdeal.Gen Cert.KernelIdeal.Region Cert.KernelIdeal.TileValue
open Idealize.ShloMosaic Idealize.ShloMosaic.TcCoe Idealize.ShloMosaic.ValueIdx Idealize.SL.Sem
open Idealize.ShloMosaic.Pipeline (Dat)
open Idealize.ShloMosaic.ConcatLast (concat_last_apply)

variable (m : (ℓ : Loc nD τ sig) → Buf (Elt Ideal) ℓ) (ρ : Dev nD → PrngReg) (c : Dev nD)

/-! ## The arrays the host operations wrote, as the region finds them -/

theorem V_v3 : (V m c main_v3 : S101x512.Idx → EReal) = (m ((c : Thread nD τ).loc main_arg1)) := by
  dsimp only [V, hostOps0]; after_results; rfl
theorem V_v6 : (V m c main_v6 : S3x512x512.Idx → EReal) = (m ((c : Thread nD τ).loc main_arg10)) := by
  dsimp only [V, hostOps0]; after_results; rfl
theorem V_v7 : (V m c main_v7 : S512x1.Idx → EReal) = (m ((c : Thread nD τ).loc main_arg15)) := by
  dsimp only [V, hostOps0]; after_results; rfl
theorem V_v4 : (V m c main_v4 : S3x101x2048.Idx → EReal)
    = concatenate S3x101x2048 2 [⟨S3x101x512, (m ((c : Thread nD τ).loc main_arg3))⟩, ⟨S3x101x512, (m ((c : Thread nD τ).loc main_arg4))⟩, ⟨S3x101x512, (m ((c : Thread nD τ).loc main_arg5))⟩, ⟨S3x101x512, (m ((c : Thread nD τ).loc main_arg6))⟩]
        concatenates_S3x101x512_S3x101x512_S3x101x512_S3x101x512_S3x101x2048_d2 := by
  dsimp only [V, hostOps0]; after_results; rfl
theorem V_v5 : (V m c main_v5 : S3x512x1536.Idx → EReal)
    = concatenate S3x512x1536 2 [⟨S3x512x512, (m ((c : Thread nD τ).loc main_arg7))⟩, ⟨S3x512x512, (m ((c : Thread nD τ).loc main_arg8))⟩, ⟨S3x512x512, (m ((c : Thread nD τ).loc main_arg9))⟩]
        concatenates_S3x512x512_S3x512x512_S3x512x512_S3x512x1536_d2 := by
  dsimp only [V, hostOps0]; after_results; rfl
theorem V_v2 : (V m c main_v2 : S3x1x1536.Idx → EReal)
    = concatenate S3x1x1536 2 [⟨S3x1x512, (m ((c : Thread nD τ).loc main_arg11))⟩, ⟨S3x1x512, (m ((c : Thread nD τ).loc main_arg12))⟩, ⟨S3x1x512, (m ((c : Thread nD τ).loc main_arg13))⟩]
        concatenates_S3x1x512_S3x1x512_S3x1x512_S3x1x1536_d2 := by
  dsimp only [V, hostOps0]; after_results; rfl

/-! ## The windows' blocks -/

/-- The input window's block index is the grid point; every weight window's is zero at every point. -/
theorem index_facts : ∀ t : Fin cfg0.N, win0_0.index t (0 : Fin 2) = t.val ∧ win0_0.index t (1 : Fin 2) = 0
    ∧ win0_10.index t (0 : Fin 2) = t.val ∧ win0_10.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 3) = 0
    ∧ win0_3.index t (1 : Fin 3) = 0
    ∧ win0_3.index t (2 : Fin 3) = 0
    ∧ win0_4.index t (0 : Fin 3) = 0
    ∧ win0_4.index t (1 : Fin 3) = 0
    ∧ win0_4.index t (2 : Fin 3) = 0
    ∧ win0_5.index t (0 : Fin 3) = 0
    ∧ win0_5.index t (1 : Fin 3) = 0
    ∧ win0_5.index t (2 : Fin 3) = 0
    ∧ win0_6.index t (0 : Fin 3) = 0
    ∧ win0_6.index t (1 : Fin 3) = 0
    ∧ win0_6.index t (2 : Fin 3) = 0
    ∧ win0_7.index t (0 : Fin 3) = 0
    ∧ win0_7.index t (1 : Fin 3) = 0
    ∧ win0_7.index t (2 : Fin 3) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-- The input window's block at point `t` is rows `1024 t …` of the input array. -/
theorem iblk0_apply (t : Fin cfg0.N) (p : Fin 1024) (k : Fin 101) (r : Fin 65536) (hr : r.val = 1024 * t.val + p.val) :
    (iblk m c 0 t : S1024x101.Idx → EReal) (ix2 p k) = ((m ((c : Thread nD τ).loc main_arg0)) : S65536x101.Idx → EReal) (ix2 r k) := by
  have hi := index_facts t
  unfold iblk
  rw [View.read_apply]
  show V m c main_arg0 _ = _
  rw [V_arg m c main_arg0 (by decide)]
  congr 1
  funext a
  apply Fin.ext
  match a with
  | ⟨0, _⟩ => show win0_0.index t (0 : Fin 2) * 1024 + 1 * p.val = r.val; rw [hi.1, hr]; omega
  | ⟨1, _⟩ => show win0_0.index t (1 : Fin 2) * 101 + 1 * k.val = k.val; rw [hi.2.1]; omega

/-- Window 1's block is its whole array at every point. -/
theorem iblk1_eq (t : Fin cfg0.N) : (iblk m c 1 t : S101x512.Idx → EReal) = V m c main_v3 := by
  obtain ⟨e0a, e0b, e10a, e10b, e1_0, e1_1, e2_0, e2_1, e3_0, e3_1, e3_2, e4_0, e4_1, e4_2, e5_0, e5_1, e5_2, e6_0, e6_1, e6_2, e7_0, e7_1, e7_2, e8_0, e8_1, e9_0, e9_1⟩ := index_facts t
  funext y
  unfold iblk
  rw [View.read_apply]
  show V m c main_v3 _ = V m c main_v3 y
  congr 1
  funext a
  apply Fin.ext
  match a with
  | ⟨0, _⟩ => show win0_1.index t (0 : Fin 2) * 101 + 1 * (y 0).val = (y 0).val; rw [e1_0]; omega
  | ⟨1, _⟩ => show win0_1.index t (1 : Fin 2) * 512 + 1 * (y 1).val = (y 1).val; rw [e1_1]; omega

/-- Window 2's block is its whole array at every point. -/
theorem iblk2_eq (t : Fin cfg0.N) : (iblk m c 2 t : S1x512.Idx → EReal) = V m c main_arg2 := by
  obtain ⟨e0a, e0b, e10a, e10b, e1_0, e1_1, e2_0, e2_1, e3_0, e3_1, e3_2, e4_0, e4_1, e4_2, e5_0, e5_1, e5_2, e6_0, e6_1, e6_2, e7_0, e7_1, e7_2, e8_0, e8_1, e9_0, e9_1⟩ := index_facts t
  funext y
  unfold iblk
  rw [View.read_apply]
  show V m c main_arg2 _ = V m c main_arg2 y
  congr 1
  funext a
  apply Fin.ext
  match a with
  | ⟨0, _⟩ => show win0_2.index t (0 : Fin 2) * 1 + 1 * (y 0).val = (y 0).val; rw [e2_0]; omega
  | ⟨1, _⟩ => show win0_2.index t (1 : Fin 2) * 512 + 1 * (y 1).val = (y 1).val; rw [e2_1]; omega

/-- Window 3's block is its whole array at every point. -/
theorem iblk3_eq (t : Fin cfg0.N) : (iblk m c 3 t : S3x101x2048.Idx → EReal) = V m c main_v4 := by
  obtain ⟨e0a, e0b, e10a, e10b, e1_0, e1_1, e2_0, e2_1, e3_0, e3_1, e3_2, e4_0, e4_1, e4_2, e5_0, e5_1, e5_2, e6_0, e6_1, e6_2, e7_0, e7_1, e7_2, e8_0, e8_1, e9_0, e9_1⟩ := index_facts t
  funext y
  unfold iblk
  rw [View.read_apply]
  show V m c main_v4 _ = V m c main_v4 y
  congr 1
  funext a
  apply Fin.ext
  match a with
  | ⟨0, _⟩ => show win0_3.index t (0 : Fin 3) * 3 + 1 * (y 0).val = (y 0).val; rw [e3_0]; omega
  | ⟨1, _⟩ => show win0_3.index t (1 : Fin 3) * 101 + 1 * (y 1).val = (y 1).val; rw [e3_1]; omega
  | ⟨2, _⟩ => show win0_3.index t (2 : Fin 3) * 2048 + 1 * (y 2).val = (y 2).val; rw [e3_2]; omega

/-- Window 4's block is its whole array at every point. -/
theorem iblk4_eq (t : Fin cfg0.N) : (iblk m c 4 t : S3x512x1536.Idx → EReal) = V m c main_v5 := by
  obtain ⟨e0a, e0b, e10a, e10b, e1_0, e1_1, e2_0, e2_1, e3_0, e3_1, e3_2, e4_0, e4_1, e4_2, e5_0, e5_1, e5_2, e6_0, e6_1, e6_2, e7_0, e7_1, e7_2, e8_0, e8_1, e9_0, e9_1⟩ := index_facts t
  funext y
  unfold iblk
  rw [View.read_apply]
  show V m c main_v5 _ = V m c main_v5 y
  congr 1
  funext a
  apply Fin.ext
  match a with
  | ⟨0, _⟩ => show win0_4.index t (0 : Fin 3) * 3 + 1 * (y 0).val = (y 0).val; rw [e4_0]; omega
  | ⟨1, _⟩ => show win0_4.index t (1 : Fin 3) * 512 + 1 * (y 1).val = (y 1).val; rw [e4_1]; omega
  | ⟨2, _⟩ => show win0_4.index t (2 : Fin 3) * 1536 + 1 * (y 2).val = (y 2).val; rw [e4_2]; omega

/-- Window 5's block is its whole array at every point. -/
theorem iblk5_eq (t : Fin cfg0.N) : (iblk m c 5 t : S3x512x512.Idx → EReal) = V m c main_v6 := by
  obtain ⟨e0a, e0b, e10a, e10b, e1_0, e1_1, e2_0, e2_1, e3_0, e3_1, e3_2, e4_0, e4_1, e4_2, e5_0, e5_1, e5_2, e6_0, e6_1, e6_2, e7_0, e7_1, e7_2, e8_0, e8_1, e9_0, e9_1⟩ := index_facts t
  funext y
  unfold iblk
  rw [View.read_apply]
  show V m c main_v6 _ = V m c main_v6 y
  congr 1
  funext a
  apply Fin.ext
  match a with
  | ⟨0, _⟩ => show win0_5.index t (0 : Fin 3) * 3 + 1 * (y 0).val = (y 0).val; rw [e5_0]; omega
  | ⟨1, _⟩ => show win0_5.index t (1 : Fin 3) * 512 + 1 * (y 1).val = (y 1).val; rw [e5_1]; omega
  | ⟨2, _⟩ => show win0_5.index t (2 : Fin 3) * 512 + 1 * (y 2).val = (y 2).val; rw [e5_2]; omega

/-- Window 6's block is its whole array at every point. -/
theorem iblk6_eq (t : Fin cfg0.N) : (iblk m c 6 t : S3x1x1536.Idx → EReal) = V m c main_v2 := by
  obtain ⟨e0a, e0b, e10a, e10b, e1_0, e1_1, e2_0, e2_1, e3_0, e3_1, e3_2, e4_0, e4_1, e4_2, e5_0, e5_1, e5_2, e6_0, e6_1, e6_2, e7_0, e7_1, e7_2, e8_0, e8_1, e9_0, e9_1⟩ := index_facts t
  funext y
  unfold iblk
  rw [View.read_apply]
  show V m c main_v2 _ = V m c main_v2 y
  congr 1
  funext a
  apply Fin.ext
  match a with
  | ⟨0, _⟩ => show win0_6.index t (0 : Fin 3) * 3 + 1 * (y 0).val = (y 0).val; rw [e6_0]; omega
  | ⟨1, _⟩ => show win0_6.index t (1 : Fin 3) * 1 + 1 * (y 1).val = (y 1).val; rw [e6_1]; omega
  | ⟨2, _⟩ => show win0_6.index t (2 : Fin 3) * 1536 + 1 * (y 2).val = (y 2).val; rw [e6_2]; omega

/-- Window 7's block is its whole array at every point. -/
theorem iblk7_eq (t : Fin cfg0.N) : (iblk m c 7 t : S3x1x512.Idx → EReal) = V m c main_arg14 := by
  obtain ⟨e0a, e0b, e10a, e10b, e1_0, e1_1, e2_0, e2_1, e3_0, e3_1, e3_2, e4_0, e4_1, e4_2, e5_0, e5_1, e5_2, e6_0, e6_1, e6_2, e7_0, e7_1, e7_2, e8_0, e8_1, e9_0, e9_1⟩ := index_facts t
  funext y
  unfold iblk
  rw [View.read_apply]
  show V m c main_arg14 _ = V m c main_arg14 y
  congr 1
  funext a
  apply Fin.ext
  match a with
  | ⟨0, _⟩ => show win0_7.index t (0 : Fin 3) * 3 + 1 * (y 0).val = (y 0).val; rw [e7_0]; omega
  | ⟨1, _⟩ => show win0_7.index t (1 : Fin 3) * 1 + 1 * (y 1).val = (y 1).val; rw [e7_1]; omega
  | ⟨2, _⟩ => show win0_7.index t (2 : Fin 3) * 512 + 1 * (y 2).val = (y 2).val; rw [e7_2]; omega

/-- Window 8's block is its whole array at every point. -/
theorem iblk8_eq (t : Fin cfg0.N) : (iblk m c 8 t : S512x1.Idx → EReal) = V m c main_v7 := by
  obtain ⟨e0a, e0b, e10a, e10b, e1_0, e1_1, e2_0, e2_1, e3_0, e3_1, e3_2, e4_0, e4_1, e4_2, e5_0, e5_1, e5_2, e6_0, e6_1, e6_2, e7_0, e7_1, e7_2, e8_0, e8_1, e9_0, e9_1⟩ := index_facts t
  funext y
  unfold iblk
  rw [View.read_apply]
  show V m c main_v7 _ = V m c main_v7 y
  congr 1
  funext a
  apply Fin.ext
  match a with
  | ⟨0, _⟩ => show win0_8.index t (0 : Fin 2) * 512 + 1 * (y 0).val = (y 0).val; rw [e8_0]; omega
  | ⟨1, _⟩ => show win0_8.index t (1 : Fin 2) * 1 + 1 * (y 1).val = (y 1).val; rw [e8_1]; omega

/-- Window 9's block is its whole array at every point. -/
theorem iblk9_eq (t : Fin cfg0.N) : (iblk m c 9 t : S1x1.Idx → EReal) = V m c main_arg16 := by
  obtain ⟨e0a, e0b, e10a, e10b, e1_0, e1_1, e2_0, e2_1, e3_0, e3_1, e3_2, e4_0, e4_1, e4_2, e5_0, e5_1, e5_2, e6_0, e6_1, e6_2, e7_0, e7_1, e7_2, e8_0, e8_1, e9_0, e9_1⟩ := index_facts t
  funext y
  unfold iblk
  rw [View.read_apply]
  show V m c main_arg16 _ = V m c main_arg16 y
  congr 1
  funext a
  apply Fin.ext
  match a with
  | ⟨0, _⟩ => show win0_9.index t (0 : Fin 2) * 1 + 1 * (y 0).val = (y 0).val; rw [e9_0]; omega
  | ⟨1, _⟩ => show win0_9.index t (1 : Fin 2) * 1 + 1 * (y 1).val = (y 1).val; rw [e9_1]; omega

/-! ## One layer's weights, read through the blocks -/

/-- Layer `l`'s weights read off the slabs the body loads at point `t` are the argument arrays' at leading index `l`: gate
    `g`'s piece of a packed array is the gate's own argument array. -/
theorem slabWeights_eq (t : Fin cfg0.N) (l : ℕ) (l' : Fin 3) (hl : l'.val = l)
    (iU : ∀ ax, (![l, 0, 0] : Fin 3 → ℕ) ax + S1x101x2048.size ax ≤ S3x101x2048.size ax)
    (iW : ∀ ax, (![l, 0, 0] : Fin 3 → ℕ) ax + S1x512x1536.size ax ≤ S3x512x1536.size ax)
    (iH : ∀ ax, (![l, 0, 0] : Fin 3 → ℕ) ax + S1x512x512.size ax ≤ S3x512x512.size ax)
    (iZ : ∀ ax, (![l, 0, 0] : Fin 3 → ℕ) ax + S1x1x1536.size ax ≤ S3x1x1536.size ax)
    (iC : ∀ ax, (![l, 0, 0] : Fin 3 → ℕ) ax + S1x1x512.size ax ≤ S3x1x512.size ax) :
    slabWeights (View.ld (iblk m c 3 t) (Rect.unit (s := S3x101x2048) ![l, 0, 0] S1x101x2048.size iU))
        (View.ld (iblk m c 4 t) (Rect.unit (s := S3x512x1536) ![l, 0, 0] S1x512x1536.size iW))
        (View.ld (iblk m c 5 t) (Rect.unit (s := S3x512x512) ![l, 0, 0] S1x512x512.size iH))
        (View.ld (iblk m c 6 t) (Rect.unit (s := S3x1x1536) ![l, 0, 0] S1x1x1536.size iZ))
        (View.ld (iblk m c 7 t) (Rect.unit (s := S3x1x512) ![l, 0, 0] S1x1x512.size iC))
      = Dgm.stackWeights (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) l' := by
  have hU : ∀ (g : ℕ) (hg : g < 4) (x : S3x101x512.Idx → EReal)
      (hx : ([⟨S3x101x512, (m ((c : Thread nD τ).loc main_arg3))⟩, ⟨S3x101x512, (m ((c : Thread nD τ).loc main_arg4))⟩, ⟨S3x101x512, (m ((c : Thread nD τ).loc main_arg5))⟩, ⟨S3x101x512, (m ((c : Thread nD τ).loc main_arg6))⟩] : List ((s : Shape) × (s.Idx → EReal)))[g] = ⟨S3x101x512, x⟩)
      (k : Fin 101) (q : Fin 512) (cc : Fin 2048) (hc : cc.val = 512 * g + q.val),
      View.ld (iblk m c 3 t) (Rect.unit (s := S3x101x2048) ![l, 0, 0] S1x101x2048.size iU) (ix3 (0 : Fin 1) k cc) = x (ix3 l' k q) := by
    intro g hg x hx k q cc hc
    rw [Dgm.Tile.ld_slab _ l iU l' hl, iblk3_eq, V_v4]
    refine concat_last_apply _ _ g (by exact hg) x hx (512 * g) ?_ l' k q cc hc
    interval_cases g <;> rfl
  have hW : ∀ (g : ℕ) (hg : g < 3) (x : S3x512x512.Idx → EReal)
      (hx : ([⟨S3x512x512, (m ((c : Thread nD τ).loc main_arg7))⟩, ⟨S3x512x512, (m ((c : Thread nD τ).loc main_arg8))⟩, ⟨S3x512x512, (m ((c : Thread nD τ).loc main_arg9))⟩] : List ((s : Shape) × (s.Idx → EReal)))[g] = ⟨S3x512x512, x⟩)
      (k : Fin 512) (q : Fin 512) (cc : Fin 1536) (hc : cc.val = 512 * g + q.val),
      View.ld (iblk m c 4 t) (Rect.unit (s := S3x512x1536) ![l, 0, 0] S1x512x1536.size iW) (ix3 (0 : Fin 1) k cc) = x (ix3 l' k q) := by
    intro g hg x hx k q cc hc
    rw [Dgm.Tile.ld_slab _ l iW l' hl, iblk4_eq, V_v5]
    refine concat_last_apply _ _ g (by exact hg) x hx (512 * g) ?_ l' k q cc hc
    interval_cases g <;> rfl
  have hB : ∀ (g : ℕ) (hg : g < 3) (x : S3x1x512.Idx → EReal)
      (hx : ([⟨S3x1x512, (m ((c : Thread nD τ).loc main_arg11))⟩, ⟨S3x1x512, (m ((c : Thread nD τ).loc main_arg12))⟩, ⟨S3x1x512, (m ((c : Thread nD τ).loc main_arg13))⟩] : List ((s : Shape) × (s.Idx → EReal)))[g] = ⟨S3x1x512, x⟩)
      (q : Fin 512) (cc : Fin 1536) (hc : cc.val = 512 * g + q.val),
      View.ld (iblk m c 6 t) (Rect.unit (s := S3x1x1536) ![l, 0, 0] S1x1x1536.size iZ) (ix3 (0 : Fin 1) (0 : Fin 1) cc) = x (ix3 l' (0 : Fin 1) q) := by
    intro g hg x hx q cc hc
    rw [Dgm.Tile.ld_slab _ l iZ l' hl, iblk6_eq, V_v2]
    refine concat_last_apply _ _ g (by exact hg) x hx (512 * g) ?_ l' (0 : Fin 1) q cc hc
    interval_cases g <;> rfl
  unfold slabWeights Dgm.stackWeights
  congr 1
  · funext k q; exact hU 0 (by omega) _ rfl k q _ (by show q.val = 512 * 0 + q.val; omega)
  · funext k q; exact hU 1 (by omega) _ rfl k q _ (by show 512 + q.val = 512 * 1 + q.val; omega)
  · funext k q; exact hU 2 (by omega) _ rfl k q _ (by show 1024 + q.val = 512 * 2 + q.val; omega)
  · funext k q; exact hU 3 (by omega) _ rfl k q _ (by show 1536 + q.val = 512 * 3 + q.val; omega)
  · funext k q; exact hW 0 (by omega) _ rfl k q _ (by show q.val = 512 * 0 + q.val; omega)
  · funext k q; exact hW 1 (by omega) _ rfl k q _ (by show 512 + q.val = 512 * 1 + q.val; omega)
  · funext k q; exact hW 2 (by omega) _ rfl k q _ (by show 1024 + q.val = 512 * 2 + q.val; omega)
  · funext k q
    rw [Dgm.Tile.ld_slab _ l iH l' hl, iblk5_eq, V_v6]
  · funext q; exact hB 0 (by omega) _ rfl q _ (by show q.val = 512 * 0 + q.val; omega)
  · funext q; exact hB 1 (by omega) _ rfl q _ (by show 512 + q.val = 512 * 1 + q.val; omega)
  · funext q; exact hB 2 (by omega) _ rfl q _ (by show 1024 + q.val = 512 * 2 + q.val; omega)
  · funext q
    rw [Dgm.Tile.ld_slab _ l iC l' hl, iblk7_eq, V_arg m c main_arg14 (by decide)]

/-! ## What a point writes back, and the array after the run -/

/-- The result array after the run: the network on every row of the input array. -/
abbrev G : S65536x1.Idx → EReal :=
  Dgm.whole (R := 65536) (D := 101) (N := 512) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

theorem hz : (![0, 0] : Fin 2 → Nat) = fun _ => 0 := funext fun a => by fin_cases a <;> rfl

/-- What the body stores at point `t`, at row `p` of the block, is the network on row `1024 t + p` of the input. -/
theorem stored_apply (t : Fin cfg0.N) (p : Fin 1024) (z : Fin 1) (r : Fin 65536) (hr : r.val = 1024 * t.val + p.val) :
    stored (iblk m c 0 t) (iblk m c 1 t) (iblk m c 2 t) (iblk m c 3 t) (iblk m c 4 t) (iblk m c 5 t) (iblk m c 6 t) (iblk m c 7 t) (iblk m c 8 t) (iblk m c 9 t) (ix2 p z) = G m c (ix2 r z) := by
  have l0 : ∀ x : S1024x101.Idx → EReal, View.ld (Val := Elt Ideal) (e' := .f32) x rX = x := fun x => View.ld_unit_zero (Val := Elt Ideal) (e := .f32) (S := S1024x101) hz inb_S1024x101_S1024x101_0_0 x
  have l1 : ∀ x : S101x512.Idx → EReal, View.ld (Val := Elt Ideal) (e' := .bf16) x rW0 = x := fun x => View.ld_unit_zero (Val := Elt Ideal) (e := .bf16) (S := S101x512) hz inb_S101x512_S101x512_0_0 x
  have l2 : ∀ x : S1x512.Idx → EReal, View.ld (Val := Elt Ideal) (e' := .f32) x rB0 = x := fun x => View.ld_unit_zero (Val := Elt Ideal) (e := .f32) (S := S1x512) hz inb_S1x512_S1x512_0_0 x
  have l8 : ∀ x : S512x1.Idx → EReal, View.ld (Val := Elt Ideal) (e' := .bf16) x rWf = x := fun x => View.ld_unit_zero (Val := Elt Ideal) (e := .bf16) (S := S512x1) hz inb_S512x1_S512x1_0_0 x
  have l9 : ∀ x : S1x1.Idx → EReal, View.ld (Val := Elt Ideal) (e' := .f32) x rBf = x := fun x => View.ld_unit_zero (Val := Elt Ideal) (e := .f32) (S := S1x1) hz inb_S1x1_S1x1_0_0 x
  rw [stored_eq, tileNet_apply, l0, l1, l2, l8, l9]
  rw [slabWeights_eq m c t 0 0 rfl, slabWeights_eq m c t 1 1 rfl, slabWeights_eq m c t 2 2 rfl,
    iblk1_eq, iblk2_eq, iblk8_eq, iblk9_eq, V_v3, V_v7, V_arg m c main_arg2 (by decide), V_arg m c main_arg16 (by decide)]
  show _ = Dgm.net _ _ _ _ _ _ _ _
  congr 1
  funext k
  exact iblk0_apply m c t p k r hr

/-- What point `t` writes back is block `t` of `G`. -/
theorem flushed_eq (t : Fin cfg0.N) :
    (dats m 0 c).flushed 10 t = ((cfg0.win 10).blk t).view.read (Elt Ideal) (G m c) := by
  show (cfg0.win 10).cut (grid0.coords t) ((dats m 0 c).after 10 t) = _
  rw [after10]
  unfold out
  rw [View.canon_unit_zero hz]
  have hi := index_facts t
  funext j
  obtain ⟨p, z, rfl⟩ : ∃ (p : Fin 1024) (z : Fin 1), j = ix2 p z := ⟨j 0, j 1, eq_ix2 j⟩
  have ht : t.val < 64 := Nat.lt_of_lt_of_eq t.isLt N_0
  have hr : 1024 * t.val + p.val < 65536 := by have := p.isLt; omega
  show stored (iblk m c 0 t) (iblk m c 1 t) (iblk m c 2 t) (iblk m c 3 t) (iblk m c 4 t) (iblk m c 5 t) (iblk m c 6 t) (iblk m c 7 t) (iblk m c 8 t) (iblk m c 9 t) (ix2 p z) = G m c (((cfg0.win 10).blk t).view.emb (ix2 p z))
  rw [stored_apply m c t p z ⟨1024 * t.val + p.val, hr⟩ rfl]
  congr 1
  funext a
  apply Fin.ext
  match a with
  | ⟨0, _⟩ => show 1024 * t.val + p.val = win0_10.index t (0 : Fin 2) * 1024 + 1 * p.val; rw [hi.2.2.1]; omega
  | ⟨1, _⟩ => show z.val = win0_10.index t (1 : Fin 2) * 1 + 1 * z.val; rw [hi.2.2.2.1]; omega

/-- An index of the result array is in point `t`'s block iff each coordinate is in the block's range on its axis. -/
theorem mem_blk (t : Fin cfg0.N) (i : S65536x1.Idx) :
    i ∈ ((cfg0.win 10).blk t).view.set ↔ ∀ a : Fin 2, win0_10.index t a * S1024x1.size a ≤ (i a).val ∧ (i a).val < win0_10.index t a * S1024x1.size a + S1024x1.size a := by
  show i ∈ ((View.whole main_v8).slice (win0_10.rect t)).set ↔ _
  rw [View.set_slice_whole, Rect.mem_set_unit]
  exact Iff.rfl

/-- The 64 blocks cover the result array: row `r` is in the block of point `r / 1024`. -/
theorem cover (i : S65536x1.Idx) : ∃ t : Fin cfg0.N, (cfg0.win 10).flush t = true ∧ i ∈ ((cfg0.win 10).blk t).view.set := by
  have h0 : (i 0).val < 65536 := (i 0).isLt
  have h1 : (i 1).val < 1 := (i 1).isLt
  let t : Fin cfg0.N := ⟨(i 0).val / 1024, Nat.lt_of_lt_of_eq (by omega : (i 0).val / 1024 < 64) N_0.symm⟩
  have hi := index_facts t
  refine ⟨t, flush0_10 t, ?_⟩
  rw [mem_blk]
  intro a
  match a with
  | ⟨0, _⟩ => show win0_10.index t (0 : Fin 2) * 1024 ≤ (i 0).val ∧ (i 0).val < win0_10.index t (0 : Fin 2) * 1024 + 1024
              rw [hi.2.2.1]; show (i 0).val / 1024 * 1024 ≤ (i 0).val ∧ (i 0).val < (i 0).val / 1024 * 1024 + 1024; omega
  | ⟨1, _⟩ => show win0_10.index t (1 : Fin 2) * 1 ≤ (i 1).val ∧ (i 1).val < win0_10.index t (1 : Fin 2) * 1 + 1
              rw [hi.2.2.2.1]; omega

/-- The result array after the run is `G`. -/
theorem final : (dats m 0 c).arrAt 10 cfg0.N = G m c :=
  (dats m 0 c).arrAt_eq_of_cover 10 (G m c) (fun t _ => flushed_eq m c t) (cover)

/-- The run, read: the result array at the network on every row of the input, every argument array unchanged. -/
theorem run : θ_run defs (onTc (τ := τ) (main (F := Ideal))) ⟨m, fun _ => 0, ρ⟩ fun r => ∀ c : Dev nD,
      r.2.mem ((c : Thread nD τ).loc main_v8) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨((h c).1 10).trans (final m c),
      kept_staged m r h c 0 rfl main_arg0 rfl (V_arg m c main_arg0 (by decide)),
      kept_rest m r h c main_arg1 (by decide) (by decide) (V_arg m c main_arg1 (by decide)),
      kept_staged m r h c 2 rfl main_arg2 rfl (V_arg m c main_arg2 (by decide)),
      kept_rest m r h c main_arg3 (by decide) (by decide) (V_arg m c main_arg3 (by decide)),
      kept_rest m r h c main_arg4 (by decide) (by decide) (V_arg m c main_arg4 (by decide)),
      kept_rest m r h c main_arg5 (by decide) (by decide) (V_arg m c main_arg5 (by decide)),
      kept_rest m r h c main_arg6 (by decide) (by decide) (V_arg m c main_arg6 (by decide)),
      kept_rest m r h c main_arg7 (by decide) (by decide) (V_arg m c main_arg7 (by decide)),
      kept_rest m r h c main_arg8 (by decide) (by decide) (V_arg m c main_arg8 (by decide)),
      kept_rest m r h c main_arg9 (by decide) (by decide) (V_arg m c main_arg9 (by decide)),
      kept_rest m r h c main_arg10 (by decide) (by decide) (V_arg m c main_arg10 (by decide)),
      kept_rest m r h c main_arg11 (by decide) (by decide) (V_arg m c main_arg11 (by decide)),
      kept_rest m r h c main_arg12 (by decide) (by decide) (V_arg m c main_arg12 (by decide)),
      kept_rest m r h c main_arg13 (by decide) (by decide) (V_arg m c main_arg13 (by decide)),
      kept_staged m r h c 7 rfl main_arg14 rfl (V_arg m c main_arg14 (by decide)),
      kept_rest m r h c main_arg15 (by decide) (by decide) (V_arg m c main_arg15 (by decide)),
      kept_staged m r h c 9 rfl main_arg16 rfl (V_arg m c main_arg16 (by decide))⟩) (run_main m ρ)

end Cert.KernelIdeal.Whole

end
-- ==== Proof.lean ====
/-
  The certificate: the kernel (as printed and idealized) and the reference run to the end without a fault and leave
  their arguments unchanged, and at the ideal values the idealized kernel and the idealized reference end with equal
  results.

  The network is a dense layer `tanh (x·W₀ + b₀)`, three gated layers — gates `tanh ((x·U + s·W) + b)`, a candidate
  `tanh ((x·Uₕ + (s ⊙ r)·Wₕ) + bₕ)`, the new state `(1 - g) ⊙ h + z ⊙ s` — and a projection `s·w_f + b_f`, applied to each
  of 65536 input rows.  The reference does this on all rows at once with one product per gate.  The kernel works on
  tiles of 1024 rows and multiplies by the gates' matrices packed side by side, cutting the wide products into the
  gates' pieces; it narrows its operands to a shorter float format first, which changes no extended real.  Packing,
  tiling and narrowing change no entry, and both programs associate every sum the same way, so the two results are
  one function of the arguments (no finiteness is needed): `Dgm.whole`.  The idealization rewrote nothing, so the
  `preserves` conjunct is trivial.
-/
import proofs.«137595_j76484777607677_2_alg».proof.Defs
import proofs.«137595_j76484777607677_2_alg».proof.Proof.Gen.Kernel
import proofs.«137595_j76484777607677_2_alg».proof.Proof.Gen.KernelIdeal
import proofs.«137595_j76484777607677_2_alg».proof.Proof.Gen.ReferenceIdeal
import proofs.«137595_j76484777607677_2_alg».proof.Proof.Gen.Pre_finite_inputs
import proofs.«137595_j76484777607677_2_alg».proof.Proof.RefRun
import proofs.«137595_j76484777607677_2_alg».proof.Proof.KernelRegion
import proofs.«137595_j76484777607677_2_alg».proof.Proof.KernelWhole
import proofs.«137595_j76484777607677_2_alg».proof.Proof.DgmRef
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Region.frame m ρ

/-- The idealized kernel runs and keeps its arguments. -/
theorem frame_ki : Cert.frame_KernelIdeal := fun m ρ _ => Cert.KernelIdeal.Region.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.HandRun.run m ρ)

/-- The reference run's result term is the reference's stages composed. -/
theorem ref_term (m' : (ℓ : Loc Cert.ReferenceIdeal.nD Cert.ReferenceIdeal.τ Cert.ReferenceIdeal.sig) → Buf (Elt Ideal) ℓ)
    (c : Dev Cert.ReferenceIdeal.nD) (v : Buf (Elt Ideal) ((c.tc : Thread Cert.ReferenceIdeal.nD Cert.ReferenceIdeal.τ).loc Cert.ReferenceIdeal.main_v168))
    (h : v = Cert.ReferenceIdeal.RefValue.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))) :
    v = Dgm.whole (R := 65536) (D := 101) (N := 512) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) :=
  h.trans (Cert.ReferenceIdeal.RefValue.result_eq_whole _ _ _ _ _ _ _ _ _ _ _ _ _ _ _ _ _)

/-- At the ideal values both programs end with the network on every row of the input. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨?_, (h c).2⟩)
    (Cert.ReferenceIdeal.HandRun.run m' ρ')
  obtain ⟨e0, e1, e2, e3, e4, e5, e6, e7, e8, e9, e10, e11, e12, e13, e14, e15, e16⟩ := hagree c
  refine (ref_term m' c _ (h c).1).trans ?_
  rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
